-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x15 : Shape := ⟨2, ![16384, 15]⟩
abbrev S65536x512 : Shape := ⟨2, ![65536, 512]⟩
abbrev S256x128 : Shape := ⟨2, ![256, 128]⟩
abbrev S1024x512 : Shape := ⟨2, ![1024, 512]⟩
abbrev S512x1024 : Shape := ⟨2, ![512, 1024]⟩
abbrev S512 : Shape := ⟨1, ![512]⟩
abbrev S512x512 : Shape := ⟨2, ![512, 512]⟩
abbrev S512x640 : Shape := ⟨2, ![512, 640]⟩
abbrev S1024 : Shape := ⟨1, ![1024]⟩
abbrev S1x512 : Shape := ⟨2, ![1, 512]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x640 : S_.BroadcastsInDim S512x640 (![] : Fin 0 → Fin S512x640.rank)
  reducesTo_S512x640_S_d0_1 : S512x640.ReducesTo [0, 1] S_
  bcast_S_S1024 : S_.BroadcastsInDim S1024 (![] : Fin 0 → Fin S1024.rank)
  reducesTo_S1024_S_d0 : S1024.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg24 : FVec F S1x512 .f32) (main_arg25 : FVec F S1 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S1x512 .f32 := Host.absf main_arg24
  let main_cst_34 : FVec F S_ .f32 := constant S_ .f32 0x7F800000#32
  let main_v90 : FVec F S1x512 .f32 := broadcastInDim S1x512 ![] bcast_S_S1x512 main_cst_34
  let main_v91 : IVec S1x512 1 := cmpf .olt main_v89 main_v90
  let main_c_35 : IVec S_ 1 := constantI S_ 1 1#1
  let main_v92 : IVec S_ 1 := (fun x v => Host.reduce IntOp.andi x v reducesTo_S1x512_S_d0_1 h_S_) main_v91 main_c_35
  let main_v93 : IVec S_ 1 := andi main_v88 main_v92
  let main_v94 : FVec F S1 .f32 := Host.absf main_arg25
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v63 : IVec S_ 1) (main_v67 : IVec S_ 1) : IVec S_ 1 :=
  let main_v68 : IVec S_ 1 := andi main_v63 main_v67
  let main_v69 : FVec F S512x1024 .f32 := Host.absf main_arg20
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S512 .f32 := Host.absf main_arg21
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x640 .f32 := Host.absf main_arg22
  let main_cst_30 : FVec F S_ .f32 := constant S_ .f32 0x7F800000#32
  let main_v80 : FVec F S512x640 .f32 := broadcastInDim S512x640 ![] bcast_S_S512x640 main_cst_30
  let main_v81 : IVec S512x640 1 := cmpf .olt main_v79 main_v80
  let main_c_31 : IVec S_ 1 := constantI S_ 1 1#1
  let main_v82 : IVec S_ 1 := (fun x v => Host.reduce IntOp.andi x v reducesTo_S512x640_S_d0_1 h_S_) main_v81 main_c_31
  let main_v83 : IVec S_ 1 := andi main_v78 main_v82
  let main_v84 : FVec F S512 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v48 : IVec S_ 1) (main_v49 : FVec F S512x640 .f32) (main_v50 : FVec F S512x640 .f32) : IVec S_ 1 :=
  let main_v51 : IVec S512x640 1 := cmpf .olt main_v49 main_v50
  let main_c_19 : IVec S_ 1 := constantI S_ 1 1#1
  let main_v52 : IVec S_ 1 := (fun x v => Host.reduce IntOp.andi x v reducesTo_S512x640_S_d0_1 h_S_) main_v51 main_c_19
  let main_v53 : IVec S_ 1 := andi main_v48 main_v52
  let main_v54 : FVec F S512 .f32 := Host.absf main_arg17
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg18
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S1024 .f32 := Host.absf main_arg19
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg20 main_arg21 main_arg22 main_arg23 main_arg24 main_arg25 main_v63 main_v67

def fn_part2 {F : FTy → Type} [FloatOps F] (main_arg13 : FVec F S512x512 .f32) (main_arg14 : FVec F S512x1024 .f32) (main_arg15 : FVec F S512 .f32) (main_arg16 : FVec F S512x640 .f32) (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v33 : IVec S_ 1) : IVec S_ 1 :=
  let main_v34 : FVec F S512x512 .f32 := Host.absf main_arg13
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x1024 .f32 := Host.absf main_arg14
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg15
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x640 .f32 := Host.absf main_arg16
  let main_cst_18 : FVec F S_ .f32 := constant S_ .f32 0x7F800000#32
  let main_v50 : FVec F S512x640 .f32 := broadcastInDim S512x640 ![] bcast_S_S512x640 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S512 .f32) (main_arg11 : FVec F S512x512 .f32) (main_arg12 : FVec F S512 .f32) (main_arg13 : FVec F S512x512 .f32) (main_arg14 : FVec F S512x1024 .f32) (main_arg15 : FVec F S512 .f32) (main_arg16 : FVec F S512x640 .f32) (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg10
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg11
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg12
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : IVec S16384 32) (main_arg1 : IVec S16384 32) (main_arg2 : IVec S16384x15 32) (main_arg3 : IVec S16384x15 32) (main_arg4 : IVec S16384x15 32) (main_arg5 : IVec S16384x15 32) (main_arg6 : FVec F S65536x512 .f32) (main_arg7 : FVec F S256x128 .f32) (main_arg8 : FVec F S1024x512 .f32) (main_arg9 : FVec F S512x1024 .f32) (main_arg10 : FVec F S512 .f32) (main_arg11 : FVec F S512x512 .f32) (main_arg12 : FVec F S512 .f32) (main_arg13 : FVec F S512x512 .f32) (main_arg14 : FVec F S512x1024 .f32) (main_arg15 : FVec F S512 .f32) (main_arg16 : FVec F S512x640 .f32) (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) : IVec S_ 1 :=
  let main_v0 : FVec F S65536x512 .f32 := Host.absf main_arg6
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x128 .f32 := Host.absf main_arg7
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1024x512 .f32 := Host.absf main_arg8
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg9
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384 : Shape := ⟨1, ![16384]⟩
abbrev S16384x15 : Shape := ⟨2, ![16384, 15]⟩
abbrev S65536x512 : Shape := ⟨2, ![65536, 512]⟩
abbrev S256x128 : Shape := ⟨2, ![256, 128]⟩
abbrev S1024x512 : Shape := ⟨2, ![1024, 512]⟩
abbrev S512x1024 : Shape := ⟨2, ![512, 1024]⟩
abbrev S512 : Shape := ⟨1, ![512]⟩
abbrev S512x512 : Shape := ⟨2, ![512, 512]⟩
abbrev S512x640 : Shape := ⟨2, ![512, 640]⟩
abbrev S1024 : Shape := ⟨1, ![1024]⟩
abbrev S1x512 : Shape := ⟨2, ![1, 512]⟩
abbrev S1 : Shape := ⟨1, ![1]⟩
abbrev S_ : Shape := ⟨0, ![]⟩
abbrev S16384x1 : Shape := ⟨2, ![16384, 1]⟩
abbrev S16384x512 : Shape := ⟨2, ![16384, 512]⟩
abbrev S16384x128 : Shape := ⟨2, ![16384, 128]⟩
abbrev S15x16384 : Shape := ⟨2, ![15, 16384]⟩
abbrev S15x16384x1 : Shape := ⟨3, ![15, 16384, 1]⟩
abbrev S15x16384x512 : Shape := ⟨3, ![15, 16384, 512]⟩
abbrev S512x128 : Shape := ⟨2, ![512, 128]⟩
abbrev S128x512 : Shape := ⟨2, ![128, 512]⟩
abbrev S1x1024 : Shape := ⟨2, ![1, 1024]⟩
abbrev S1x1 : Shape := ⟨2, ![1, 1]⟩
abbrev S16384x1025 : Shape := ⟨2, ![16384, 1025]⟩
abbrev S256x512 : Shape := ⟨2, ![256, 512]⟩
abbrev S15x256x512 : Shape := ⟨3, ![15, 256, 512]⟩
abbrev S256x1025 : Shape := ⟨2, ![256, 1025]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩

abbrev nBuf : Space → Nat
  | .hbm => 129
  | .vmem => 34
  | .smem => 0
  | _ => 0

abbrev hbmTy0_0 (i : Nat) : BufTy := match i % 128 with
  | 0 => ⟨S16384, .i32⟩
  | 1 => ⟨S16384, .i32⟩
  | 2 => ⟨S16384x15, .i32⟩
  | 3 => ⟨S16384x15, .i32⟩
  | 4 => ⟨S16384x15, .i32⟩
  | 5 => ⟨S16384x15, .i32⟩
  | 6 => ⟨S65536x512, .f32⟩
  | 7 => ⟨S256x128, .f32⟩
  | 8 => ⟨S1024x512, .f32⟩
  | 9 => ⟨S512x1024, .f32⟩
  | 10 => ⟨S512, .f32⟩
  | 11 => ⟨S512x512, .f32⟩
  | 12 => ⟨S512, .f32⟩
  | 13 => ⟨S512x512, .f32⟩
  | 14 => ⟨S512x1024, .f32⟩
  | 15 => ⟨S512, .f32⟩
  | 16 => ⟨S512x640, .f32⟩
  | 17 => ⟨S512, .f32⟩
  | 18 => ⟨S1024x512, .f32⟩
  | 19 => ⟨S1024, .f32⟩
  | 20 => ⟨S512x1024, .f32⟩
  | 21 => ⟨S512, .f32⟩
  | 22 => ⟨S512x640, .f32⟩
  | 23 => ⟨S512, .f32⟩
  | 24 => ⟨S1x512, .f32⟩
  | 25 => ⟨S1, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x512, .f32⟩
  | 35 => ⟨S16384x512, .bf16⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x128, .f32⟩
  | 45 => ⟨S16384x128, .bf16⟩
  | 46 => ⟨S15x16384, .i32⟩
  | 47 => ⟨S15x16384, .i32⟩
  | 48 => ⟨S15x16384, .f32⟩
  | 49 => ⟨S15x16384x1, .f32⟩
  | 50 => ⟨S_, .i32⟩
  | 51 => ⟨S15x16384, .i32⟩
  | 52 => ⟨S15x16384, .i1⟩
  | 53 => ⟨S_, .i32⟩
  | 54 => ⟨S15x16384, .i32⟩
  | 55 => ⟨S15x16384, .i32⟩
  | 56 => ⟨S15x16384, .i32⟩
  | 57 => ⟨S15x16384x1, .i32⟩
  | 58 => ⟨S15x16384x512, .f32⟩
  | 59 => ⟨S15x16384x512, .f32⟩
  | 60 => ⟨S15x16384x512, .f32⟩
  | 61 => ⟨S_, .f32⟩
  | 62 => ⟨S16384x512, .f32⟩
  | 63 => ⟨S15x16384x512, .bf16⟩
  | 64 => ⟨S65536x512, .bf16⟩
  | 65 => ⟨S15x16384, .i32⟩
  | 66 => ⟨S15x16384, .i32⟩
  | 67 => ⟨S15x16384, .f32⟩
  | 68 => ⟨S15x16384x1, .f32⟩
  | 69 => ⟨S_, .i32⟩
  | 70 => ⟨S15x16384, .i32⟩
  | 71 => ⟨S15x16384, .i1⟩
  | 72 => ⟨S_, .i32⟩
  | 73 => ⟨S15x16384, .i32⟩
  | 74 => ⟨S15x16384, .i32⟩
  | 75 => ⟨S15x16384, .i32⟩
  | 76 => ⟨S15x16384x1, .i32⟩
  | 77 => ⟨S15x16384x512, .bf16⟩
  | 78 => ⟨S15x16384x512, .f32⟩
  | 79 => ⟨S15x16384x512, .f32⟩
  | 80 => ⟨S15x16384x512, .f32⟩
  | 81 => ⟨S_, .f32⟩
  | 82 => ⟨S16384x512, .f32⟩
  | 83 => ⟨S16384x512, .bf16⟩
  | 84 => ⟨S512x512, .f32⟩
  | 85 => ⟨S512x512, .f32⟩
  | 86 => ⟨S512x512, .bf16⟩
  | 87 => ⟨S512x512, .f32⟩
  | 88 => ⟨S512x512, .f32⟩
  | 89 => ⟨S512x512, .bf16⟩
  | 90 => ⟨S512x512, .f32⟩
  | 91 => ⟨S512x512, .bf16⟩
  | 92 => ⟨S512x512, .f32⟩
  | 93 => ⟨S512x512, .bf16⟩
  | 94 => ⟨S512x512, .f32⟩
  | 95 => ⟨S512x512, .f32⟩
  | 96 => ⟨S512x512, .bf16⟩
  | 97 => ⟨S512x512, .f32⟩
  | 98 => ⟨S512x512, .f32⟩
  | 99 => ⟨S512x512, .bf16⟩
  | 100 => ⟨S512x512, .f32⟩
  | 101 => ⟨S512x512, .f32⟩
  | 102 => ⟨S512x512, .bf16⟩
  | 103 => ⟨S512x128, .f32⟩
  | 104 => ⟨S128x512, .f32⟩
  | 105 => ⟨S128x512, .bf16⟩
  | 106 => ⟨S512x1024, .f32⟩
  | 107 => ⟨S512x1024, .bf16⟩
  | 108 => ⟨S512x512, .f32⟩
  | 109 => ⟨S512x512, .f32⟩
  | 110 => ⟨S512x512, .bf16⟩
  | 111 => ⟨S512x512, .f32⟩
  | 112 => ⟨S512x512, .f32⟩
  | 113 => ⟨S512x512, .bf16⟩
  | 114 => ⟨S512x512, .f32⟩
  | 115 => ⟨S512x512, .f32⟩
  | 116 => ⟨S512x512, .bf16⟩
  | 117 => ⟨S512x128, .f32⟩
  | 118 => ⟨S128x512, .f32⟩
  | 119 => ⟨S128x512, .bf16⟩
  | 120 => ⟨S1x512, .f32⟩
  | 121 => ⟨S1x512, .f32⟩
  | 122 => ⟨S1x512, .f32⟩
  | 123 => ⟨S1x512, .f32⟩
  | 124 => ⟨S1x1024, .f32⟩
  | 125 => ⟨S1x512, .f32⟩
  | 126 => ⟨S1x512, .f32⟩
  | 127 => ⟨S1x1, .f32⟩
  | _ => ⟨S16384, .i32⟩

abbrev hbmTy0_1 (i : Nat) : BufTy := match i % 128 with
  | 0 => ⟨S16384x1025, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S15x256x512, .bf16⟩
  | .local _ .vmem, ⟨3, _⟩ => ⟨S15x256x512, .bf16⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x128, .bf16⟩
  | .local _ .vmem, ⟨9, _⟩ => ⟨S256x128, .bf16⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x512, .f32⟩
  | .local _ .vmem, ⟨19, _⟩ => ⟨S512x512, .bf16⟩
  | .local _ .vmem, ⟨20, _⟩ => ⟨S128x512, .bf16⟩
  | .local _ .vmem, ⟨21, _⟩ => ⟨S1x512, .f32⟩
  | .local _ .vmem, ⟨22, _⟩ => ⟨S512x1024, .bf16⟩
  | .local _ .vmem, ⟨23, _⟩ => ⟨S1x1024, .f32⟩
  | .local _ .vmem, ⟨24, _⟩ => ⟨S512x512, .bf16⟩
  | .local _ .vmem, ⟨25, _⟩ => ⟨S512x512, .bf16⟩
  | .local _ .vmem, ⟨26, _⟩ => ⟨S1x512, .f32⟩
  | .local _ .vmem, ⟨27, _⟩ => ⟨S512x512, .bf16⟩
  | .local _ .vmem, ⟨28, _⟩ => ⟨S128x512, .bf16⟩
  | .local _ .vmem, ⟨29, _⟩ => ⟨S1x512, .f32⟩
  | .local _ .vmem, ⟨30, _⟩ => ⟨S1x512, .f32⟩
  | .local _ .vmem, ⟨31, _⟩ => ⟨S1x1, .f32⟩
  | .local _ .vmem, ⟨32, _⟩ => ⟨S256x1025, .f32⟩
  | .local _ .vmem, ⟨33, _⟩ => ⟨S256x1025, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_5 : Ref sig .tc := ⟨.hbm, 69, rfl⟩
abbrev main_v36 : Ref sig .tc := ⟨.hbm, 70, rfl⟩
abbrev main_v37 : Ref sig .tc := ⟨.hbm, 71, rfl⟩
abbrev main_c_6 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_7 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg27_0 : Ref sig .tc := ⟨.vmem, 32, rfl⟩
abbrev cc0_stg27_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem27_0 : DmaSem sig := 32
abbrev cc0_sem27_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S256x1025 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  transposes_S16384x15_S15x16384_1_0 : S16384x15.Transposes [1, 0] S15x16384
  bcast_S15x16384_S15x16384x1_0_1 : S15x16384.BroadcastsInDim S15x16384x1 (![0, 1] : Fin 2 → Fin S15x16384x1.rank)
  bcast_S_S15x16384 : S_.BroadcastsInDim S15x16384 (![] : Fin 0 → Fin S15x16384.rank)
  bcast_S15x16384x1_S15x16384x512_0_1_2 : S15x16384x1.BroadcastsInDim S15x16384x512 (![0, 1, 2] : Fin 3 → Fin S15x16384x512.rank)
  reducesTo_S15x16384x512_S16384x512_d0 : S15x16384x512.ReducesTo [0] S16384x512
  h_S_ : 0 < S_.numel
  slices_S512x1024_S512x512_0_0 : S512x1024.Slices ![0, 0] S512x512
  transposes_S512x512_S512x512_1_0 : S512x512.Transposes [1, 0] S512x512
  slices_S512x1024_S512x512_0_512 : S512x1024.Slices ![0, 512] S512x512
  slices_S512x640_S512x512_0_0 : S512x640.Slices ![0, 0] S512x512
  slices_S512x640_S512x128_0_512 : S512x640.Slices ![0, 512] S512x128
  transposes_S512x128_S128x512_1_0 : S512x128.Transposes [1, 0] S128x512
  transposes_S1024x512_S512x1024_1_0 : S1024x512.Transposes [1, 0] S512x1024
  shapeCasts_S512_S1x512 : S512.ShapeCasts S1x512
  shapeCasts_S1024_S1x1024 : S1024.ShapeCasts S1x1024
  shapeCasts_S1_S1x1 : S1.ShapeCasts S1x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S15x256x512_S1x256x512_0_0_0 : ∀ a, (![0, 0, 0] : Fin 3 → Nat) a + S1x256x512.size a ≤ S15x256x512.size a
  h_S1x256x512 : 0 < S1x256x512.numel
  shapeCasts_S1x256x512_S256x512 : S1x256x512.ShapeCasts S256x512
  inb_S15x256x512_S1x256x512_1_0_0 : ∀ a, (![1, 0, 0] : Fin 3 → Nat) a + S1x256x512.size a ≤ S15x256x512.size a
  inb_S15x256x512_S1x256x512_2_0_0 : ∀ a, (![2, 0, 0] : Fin 3 → Nat) a + S1x256x512.size a ≤ S15x256x512.size a
  inb_S15x256x512_S1x256x512_3_0_0 : ∀ a, (![3, 0, 0] : Fin 3 → Nat) a + S1x256x512.size a ≤ S15x256x512.size a
  inb_S15x256x512_S1x256x512_4_0_0 : ∀ a, (![4, 0, 0] : Fin 3 → Nat) a + S1x256x512.size a ≤ S15x256x512.size a
  inb_S15x256x512_S1x256x512_5_0_0 : ∀ a, (![5, 0, 0] : Fin 3 → Nat) a + S1x256x512.size a ≤ S15x256x512.size a
  inb_S15x256x512_S1x256x512_6_0_0 : ∀ a, (![6, 0, 0] : Fin 3 → Nat) a + S1x256x512.size a ≤ S15x256x512.size a
  inb_S15x256x512_S1x256x512_7_0_0 : ∀ a, (![7, 0, 0] : Fin 3 → Nat) a + S1x256x512.size a ≤ S15x256x512.size a
  inb_S15x256x512_S1x256x512_8_0_0 : ∀ a, (![8, 0, 0] : Fin 3 → Nat) a + S1x256x512.size a ≤ S15x256x512.size a
  inb_S15x256x512_S1x256x512_9_0_0 : ∀ a, (![9, 0, 0] : Fin 3 → Nat) a + S1x256x512.size a ≤ S15x256x512.size a
  inb_S15x256x512_S1x256x512_10_0_0 : ∀ a, (![10, 0, 0] : Fin 3 → Nat) a + S1x256x512.size a ≤ S15x256x512.size a
  inb_S15x256x512_S1x256x512_11_0_0 : ∀ a, (![11, 0, 0] : Fin 3 → Nat) a + S1x256x512.size a ≤ S15x256x512.size a
  inb_S15x256x512_S1x256x512_12_0_0 : ∀ a, (![12, 0, 0] : Fin 3 → Nat) a + S1x256x512.size a ≤ S15x256x512.size a
  inb_S15x256x512_S1x256x512_13_0_0 : ∀ a, (![13, 0, 0] : Fin 3 → Nat) a + S1x256x512.size a ≤ S15x256x512.size a
  inb_S15x256x512_S1x256x512_14_0_0 : ∀ a, (![14, 0, 0] : Fin 3 → Nat) a + S1x256x512.size a ≤ S15x256x512.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x512_S256 : S256x512.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1025_S256x1024_0_0 : ∀ a, (![0, 0] : Fin 2 → Nat) a + S256x1024.size a ≤ S256x1025.size a
  h_S256x1024 : 0 < S256x1024.numel
  inb_S256x1025_S256x1_0_1024 : ∀ a, (![0, 1024] : Fin 2 → Nat) a + S256x1.size a ≤ S256x1025.size a
  h_S256x1 : 0 < S256x1.numel
  gather_S1024x512_S16384x1_S16384x512_1_0_n_n_0_1_1512_wf : GatherDims.WF S1024x512 S16384x1 S16384x512 [1] [0] [] [0] [] 1 ![1, 512]
  gather_S256x128_S16384x1_S16384x128_1_0_n_n_0_1_1128_wf : GatherDims.WF S256x128 S16384x1 S16384x128 [1] [0] [] [0] [] 1 ![1, 128]
  gather_S65536x512_S15x16384x1_S15x16384x512_2_0_n_n_0_2_1512_wf : GatherDims.WF S65536x512 S15x16384x1 S15x16384x512 [2] [0] [] [0] [] 2 ![1, 512]
  dot_S256x512_S512x512_S256x512_1_0_0_1_n_n_wf : DotDims.WF S256x512 S512x512 S256x512 [1] [0] [0] [1] [] []
  dot_S256x128_S128x512_S256x512_1_0_0_1_n_n_wf : DotDims.WF S256x128 S128x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .bf16 = 32 ∨ (Rect.block (s := S16384x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15x256x512.size a ≤ S15x16384x512.size a
  hwx0_1 : ∀ i : grid0.Coords, EltTy.bits .bf16 = 32 ∨ (Rect.block (s := S15x16384x512) S15x256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S16384x512.size a
  hwx0_3 : ∀ i : grid0.Coords, EltTy.bits .bf16 = 32 ∨ (Rect.block (s := S16384x512) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S16384x128.size a
  hwx0_4 : ∀ i : grid0.Coords, EltTy.bits .bf16 = 32 ∨ (Rect.block (s := S16384x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x512.size a ≤ S128x512.size a
  hwx0_15 : ∀ i : grid0.Coords, EltTy.bits .bf16 = 32 ∨ (Rect.block (s := S128x512) S128x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x1024.size a ≤ S512x1024.size a
  hwx0_17 : ∀ i : grid0.Coords, EltTy.bits .bf16 = 32 ∨ (Rect.block (s := S512x1024) S512x1024.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .bf16 = 32 ∨ (Rect.block (s := S512x512) S512x512.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S512x512.size a
  hwx0_20 : ∀ i : grid0.Coords, EltTy.bits .bf16 = 32 ∨ (Rect.block (s := S512x512) S512x512.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x512.size a ≤ S1x512.size a
  hwx0_21 : ∀ i : grid0.Coords, EltTy.bits .f32 = 32 ∨ (Rect.block (s := S1x512) S1x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .bf16 = 32 ∨ (Rect.block (s := S512x512) S512x512.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x512.size a ≤ S128x512.size a
  hwx0_23 : ∀ i : grid0.Coords, EltTy.bits .bf16 = 32 ∨ (Rect.block (s := S128x512) S128x512.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x512.size a ≤ S1x512.size a
  hwx0_24 : ∀ i : grid0.Coords, EltTy.bits .f32 = 32 ∨ (Rect.block (s := S1x512) S1x512.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x512.size a ≤ S1x512.size a
  hwx0_25 : ∀ i : grid0.Coords, EltTy.bits .f32 = 32 ∨ (Rect.block (s := S1x512) S1x512.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x1.size a ≤ S1x1.size a
  hwx0_26 : ∀ i : grid0.Coords, EltTy.bits .f32 = 32 ∨ (Rect.block (s := S1x1) S1x1.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S256x1025.size a ≤ S16384x1025.size a
  hwx0_27 : ∀ i : grid0.Coords, EltTy.bits .f32 = 32 ∨ (Rect.block (s := S16384x1025) S256x1025.size (cc0_transform_27 i) (hinb0_27 i)).WholeWords (EltTy.packing .f32)

variable [Facts₀]

def gather_S1024x512_S16384x1_S16384x512_1_0_n_n_0_1_1512 : GatherDims S1024x512 S16384x1 S16384x512 where
  offsetDims := [1]
  collapsedSliceDims := [0]
  operandBatchingDims := []
  startIndicesBatchingDims := []
  startIndexMap := [0]
  indexVectorDim := 1
  sliceSizes := ![1, 512]
  wf := gather_S1024x512_S16384x1_S16384x512_1_0_n_n_0_1_1512_wf
def gather_S256x128_S16384x1_S16384x128_1_0_n_n_0_1_1128 : GatherDims S256x128 S16384x1 S16384x128 where
  offsetDims := [1]
  collapsedSliceDims := [0]
  operandBatchingDims := []
  startIndicesBatchingDims := []
  startIndexMap := [0]
  indexVectorDim := 1
  sliceSizes := ![1, 128]
  wf := gather_S256x128_S16384x1_S16384x128_1_0_n_n_0_1_1128_wf
def gather_S65536x512_S15x16384x1_S15x16384x512_2_0_n_n_0_2_1512 : GatherDims S65536x512 S15x16384x1 S15x16384x512 where
  offsetDims := [2]
  collapsedSliceDims := [0]
  operandBatchingDims := []
  startIndicesBatchingDims := []
  startIndexMap := [0]
  indexVectorDim := 2
  sliceSizes := ![1, 512]
  wf := gather_S65536x512_S15x16384x1_S15x16384x512_2_0_n_n_0_2_1512_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v7) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S15x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v84) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v85) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v60) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v63) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v86) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v66) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v69) S128x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v87) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v71) S512x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v88) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v74) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v77) S512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v89) S1x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v80) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v83) S128x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v90) S1x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg24) S1x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v91) S1x1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v92) S256x1025.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S16384 : Shape := ⟨1, ![16384]⟩
abbrev S16384x15 : Shape := ⟨2, ![16384, 15]⟩
abbrev S65536x512 : Shape := ⟨2, ![65536, 512]⟩
abbrev S256x128 : Shape := ⟨2, ![256, 128]⟩
abbrev S1024x512 : Shape := ⟨2, ![1024, 512]⟩
abbrev S512x1024 : Shape := ⟨2, ![512, 1024]⟩
abbrev S512 : Shape := ⟨1, ![512]⟩
abbrev S512x512 : Shape := ⟨2, ![512, 512]⟩
abbrev S512x640 : Shape := ⟨2, ![512, 640]⟩
abbrev S1024 : Shape := ⟨1, ![1024]⟩
abbrev S1x512 : Shape := ⟨2, ![1, 512]⟩
abbrev S1 : Shape := ⟨1, ![1]⟩
abbrev S_ : Shape := ⟨0, ![]⟩
abbrev S16384x1 : Shape := ⟨2, ![16384, 1]⟩
abbrev S16384x512 : Shape := ⟨2, ![16384, 512]⟩
abbrev S16384x15x1 : Shape := ⟨3, ![16384, 15, 1]⟩
abbrev S16384x15x512 : Shape := ⟨3, ![16384, 15, 512]⟩
abbrev S16384x1024 : Shape := ⟨2, ![16384, 1024]⟩
abbrev S16384x1x512 : Shape := ⟨3, ![16384, 1, 512]⟩
abbrev S16384x128 : Shape := ⟨2, ![16384, 128]⟩
abbrev S16384x640 : Shape := ⟨2, ![16384, 640]⟩
abbrev S640x512 : Shape := ⟨2, ![640, 512]⟩
abbrev S1x1024 : Shape := ⟨2, ![1, 1024]⟩
abbrev S512x1 : Shape := ⟨2, ![512, 1]⟩
abbrev S1x1 : Shape := ⟨2, ![1, 1]⟩
abbrev S16384x1025 : Shape := ⟨2, ![16384, 1025]⟩

abbrev nBuf : Space → Nat
  | .hbm => 159
  | .vmem => 0
  | .smem => 0
  | _ => 0

abbrev hbmTy0_0 (i : Nat) : BufTy := match i % 128 with
  | 0 => ⟨S16384, .i32⟩
  | 1 => ⟨S16384, .i32⟩
  | 2 => ⟨S16384x15, .i32⟩
  | 3 => ⟨S16384x15, .i32⟩
  | 4 => ⟨S16384x15, .i32⟩
  | 5 => ⟨S16384x15, .i32⟩
  | 6 => ⟨S65536x512, .f32⟩
  | 7 => ⟨S256x128, .f32⟩
  | 8 => ⟨S1024x512, .f32⟩
  | 9 => ⟨S512x1024, .f32⟩
  | 10 => ⟨S512, .f32⟩
  | 11 => ⟨S512x512, .f32⟩
  | 12 => ⟨S512, .f32⟩
  | 13 => ⟨S512x512, .f32⟩
  | 14 => ⟨S512x1024, .f32⟩
  | 15 => ⟨S512, .f32⟩
  | 16 => ⟨S512x640, .f32⟩
  | 17 => ⟨S512, .f32⟩
  | 18 => ⟨S1024x512, .f32⟩
  | 19 => ⟨S1024, .f32⟩
  | 20 => ⟨S512x1024, .f32⟩
  | 21 => ⟨S512, .f32⟩
  | 22 => ⟨S512x640, .f32⟩
  | 23 => ⟨S512, .f32⟩
  | 24 => ⟨S1x512, .f32⟩
  | 25 => ⟨S1, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x512, .f32⟩
  | 35 => ⟨S_, .i32⟩
  | 36 => ⟨S16384x15, .i32⟩
  | 37 => ⟨S16384x15, .i1⟩
  | 38 => ⟨S_, .i32⟩
  | 39 => ⟨S16384x15, .i32⟩
  | 40 => ⟨S16384x15, .i32⟩
  | 41 => ⟨S16384x15, .i32⟩
  | 42 => ⟨S16384x15x1, .i32⟩
  | 43 => ⟨S16384x15x512, .f32⟩
  | 44 => ⟨S16384x15x1, .i32⟩
  | 45 => ⟨S16384x15x1, .f32⟩
  | 46 => ⟨S16384x15x512, .f32⟩
  | 47 => ⟨S16384x15x512, .f32⟩
  | 48 => ⟨S_, .i32⟩
  | 49 => ⟨S16384x15, .i32⟩
  | 50 => ⟨S16384x15, .i1⟩
  | 51 => ⟨S_, .i32⟩
  | 52 => ⟨S16384x15, .i32⟩
  | 53 => ⟨S16384x15, .i32⟩
  | 54 => ⟨S16384x15, .i32⟩
  | 55 => ⟨S16384x15x1, .i32⟩
  | 56 => ⟨S16384x15x512, .f32⟩
  | 57 => ⟨S16384x15x1, .i32⟩
  | 58 => ⟨S16384x15x1, .f32⟩
  | 59 => ⟨S16384x15x512, .f32⟩
  | 60 => ⟨S16384x15x512, .f32⟩
  | 61 => ⟨S_, .f32⟩
  | 62 => ⟨S16384x512, .f32⟩
  | 63 => ⟨S16384x1024, .f32⟩
  | 64 => ⟨S1024x512, .f32⟩
  | 65 => ⟨S16384x512, .f32⟩
  | 66 => ⟨S1x512, .f32⟩
  | 67 => ⟨S16384x512, .f32⟩
  | 68 => ⟨S16384x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S512x512, .f32⟩
  | 78 => ⟨S16384x512, .f32⟩
  | 79 => ⟨S1x512, .f32⟩
  | 80 => ⟨S16384x512, .f32⟩
  | 81 => ⟨S16384x512, .f32⟩
  | 82 => ⟨S16384x1x512, .f32⟩
  | 83 => ⟨S16384x15x512, .f32⟩
  | 84 => ⟨S16384x15x512, .f32⟩
  | 85 => ⟨S16384x15x512, .f32⟩
  | 86 => ⟨S16384x15x512, .f32⟩
  | 87 => ⟨S16384x15x512, .f32⟩
  | 88 => ⟨S_, .f32⟩
  | 89 => ⟨S16384x15x512, .f32⟩
  | 90 => ⟨S16384x15x512, .f32⟩
  | 91 => ⟨S_, .f32⟩
  | 92 => ⟨S16384x15x512, .f32⟩
  | 93 => ⟨S16384x15x512, .f32⟩
  | 94 => ⟨S16384x15x512, .f32⟩
  | 95 => ⟨S_, .f32⟩
  | 96 => ⟨S16384x512, .f32⟩
  | 97 => ⟨S16384x1024, .f32⟩
  | 98 => ⟨S1024x512, .f32⟩
  | 99 => ⟨S16384x512, .f32⟩
  | 100 => ⟨S1x512, .f32⟩
  | 101 => ⟨S16384x512, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S16384x512, .f32⟩
  | 108 => ⟨S16384x512, .f32⟩
  | 109 => ⟨S16384x512, .f32⟩
  | 110 => ⟨S_, .f32⟩
  | 111 => ⟨S16384x512, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x128, .f32⟩
  | 121 => ⟨S16384x640, .f32⟩
  | 122 => ⟨S640x512, .f32⟩
  | 123 => ⟨S16384x512, .f32⟩
  | 124 => ⟨S1x512, .f32⟩
  | 125 => ⟨S16384x512, .f32⟩
  | 126 => ⟨S16384x512, .f32⟩
  | 127 => ⟨S_, .f32⟩
  | _ => ⟨S16384, .i32⟩

abbrev hbmTy0_1 (i : Nat) : BufTy := match i % 128 with
  | 0 => ⟨S16384x512, .f32⟩
  | 1 => ⟨S16384x512, .f32⟩
  | 2 => ⟨S512x1024, .f32⟩
  | 3 => ⟨S16384x1024, .f32⟩
  | 4 => ⟨S1x1024, .f32⟩
  | 5 => ⟨S16384x1024, .f32⟩
  | 6 => ⟨S16384x1024, .f32⟩
  | 7 => ⟨S16384x1024, .f32⟩
  | 8 => ⟨S1024x512, .f32⟩
  | 9 => ⟨S16384x512, .f32⟩
  | 10 => ⟨S1x512, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S16384x640, .f32⟩
  | 17 => ⟨S640x512, .f32⟩
  | 18 => ⟨S16384x512, .f32⟩
  | 19 => ⟨S1x512, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S512x1, .f32⟩
  | 26 => ⟨S16384x1, .f32⟩
  | 27 => ⟨S1x1, .f32⟩
  | 28 => ⟨S16384x1, .f32⟩
  | 29 => ⟨S16384x1, .f32⟩
  | 30 => ⟨S16384x1025, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_7 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_10 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_11 : Ref sig .tc := ⟨.hbm, 110, rfl⟩
abbrev main_v71 : Ref sig .tc := ⟨.hbm, 111, rfl⟩
abbrev main_c_12 : Ref sig .tc := ⟨.hbm, 112, rfl⟩
abbrev main_v72 : Ref sig .tc := ⟨.hbm, 113, rfl⟩
abbrev main_v73 : Ref sig .tc := ⟨.hbm, 114, rfl⟩
abbrev main_c_13 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call0_cst : Ref sig .tc := ⟨.hbm, 127, rfl⟩
abbrev main_call0_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call1_cst : Ref sig .tc := ⟨.hbm, 141, rfl⟩
abbrev main_call1_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call2_cst : Ref sig .tc := ⟨.hbm, 150, rfl⟩
abbrev main_call2_v0 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x15 : S_.BroadcastsInDim S16384x15 (![] : Fin 0 → Fin S16384x15.rank)
  bcast_S16384x15_S16384x15x1_0_1 : S16384x15.BroadcastsInDim S16384x15x1 (![0, 1] : Fin 2 → Fin S16384x15x1.rank)
  bcast_S16384x15x1_S16384x15x512_0_1_2 : S16384x15x1.BroadcastsInDim S16384x15x512 (![0, 1, 2] : Fin 3 → Fin S16384x15x512.rank)
  reducesTo_S16384x15x512_S16384x512_d1 : S16384x15x512.ReducesTo [1] S16384x512
  h_S_ : 0 < S_.numel
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S512x512_S512x512_1_0 : S512x512.Transposes [1, 0] S512x512
  bcast_S16384x512_S16384x1x512_0_2 : S16384x512.BroadcastsInDim S16384x1x512 (![0, 2] : Fin 2 → Fin S16384x1x512.rank)
  bcast_S16384x1x512_S16384x15x512_0_1_2 : S16384x1x512.BroadcastsInDim S16384x15x512 (![0, 1, 2] : Fin 3 → Fin S16384x15x512.rank)
  bcast_S_S16384x15x512 : S_.BroadcastsInDim S16384x15x512 (![] : Fin 0 → Fin S16384x15x512.rank)
  concatenates_S16384x512_S16384x128_S16384x640_d1 : Shape.Concatenates [S16384x512, S16384x128] S16384x640 1
  transposes_S512x640_S640x512_1_0 : S512x640.Transposes [1, 0] S640x512
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1x512_S512x1_1_0 : S1x512.Transposes [1, 0] S512x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  concatenates_S16384x1024_S16384x1_S16384x1025_d1 : Shape.Concatenates [S16384x1024, S16384x1] S16384x1025 1
  gather_S1024x512_S16384x1_S16384x512_1_0_n_n_0_1_1512_wf : GatherDims.WF S1024x512 S16384x1 S16384x512 [1] [0] [] [0] [] 1 ![1, 512]
  gather_S65536x512_S16384x15x1_S16384x15x512_2_0_n_n_0_2_1512_wf : GatherDims.WF S65536x512 S16384x15x1 S16384x15x512 [2] [0] [] [0] [] 2 ![1, 512]
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []
  dot_S16384x15x512_S512x512_S16384x15x512_2_1_01_0_n_n_wf : DotDims.WF S16384x15x512 S512x512 S16384x15x512 [2] [1] [0, 1] [0] [] []
  gather_S256x128_S16384x1_S16384x128_1_0_n_n_0_1_1128_wf : GatherDims.WF S256x128 S16384x1 S16384x128 [1] [0] [] [0] [] 1 ![1, 128]
  dot_S16384x640_S640x512_S16384x512_1_0_0_1_n_n_wf : DotDims.WF S16384x640 S640x512 S16384x512 [1] [0] [0] [1] [] []
  dot_S16384x512_S512x1024_S16384x1024_1_0_0_1_n_n_wf : DotDims.WF S16384x512 S512x1024 S16384x1024 [1] [0] [0] [1] [] []
  dot_S16384x512_S512x1_S16384x1_1_0_0_1_n_n_wf : DotDims.WF S16384x512 S512x1 S16384x1 [1] [0] [0] [1] [] []

variable [Facts₀]

def gather_S1024x512_S16384x1_S16384x512_1_0_n_n_0_1_1512 : GatherDims S1024x512 S16384x1 S16384x512 where
  offsetDims := [1]
  collapsedSliceDims := [0]
  operandBatchingDims := []
  startIndicesBatchingDims := []
  startIndexMap := [0]
  indexVectorDim := 1
  sliceSizes := ![1, 512]
  wf := gather_S1024x512_S16384x1_S16384x512_1_0_n_n_0_1_1512_wf
def gather_S65536x512_S16384x15x1_S16384x15x512_2_0_n_n_0_2_1512 : GatherDims S65536x512 S16384x15x1 S16384x15x512 where
  offsetDims := [2]
  collapsedSliceDims := [0]
  operandBatchingDims := []
  startIndicesBatchingDims := []
  startIndexMap := [0]
  indexVectorDim := 2
  sliceSizes := ![1, 512]
  wf := gather_S65536x512_S16384x15x1_S16384x15x512_2_0_n_n_0_2_1512_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x15x512_S512x512_S16384x15x512_2_1_01_0_n_n : DotDims S16384x15x512 S512x512 S16384x15x512 where
  lhsContracting := [2]
  rhsContracting := [1]
  lhsNonContracting := [0, 1]
  rhsNonContracting := [0]
  lhsBatch := []
  rhsBatch := []
  wf := dot_S16384x15x512_S512x512_S16384x15x512_2_1_01_0_n_n_wf
def gather_S256x128_S16384x1_S16384x128_1_0_n_n_0_1_1128 : GatherDims S256x128 S16384x1 S16384x128 where
  offsetDims := [1]
  collapsedSliceDims := [0]
  operandBatchingDims := []
  startIndicesBatchingDims := []
  startIndexMap := [0]
  indexVectorDim := 1
  sliceSizes := ![1, 128]
  wf := gather_S256x128_S16384x1_S16384x128_1_0_n_n_0_1_1128_wf
def dot_S16384x640_S640x512_S16384x512_1_0_0_1_n_n : DotDims S16384x640 S640x512 S16384x512 where
  lhsContracting := [1]
  rhsContracting := [0]
  lhsNonContracting := [0]
  rhsNonContracting := [1]
  lhsBatch := []
  rhsBatch := []
  wf := dot_S16384x640_S640x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Spec.lean ====
/-
  The tree-GRU decoder step for ONE node, as a function of that node's row data and the weights: the specification both
  programs are compared with, entry by entry, on the extended reals.

  A node's row data: its embedding x ∈ ℝ^512, its fifteen masked neighbour messages h_k ∈ ℝ^512, their sum s = Σ_k h_k, the
  sum o of its masked "o" messages, and its tree context c ∈ ℝ^128.
  The weights are given as the kernel stores them: every linear layer whose input is a concatenation [u, v] is given as
  the two blocks of its transposed matrix, so the layer is  u·A + v·B + b.

      r1      = x·Wr + br
      gated   = Σ_k σ(r1 + h_k·Ur) ⊙ h_k
      z       = σ(x·Wzx + s·Wzh + bz)
      h̃       = tanh(x·Whx + gated·Whh + bh)
      new_h   = (1 − z) ⊙ s + z ⊙ h̃
      w_hid   = relu(new_h·Wwh + c·Wwl + bw)
      word    = w_hid·Wo + bo                                   (1024 scores)
      stop_h  = relu(x·Uix + o·Uio + bi)
      s_hid   = relu(stop_h·Uwh + c·Uwl + bu)
      stop    = s_hid·uo + ub                                   (one score)

  σ is the logistic function, relu v = max(v, 0) with the f32 word of +0.0 kept as a word, and the 1 of (1 − z) the f32 word
  of 1.0 kept as a word: both programs write the same words there, so they are never evaluated.
-/
import Idealize.ShloMosaic.PureOps.Ideal
import Idealize.ShloMosaic.Lib.ValueIdx

noncomputable section

open scoped BigOperators

namespace Cert.Cell

open Idealize.ShloMosaic

/-- The f32 word of +0.0, as both programs write it. -/
abbrev Z : EReal := Ideal.ofBits .f32 0x00000000#32
/-- The f32 word of 1.0, as both programs write it. -/
abbrev ONE : EReal := Ideal.ofBits .f32 0x3F800000#32

/-- One node's row data. -/
structure Row where
  x : Fin 512 → EReal
  hn : Fin 15 → Fin 512 → EReal
  sh : Fin 512 → EReal
  co : Fin 512 → EReal
  cx : Fin 128 → EReal

/-- The weights, each matrix indexed (input coordinate, output coordinate). -/
structure Weights where
  Wr : Fin 512 → Fin 512 → EReal
  br : Fin 512 → EReal
  Ur : Fin 512 → Fin 512 → EReal
  Wzx : Fin 512 → Fin 512 → EReal
  Wzh : Fin 512 → Fin 512 → EReal
  bz : Fin 512 → EReal
  Whx : Fin 512 → Fin 512 → EReal
  Whh : Fin 512 → Fin 512 → EReal
  bh : Fin 512 → EReal
  Wwh : Fin 512 → Fin 512 → EReal
  Wwl : Fin 128 → Fin 512 → EReal
  bw : Fin 512 → EReal
  Wo : Fin 512 → Fin 1024 → EReal
  bo : Fin 1024 → EReal
  Uix : Fin 512 → Fin 512 → EReal
  Uio : Fin 512 → Fin 512 → EReal
  bi : Fin 512 → EReal
  Uwh : Fin 512 → Fin 512 → EReal
  Uwl : Fin 128 → Fin 512 → EReal
  bu : Fin 512 → EReal
  uo : Fin 512 → EReal
  ub : EReal

/-- A linear layer on one input: u·A + b, at output coordinate g. -/
def lin1 {A N : ℕ} (u : Fin A → EReal) (Wu : Fin A → Fin N → EReal) (b : Fin N → EReal) (g : Fin N) : EReal :=
  (∑ k, u k * Wu k g) + b g

/-- A linear layer on a concatenated input [u, v]: u·A + v·B + b, at output coordinate g. -/
def lin2 {A B N : ℕ} (u : Fin A → EReal) (Wu : Fin A → Fin N → EReal) (v : Fin B → EReal) (Wv : Fin B → Fin N → EReal)
    (b : Fin N → EReal) (g : Fin N) : EReal :=
  ((∑ k, u k * Wu k g) + ∑ k, v k * Wv k g) + b g

/-- relu against the word of +0.0. -/
def relu (v : EReal) : EReal := max v Z

variable (W : Weights) (r : Row)

/-- The reset gate's part that depends on the node only. -/
def r1 (g : Fin 512) : EReal := lin1 r.x W.Wr W.br g

/-- One neighbour's gated message: σ(r1 + h·Ur) ⊙ h. -/
def gate (h : Fin 512 → EReal) (g : Fin 512) : EReal :=
  Ideal.logistic (r1 W r g + ∑ j, h j * W.Ur j g) * h g

/-- The sum of the gated messages, from the word of +0.0. -/
def gated (g : Fin 512) : EReal := Z + ∑ k : Fin 15, gate W r (r.hn k) g

/-- The update gate. -/
def zG (g : Fin 512) : EReal := Ideal.logistic (lin2 r.x W.Wzx r.sh W.Wzh W.bz g)

/-- The candidate state. -/
def preH (g : Fin 512) : EReal := Ideal.tanh (lin2 r.x W.Whx (gated W r) W.Whh W.bh g)

/-- The new message. -/
def newH (g : Fin 512) : EReal := (ONE - zG W r g) * r.sh g + zG W r g * preH W r g

/-- The word head's hidden layer. -/
def wHid (g : Fin 512) : EReal := relu (lin2 (newH W r) W.Wwh r.cx W.Wwl W.bw g)

/-- The word scores. -/
def word (j : Fin 1024) : EReal := lin1 (wHid W r) W.Wo W.bo j

/-- The stop head's first hidden layer. -/
def stopH (g : Fin 512) : EReal := relu (lin2 r.x W.Uix r.co W.Uio W.bi g)

/-- The stop head's second hidden layer. -/
def sHid (g : Fin 512) : EReal := relu (lin2 (stopH W r) W.Uwh r.cx W.Uwl W.bu g)

/-- The stop score. -/
def stop : EReal := (∑ k, sHid W r k * W.uo k) + W.ub

/-! ## The row data and the weights, read off each program's arrays -/

section Arrays
open Idealize.ShloMosaic.ValueIdx

/-- The reference's weights: its seventeen weight arguments as given, [out, in] matrices read transposed, a layer on a
    concatenated input read at columns k and 512 + k of its one matrix. -/
def refWeights (a9 : ((⟨2, ![512, 1024]⟩ : Shape).Idx → EReal)) (a10 : ((⟨1, ![512]⟩ : Shape).Idx → EReal)) (a11 : ((⟨2, ![512, 512]⟩ : Shape).Idx → EReal)) (a12 : ((⟨1, ![512]⟩ : Shape).Idx → EReal)) (a13 : ((⟨2, ![512, 512]⟩ : Shape).Idx → EReal))
    (a14 : ((⟨2, ![512, 1024]⟩ : Shape).Idx → EReal)) (a15 : ((⟨1, ![512]⟩ : Shape).Idx → EReal)) (a16 : ((⟨2, ![512, 640]⟩ : Shape).Idx → EReal)) (a17 : ((⟨1, ![512]⟩ : Shape).Idx → EReal)) (a18 : ((⟨2, ![1024, 512]⟩ : Shape).Idx → EReal))
    (a19 : ((⟨1, ![1024]⟩ : Shape).Idx → EReal)) (a20 : ((⟨2, ![512, 1024]⟩ : Shape).Idx → EReal)) (a21 : ((⟨1, ![512]⟩ : Shape).Idx → EReal)) (a22 : ((⟨2, ![512, 640]⟩ : Shape).Idx → EReal)) (a23 : ((⟨1, ![512]⟩ : Shape).Idx → EReal))
    (a24 : ((⟨2, ![1, 512]⟩ : Shape).Idx → EReal)) (a25 : ((⟨1, ![1]⟩ : Shape).Idx → EReal)) : Weights where
  Wr := fun k g => a11 (ix2 g k)
  br := fun g => a12 (ix1 g)
  Ur := fun j g => a13 (ix2 g j)
  Wzx := fun k g => a9 (ix2 g ⟨k.val, by have := k.isLt; omega⟩)
  Wzh := fun k g => a9 (ix2 g ⟨512 + k.val, by have := k.isLt; omega⟩)
  bz := fun g => a10 (ix1 g)
  Whx := fun k g => a14 (ix2 g ⟨k.val, by have := k.isLt; omega⟩)
  Whh := fun k g => a14 (ix2 g ⟨512 + k.val, by have := k.isLt; omega⟩)
  bh := fun g => a15 (ix1 g)
  Wwh := fun k g => a16 (ix2 g ⟨k.val, by have := k.isLt; omega⟩)
  Wwl := fun k g => a16 (ix2 g ⟨512 + k.val, by have := k.isLt; omega⟩)
  bw := fun g => a17 (ix1 g)
  Wo := fun k j => a18 (ix2 j k)
  bo := fun j => a19 (ix1 j)
  Uix := fun k g => a20 (ix2 g ⟨k.val, by have := k.isLt; omega⟩)
  Uio := fun k g => a20 (ix2 g ⟨512 + k.val, by have := k.isLt; omega⟩)
  bi := fun g => a21 (ix1 g)
  Uwh := fun k g => a22 (ix2 g ⟨k.val, by have := k.isLt; omega⟩)
  Uwl := fun k g => a22 (ix2 g ⟨512 + k.val, by have := k.isLt; omega⟩)
  bu := fun g => a23 (ix1 g)
  uo := fun k => a24 (ix2 (0 : Fin 1) k)
  ub := a25 (ix1 (0 : Fin 1))

/-- Node n's row data in the reference: row n of the gathered embeddings X and contexts C, its fifteen masked neighbour
    messages H[n, k, ·], and the sums over k of H[n, k, ·] and of the masked "o" messages O[n, k, ·]. -/
def refRow (X : ((⟨2, ![16384, 512]⟩ : Shape).Idx → EReal)) (H O : ((⟨3, ![16384, 15, 512]⟩ : Shape).Idx → EReal)) (C : ((⟨2, ![16384, 128]⟩ : Shape).Idx → EReal)) (n : Fin 16384) : Row where
  x := fun k => X (ix2 n k)
  hn := fun k j => H (ix3 n k j)
  sh := fun h => Z + ∑ k : Fin 15, H (ix3 n k h)
  co := fun h => Z + ∑ k : Fin 15, O (ix3 n k h)
  cx := fun k => C (ix2 n k)

/-- The kernel's weights: its twenty-two weight blocks, already split and laid out [in, out]. -/
def kerWeights (x5 x6 : ((⟨2, ![512, 512]⟩ : Shape).Idx → EReal)) (x7 : ((⟨2, ![1, 512]⟩ : Shape).Idx → EReal)) (x8 : ((⟨2, ![512, 512]⟩ : Shape).Idx → EReal)) (x9 : ((⟨2, ![1, 512]⟩ : Shape).Idx → EReal)) (x10 x11 x12 : ((⟨2, ![512, 512]⟩ : Shape).Idx → EReal))
    (x13 : ((⟨2, ![1, 512]⟩ : Shape).Idx → EReal)) (x14 : ((⟨2, ![512, 512]⟩ : Shape).Idx → EReal)) (x15 : ((⟨2, ![128, 512]⟩ : Shape).Idx → EReal)) (x16 : ((⟨2, ![1, 512]⟩ : Shape).Idx → EReal)) (x17 : ((⟨2, ![512, 1024]⟩ : Shape).Idx → EReal))
    (x18 : ((⟨2, ![1, 1024]⟩ : Shape).Idx → EReal)) (x19 x20 : ((⟨2, ![512, 512]⟩ : Shape).Idx → EReal)) (x21 : ((⟨2, ![1, 512]⟩ : Shape).Idx → EReal)) (x22 : ((⟨2, ![512, 512]⟩ : Shape).Idx → EReal)) (x23 : ((⟨2, ![128, 512]⟩ : Shape).Idx → EReal))
    (x24 : ((⟨2, ![1, 512]⟩ : Shape).Idx → EReal)) (x25 : ((⟨2, ![1, 512]⟩ : Shape).Idx → EReal)) (x26 : ((⟨2, ![1, 1]⟩ : Shape).Idx → EReal)) : Weights where
  Wr := fun k g => x8 (ix2 k g)
  br := fun g => x9 (ix2 (0 : Fin 1) g)
  Ur := fun j g => x10 (ix2 j g)
  Wzx := fun k g => x5 (ix2 k g)
  Wzh := fun k g => x6 (ix2 k g)
  bz := fun g => x7 (ix2 (0 : Fin 1) g)
  Whx := fun k g => x11 (ix2 k g)
  Whh := fun k g => x12 (ix2 k g)
  bh := fun g => x13 (ix2 (0 : Fin 1) g)
  Wwh := fun k g => x14 (ix2 k g)
  Wwl := fun k g => x15 (ix2 k g)
  bw := fun g => x16 (ix2 (0 : Fin 1) g)
  Wo := fun k j => x17 (ix2 k j)
  bo := fun j => x18 (ix2 (0 : Fin 1) j)
  Uix := fun k g => x19 (ix2 k g)
  Uio := fun k g => x20 (ix2 k g)
  bi := fun g => x21 (ix2 (0 : Fin 1) g)
  Uwh := fun k g => x22 (ix2 k g)
  Uwl := fun k g => x23 (ix2 k g)
  bu := fun g => x24 (ix2 (0 : Fin 1) g)
  uo := fun k => x25 (ix2 (0 : Fin 1) k)
  ub := x26 (ix2 (0 : Fin 1) (0 : Fin 1))

/-- Row p of a block of 256 nodes in the kernel: row p of the x, sum, o-sum and context blocks, and row p of each of the
    fifteen neighbour slabs. -/
def kerRow (x0 : ((⟨2, ![256, 512]⟩ : Shape).Idx → EReal)) (x1 : ((⟨3, ![15, 256, 512]⟩ : Shape).Idx → EReal)) (x2 x3 : ((⟨2, ![256, 512]⟩ : Shape).Idx → EReal)) (x4 : ((⟨2, ![256, 128]⟩ : Shape).Idx → EReal)) (p : Fin 256) : Row where
  x := fun k => x0 (ix2 p k)
  hn := fun k j => x1 (ix3 k p j)
  sh := fun k => x2 (ix2 p k)
  co := fun k => x3 (ix2 p k)
  cx := fun k => x4 (ix2 p k)

end Arrays

end Cert.Cell

end
-- ==== Proof.LibMatmulAt.lean ====
/-
  A matrix product into a zero accumulator, read at one entry, at the extended reals, whatever precision the product is asked at.

  Rows by columns: for [M, K] times [K, N], entry (p, q) is the finite sum over k of left(p, k) · right(k, q).
  Rows by rows: for [M, K] and [N, K] contracted along the SECOND axis of both, entry (p, q) is the sum over k of left(p, k) · right(q, k).
  The dimension record is any one whose contraction has one axis of extent K and whose operand indices at (output index, contraction index)
  have the coordinates stated as the four hypotheses (for a printed record each is one line: a non-contracting coordinate by unfolding,
  the contracting one by `lhsIdx_val_of_single` / `rhsIdx_val_of_single`).
-/
import Idealize.ShloMosaic.Lib.ValueIdx
import Idealize.ShloMosaic.PureOps.Ideal.Laws

noncomputable section

open scoped BigOperators

namespace Cert.LibMatmulAt

open Idealize.ShloMosaic Idealize.ShloMosaic.ValueIdx

/-- Rows by columns, into a zero accumulator, at entry (p, q): row p of the left operand against column q of the right. -/
theorem matmul_rows_cols_apply {M N K : Nat} {φ₁ φ₂ : FTy} (D : DotDims ⟨2, ![M, K]⟩ ⟨2, ![K, N]⟩ ⟨2, ![M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![M, K]⟩ φ₁) (rhs : FVec Ideal ⟨2, ![K, N]⟩ φ₂) (p : Fin M) (q : Fin N) :
    FloatOps.matmul D pr lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- Rows by rows (the second axis of both operands contracted), into a zero accumulator, at entry (p, q): row p of the left
    operand against row q of the right. -/
theorem matmul_rows_rows_apply {M N K : Nat} {φ₁ φ₂ : FTy} (D : DotDims ⟨2, ![M, K]⟩ ⟨2, ![N, K]⟩ ⟨2, ![M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (lhs : FVec Ideal ⟨2, ![M, K]⟩ φ₁) (rhs : FVec Ideal ⟨2, ![N, K]⟩ φ₂) (p : Fin M) (q : Fin N) :
    FloatOps.matmul D pr lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.LibMatmulAt

end
-- ==== Proof.Algebra.lean ====
/-
  The extended-real facts that join the kernel's arrangement of the GRU cell to the reference's.

  * The logistic function written out as the host writes it, 1 / (1 + e^(−x)) with both ones the f32 word for 1.0, is the
    one-operation logistic the kernel applies.
  * A sum over the a + b columns of two joined row pieces is the sum over the first piece plus the sum over the second:
    this is all that separates cat(u, v) · W from u · W[:a] + v · W[a:].
  * Fifteen terms added one after the other onto a start value, left to right, are the start value plus their sum:
    the kernel's unrolled neighbour loop against the reference's sum over the neighbour axis.
  Addition of extended reals is commutative and associative everywhere, so none of this needs the entries finite.
-/
import Idealize.ShloMosaic.PureOps.Ideal.Laws
import Idealize.ShloMosaic.PureOps.IdealRules

noncomputable section

open scoped BigOperators

namespace Cert.Algebra

open Idealize.ShloMosaic

/-- The f32 word of 1.0 is the extended real 1. -/
theorem one_f32 : Ideal.ofBits .f32 0x3F800000#32 = 1 := IdealRules.sign_bit.ideal_onePat .f32

/-- The host's spelling of the logistic function is the logistic function. -/
theorem host_logistic (x : EReal) :
    Ideal.div (Ideal.ofBits .f32 0x3F800000#32) (Ideal.ofBits .f32 0x3F800000#32 + Ideal.exp (-x)) = Ideal.logistic x := by
  rw [one_f32]; rfl

/-- A sum over a + b indices is the sum over the first a plus the sum over the last b. -/
theorem sum_split {M : Type*} [AddCommMonoid M] (a b n : ℕ) (h : a + b = n) (f : Fin n → M) :
    ∑ k, f k = ∑ k : Fin a, f ⟨k.val, by omega⟩ + ∑ k : Fin b, f ⟨a + k.val, by omega⟩ := by
  subst h
  rw [Fin.sum_univ_add]
  rfl

/-- Fifteen terms added in order onto a start value are the start value plus their sum. -/
theorem chain15 {M : Type*} [AddCommMonoid M] (T : Fin 15 → M) (z : M) :
    z + T 0 + T 1 + T 2 + T 3 + T 4 + T 5 + T 6 + T 7 + T 8 + T 9 + T 10 + T 11 + T 12 + T 13 + T 14 = z + ∑ k, T k := by
  simp only [Fin.sum_univ_succ, Fin.sum_univ_zero, add_zero, add_assoc]
  rfl

end Cert.Algebra

end
-- ==== Proof.KVocab.lean ====
/-
  The kernel body's intermediate values, one term each, and what each holds on one row at the extended reals.

  The body works on a block of 256 rows. Every value below is a [256, ·] vector; read on row p it is the specification's
  function (Spec.lean) of what its inputs hold on row p. A product x·W of a [256, K] value with a [K, N] weight block into
  a zero accumulator is, at (p, g), the sum over k of x(p, k)·W(k, g); a bias row [1, N] spread over the rows reads b(0, g);
  the casts to and from bf16 are the identity on the extended reals.
-/
import proofs.«164827_j35158602285573_2_alg».proof.KernelIdeal
import proofs.«164827_j35158602285573_2_alg».proof.Proof.Gen.KernelIdeal
import proofs.«164827_j35158602285573_2_alg».proof.Proof.Spec
import proofs.«164827_j35158602285573_2_alg».proof.Proof.LibMatmulAt
import proofs.«164827_j35158602285573_2_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Cellv

open Cert.KernelIdeal Cert.KernelIdeal.Gen Idealize.ShloMosaic Idealize.ShloMosaic.ValueIdx Cert.LibMatmulAt

/-! ## The terms, at any float instance -/

section Terms
variable {F : FTy → Type} [FloatOps F]

/-- x·W for a [512, 512] weight block. -/
def mm (a : FVec F S256x512 .bf16) (W : Vec F S512x512 .bf16) : FVec F S256x512 .f32 :=
  matmul dot_S256x512_S512x512_S256x512_1_0_0_1_n_n none a (shapeCast S512x512 W shapeCasts_S512x512_S512x512)
    (constant S256x512 .f32 0x00000000#32)
/-- c·W for the context's [128, 512] weight block. -/
def mmc (a : FVec F S256x128 .bf16) (W : Vec F S128x512 .bf16) : FVec F S256x512 .f32 :=
  matmul dot_S256x128_S128x512_S256x512_1_0_0_1_n_n none a (shapeCast S128x512 W shapeCasts_S128x512_S128x512)
    (constant S256x512 .f32 0x00000000#32)
/-- x·W for the word head's [512, 1024] weight block. -/
def mmo (a : FVec F S256x512 .bf16) (W : Vec F S512x1024 .bf16) : FVec F S256x1024 .f32 :=
  matmul dot_S256x512_S512x1024_S256x1024_1_0_0_1_n_n none a (shapeCast S512x1024 W shapeCasts_S512x1024_S512x1024)
    (constant S256x1024 .f32 0x00000000#32)
/-- A bias row spread over the 256 rows. -/
def brow (b : Vec F S1x512 .f32) : FVec F S256x512 .f32 :=
  broadcastTo S256x512 (shapeCast S1x512 b shapeCasts_S1x512_S1x512) broadcasts_S1x512_S256x512
/-- The word head's bias row spread over the 256 rows. -/
def browo (b : Vec F S1x1024 .f32) : FVec F S256x1024 .f32 :=
  broadcastTo S256x1024 (shapeCast S1x1024 b shapeCasts_S1x1024_S1x1024) broadcasts_S1x1024_S256x1024
/-- The block of +0.0. -/
def zero : FVec F S256x512 .f32 := broadcast S256x512 (Scalar.ofBits .f32 0x00000000#32)
/-- One neighbour's [1, 256, 512] slab as a [256, 512] value. -/
def slab (h : Vec F S1x256x512 .bf16) : FVec F S256x512 .bf16 := shapeCast S256x512 h shapeCasts_S1x256x512_S256x512

/-- x·Wr + br. -/
def r1 (x : FVec F S256x512 .bf16) (Wr : Vec F S512x512 .bf16) (br : Vec F S1x512 .f32) : FVec F S256x512 .f32 :=
  addf (mm x Wr) (brow br)
/-- σ(r1 + h·Ur) ⊙ h for one neighbour slab. -/
def gate (r : FVec F S256x512 .f32) (Ur : Vec F S512x512 .bf16) (h : Vec F S1x256x512 .bf16) : FVec F S256x512 .f32 :=
  mulf (logistic (addf r (mm (slab h) Ur))) (extf .f32 (slab h) bitsLt_bf16_f32)
/-- u·A + v·B + b over two [512, 512] blocks. -/
def lin2 (u : FVec F S256x512 .bf16) (A : Vec F S512x512 .bf16) (v : FVec F S256x512 .bf16) (B : Vec F S512x512 .bf16)
    (b : Vec F S1x512 .f32) : FVec F S256x512 .f32 :=
  addf (addf (mm u A) (mm v B)) (brow b)
/-- u·A + c·B + b with c the [256, 128] context block. -/
def lin2c (u : FVec F S256x512 .bf16) (A : Vec F S512x512 .bf16) (c : FVec F S256x128 .bf16) (B : Vec F S128x512 .bf16)
    (b : Vec F S1x512 .f32) : FVec F S256x512 .f32 :=
  addf (addf (mm u A) (mmc c B)) (brow b)
/-- relu against the block of +0.0. -/
def relu (v : FVec F S256x512 .f32) : FVec F S256x512 .f32 := maximumf v (broadcast S256x512 (Scalar.ofBits .f32 0x00000000#32))
/-- (1 − z) ⊙ s + z ⊙ h̃. -/
def newH (z s ph : FVec F S256x512 .f32) : FVec F S256x512 .f32 :=
  addf (mulf (subf (broadcast S256x512 (Scalar.ofBits .f32 0x3F800000#32)) z) s) (mulf z ph)
/-- w·Wo + bo. -/
def word (w : FVec F S256x512 .bf16) (Wo : Vec F S512x1024 .bf16) (bo : Vec F S1x1024 .f32) : FVec F S256x1024 .f32 :=
  addf (mmo w Wo) (browo bo)
/-- The lane sum of s ⊙ uo, as a column, plus the stop bias. -/
def stop (s : FVec F S256x512 .f32) (uo : Vec F S1x512 .f32) (ub : Vec F S1x1 .f32) : FVec F S256x1 .f32 :=
  addf (shapeCast S256x1 (multiReduction .add [1] S256 (mulf s (broadcastTo S256x512 uo broadcasts_S1x512_S256x512))
      0x00000000#32 reduces_S256x512_S256 (.inl rfl) rfl) shapeCasts_S256_S256x1)
    (broadcastTo S256x1 (shapeCast S1x1 ub shapeCasts_S1x1_S1x1) broadcasts_S1x1_S256x1)

end Terms

/-! ## The body, composed

The kernel body as one composition of the terms above, over its 27 input blocks and the fifteen neighbour slabs h0 … h14 it
loads from the [15, 256, 512] block one at a time. -/

section Body
variable {F : FTy → Type} [FloatOps F]
variable (x0 : Vec F S256x512 .bf16) (x1 : Vec F S15x256x512 .bf16) (x2 : Vec F S256x512 .f32) (x3 : Vec F S256x512 .bf16)
  (x4 : Vec F S256x128 .bf16) (x5 x6 : Vec F S512x512 .bf16) (x7 : Vec F S1x512 .f32) (x8 : Vec F S512x512 .bf16)
  (x9 : Vec F S1x512 .f32) (x10 x11 x12 : Vec F S512x512 .bf16) (x13 : Vec F S1x512 .f32) (x14 : Vec F S512x512 .bf16)
  (x15 : Vec F S128x512 .bf16) (x16 : Vec F S1x512 .f32) (x17 : Vec F S512x1024 .bf16) (x18 : Vec F S1x1024 .f32)
  (x19 x20 : Vec F S512x512 .bf16) (x21 : Vec F S1x512 .f32) (x22 : Vec F S512x512 .bf16) (x23 : Vec F S128x512 .bf16)
  (x24 : Vec F S1x512 .f32) (x25 : Vec F S1x512 .f32) (x26 : Vec F S1x1 .f32)
  (h0 h1 h2 h3 h4 h5 h6 h7 h8 h9 h10 h11 h12 h13 h14 : Vec F S1x256x512 .bf16)

/-- The x block as the body holds it. -/
def X : FVec F S256x512 .bf16 := shapeCast S256x512 x0 shapeCasts_S256x512_S256x512
/-- The context block. -/
def CX : FVec F S256x128 .bf16 := shapeCast S256x128 x4 shapeCasts_S256x128_S256x128
/-- The block of neighbour sums. -/
def SH : FVec F S256x512 .f32 := shapeCast S256x512 x2 shapeCasts_S256x512_S256x512
/-- The block of o-message sums. -/
def CO : FVec F S256x512 .bf16 := shapeCast S256x512 x3 shapeCasts_S256x512_S256x512
/-- x·Wr + br. -/
def R1 : FVec F S256x512 .f32 := r1 (X x0) x8 x9
/-- The gated messages added one neighbour after the other onto the block of +0.0. -/
def SG : FVec F S256x512 .f32 :=
  addf (addf (addf (addf (addf (addf (addf (addf (addf (addf (addf (addf (addf (addf (addf (zero) (gate (R1 x0 x8 x9) x10 h0)) (gate (R1 x0 x8 x9) x10 h1)) (gate (R1 x0 x8 x9) x10 h2)) (gate (R1 x0 x8 x9) x10 h3)) (gate (R1 x0 x8 x9) x10 h4)) (gate (R1 x0 x8 x9) x10 h5)) (gate (R1 x0 x8 x9) x10 h6)) (gate (R1 x0 x8 x9) x10 h7)) (gate (R1 x0 x8 x9) x10 h8)) (gate (R1 x0 x8 x9) x10 h9)) (gate (R1 x0 x8 x9) x10 h10)) (gate (R1 x0 x8 x9) x10 h11)) (gate (R1 x0 x8 x9) x10 h12)) (gate (R1 x0 x8 x9) x10 h13)) (gate (R1 x0 x8 x9) x10 h14)
/-- The update gate. -/
def ZG : FVec F S256x512 .f32 := logistic (lin2 (X x0) x5 (truncf .bf16 (SH x2) bitsLt_bf16_f32) x6 x7)
/-- The candidate state. -/
def PH : FVec F S256x512 .f32 :=
  tanh (lin2 (X x0) x11 (truncf .bf16 (SG x0 x8 x9 x10 h0 h1 h2 h3 h4 h5 h6 h7 h8 h9 h10 h11 h12 h13 h14) bitsLt_bf16_f32) x12 x13)
/-- The new message. -/
def NH : FVec F S256x512 .f32 := newH (ZG x0 x2 x5 x6 x7) (SH x2) (PH x0 x8 x9 x10 x11 x12 x13 h0 h1 h2 h3 h4 h5 h6 h7 h8 h9 h10 h11 h12 h13 h14)
/-- The word head's hidden layer. -/
def WH : FVec F S256x512 .f32 :=
  relu (lin2c (truncf .bf16 (NH x0 x2 x5 x6 x7 x8 x9 x10 x11 x12 x13 h0 h1 h2 h3 h4 h5 h6 h7 h8 h9 h10 h11 h12 h13 h14) bitsLt_bf16_f32) x14 (CX x4) x15 x16)
/-- The 1024 word scores of the block's rows. -/
def WORD : FVec F S256x1024 .f32 :=
  word (truncf .bf16 (WH x0 x2 x4 x5 x6 x7 x8 x9 x10 x11 x12 x13 x14 x15 x16 h0 h1 h2 h3 h4 h5 h6 h7 h8 h9 h10 h11 h12 h13 h14) bitsLt_bf16_f32) x17 x18
/-- The stop head's first hidden layer. -/
def ST : FVec F S256x512 .f32 := relu (lin2 (X x0) x19 (CO x3) x20 x21)
/-- The stop head's second hidden layer. -/
def SHID : FVec F S256x512 .f32 := relu (lin2c (truncf .bf16 (ST x0 x3 x19 x20 x21) bitsLt_bf16_f32) x22 (CX x4) x23 x24)
/-- The stop score of the block's rows, as a column. -/
def STOP : FVec F S256x1 .f32 := stop (SHID x0 x3 x4 x19 x20 x21 x22 x23 x24) x25 x26

end Body

/-! ## The three printed products at an entry -/

theorem mm_apply (a : FVec Ideal S256x512 .bf16) (W : Vec Ideal S512x512 .bf16) (p : Fin 256) (g : Fin 512) :
    mm a W (ix2 p g) = ∑ k : Fin 512, a (ix2 p k) * W (ix2 k g) := by
  unfold mm
  rw [shapeCast_self]
  refine matmul_rows_cols_apply dot_S256x512_S512x512_S256x512_1_0_0_1_n_n rfl rfl none ?_ ?_ ?_ ?_ a W p g
  · intro i q
    unfold DotDims.lhsIdx
    rw [dif_neg (show ¬(0 : Fin S256x512.rank) ∈ dot_S256x512_S512x512_S256x512_1_0_0_1_n_n.lhsBatch by decide),
      dif_pos (show (0 : Fin S256x512.rank) ∈ dot_S256x512_S512x512_S256x512_1_0_0_1_n_n.lhsNonContracting by decide)]
    rfl
  · exact fun i q => dot_S256x512_S512x512_S256x512_1_0_0_1_n_n.lhsIdx_val_of_single rfl i q
  · exact fun i q => dot_S256x512_S512x512_S256x512_1_0_0_1_n_n.rhsIdx_val_of_single rfl i q
  · intro i q
    unfold DotDims.rhsIdx
    rw [dif_neg (show ¬(1 : Fin S512x512.rank) ∈ dot_S256x512_S512x512_S256x512_1_0_0_1_n_n.rhsBatch by decide),
      dif_pos (show (1 : Fin S512x512.rank) ∈ dot_S256x512_S512x512_S256x512_1_0_0_1_n_n.rhsNonContracting by decide)]
    rfl

theorem mmc_apply (a : FVec Ideal S256x128 .bf16) (W : Vec Ideal S128x512 .bf16) (p : Fin 256) (g : Fin 512) :
    mmc a W (ix2 p g) = ∑ k : Fin 128, a (ix2 p k) * W (ix2 k g) := by
  unfold mmc
  rw [shapeCast_self]
  refine matmul_rows_cols_apply dot_S256x128_S128x512_S256x512_1_0_0_1_n_n rfl rfl none ?_ ?_ ?_ ?_ a W p g
  · intro i q
    unfold DotDims.lhsIdx
    rw [dif_neg (show ¬(0 : Fin S256x128.rank) ∈ dot_S256x128_S128x512_S256x512_1_0_0_1_n_n.lhsBatch by decide),
      dif_pos (show (0 : Fin S256x128.rank) ∈ dot_S256x128_S128x512_S256x512_1_0_0_1_n_n.lhsNonContracting by decide)]
    rfl
  · exact fun i q => dot_S256x128_S128x512_S256x512_1_0_0_1_n_n.lhsIdx_val_of_single rfl i q
  · exact fun i q => dot_S256x128_S128x512_S256x512_1_0_0_1_n_n.rhsIdx_val_of_single rfl i q
  · intro i q
    unfold DotDims.rhsIdx
    rw [dif_neg (show ¬(1 : Fin S128x512.rank) ∈ dot_S256x128_S128x512_S256x512_1_0_0_1_n_n.rhsBatch by decide),
      dif_pos (show (1 : Fin S128x512.rank) ∈ dot_S256x128_S128x512_S256x512_1_0_0_1_n_n.rhsNonContracting by decide)]
    rfl

theorem mmo_apply (a : FVec Ideal S256x512 .bf16) (W : Vec Ideal S512x1024 .bf16) (p : Fin 256) (j : Fin 1024) :
    mmo a W (ix2 p j) = ∑ k : Fin 512, a (ix2 p k) * W (ix2 k j) := by
  unfold mmo
  rw [shapeCast_self]
  refine matmul_rows_cols_apply dot_S256x512_S512x1024_S256x1024_1_0_0_1_n_n rfl rfl none ?_ ?_ ?_ ?_ a W p j
  · intro i q
    unfold DotDims.lhsIdx
    rw [dif_neg (show ¬(0 : Fin S256x512.rank) ∈ dot_S256x512_S512x1024_S256x1024_1_0_0_1_n_n.lhsBatch by decide),
      dif_pos (show (0 : Fin S256x512.rank) ∈ dot_S256x512_S512x1024_S256x1024_1_0_0_1_n_n.lhsNonContracting by decide)]
    rfl
  · exact fun i q => dot_S256x512_S512x1024_S256x1024_1_0_0_1_n_n.lhsIdx_val_of_single rfl i q
  · exact fun i q => dot_S256x512_S512x1024_S256x1024_1_0_0_1_n_n.rhsIdx_val_of_single rfl i q
  · intro i q
    unfold DotDims.rhsIdx
    rw [dif_neg (show ¬(1 : Fin S512x1024.rank) ∈ dot_S256x512_S512x1024_S256x1024_1_0_0_1_n_n.rhsBatch by decide),
      dif_pos (show (1 : Fin S512x1024.rank) ∈ dot_S256x512_S512x1024_S256x1024_1_0_0_1_n_n.rhsNonContracting by decide)]
    rfl

theorem brow_apply (b : Vec Ideal S1x512 .f32) (p : Fin 256) (g : Fin 512) : brow b (ix2 p g) = b (ix2 (0 : Fin 1) g) := by
  unfold brow
  rw [broadcastTo_1b_ab_apply, shapeCast_self]

theorem browo_apply (b : Vec Ideal S1x1024 .f32) (p : Fin 256) (j : Fin 1024) : browo b (ix2 p j) = b (ix2 (0 : Fin 1) j) := by
  unfold browo
  rw [broadcastTo_1b_ab_apply, shapeCast_self]

theorem slab_apply (h : Vec Ideal S1x256x512 .bf16) (p : Fin 256) (g : Fin 512) :
    slab h (ix2 p g) = h (ix3 (0 : Fin 1) p g) := by
  unfold slab
  exact shapeCast_1ab_ab_apply h _ p g

/-! ## Each term on one row

Row p of a value is read from row p of its vector inputs (the hypotheses) and from the weight blocks. -/

section Rows
variable (p : Fin 256)

/-- Row p of a value cast to bf16 is row p of the value: the cast is the identity on the extended reals. -/
theorem trunc_row (v : FVec Ideal S256x512 .f32) (vv : Fin 512 → EReal) (hv : ∀ k, v (ix2 p k) = vv k) (k : Fin 512) :
    (truncf .bf16 v bitsLt_bf16_f32 : FVec Ideal S256x512 .bf16) (ix2 p k) = vv k := hv k

theorem r1_row (x : FVec Ideal S256x512 .bf16) (Wr : Vec Ideal S512x512 .bf16) (br : Vec Ideal S1x512 .f32)
    (xx : Fin 512 → EReal) (hx : ∀ k, x (ix2 p k) = xx k) (g : Fin 512) :
    r1 x Wr br (ix2 p g) = Cell.lin1 xx (fun k g => Wr (ix2 k g)) (fun g => br (ix2 (0 : Fin 1) g)) g := by
  unfold r1 Cell.lin1
  rw [addf_apply, mm_apply, brow_apply]
  simp only [hx]

theorem gate_row (r : FVec Ideal S256x512 .f32) (Ur : Vec Ideal S512x512 .bf16) (h : Vec Ideal S1x256x512 .bf16)
    (rr hh : Fin 512 → EReal) (hr : ∀ g, r (ix2 p g) = rr g) (hhh : ∀ j, h (ix3 (0 : Fin 1) p j) = hh j) (g : Fin 512) :
    gate r Ur h (ix2 p g) = Ideal.logistic (rr g + ∑ j, hh j * Ur (ix2 j g)) * hh g := by
  unfold gate
  rw [mulf_apply, extf_apply, slab_apply, hhh]
  show Ideal.logistic (addf r (mm (slab h) Ur) (ix2 p g)) * _ = _
  rw [addf_apply, mm_apply, hr]
  simp only [slab_apply, hhh]

theorem lin2_row (u : FVec Ideal S256x512 .bf16) (A : Vec Ideal S512x512 .bf16) (v : FVec Ideal S256x512 .bf16)
    (B : Vec Ideal S512x512 .bf16) (b : Vec Ideal S1x512 .f32) (uu vv : Fin 512 → EReal)
    (hu : ∀ k, u (ix2 p k) = uu k) (hv : ∀ k, v (ix2 p k) = vv k) (g : Fin 512) :
    lin2 u A v B b (ix2 p g)
      = Cell.lin2 uu (fun k g => A (ix2 k g)) vv (fun k g => B (ix2 k g)) (fun g => b (ix2 (0 : Fin 1) g)) g := by
  unfold lin2 Cell.lin2
  rw [addf_apply, addf_apply, mm_apply, mm_apply, brow_apply]
  simp only [hu, hv]

theorem lin2c_row (u : FVec Ideal S256x512 .bf16) (A : Vec Ideal S512x512 .bf16) (c : FVec Ideal S256x128 .bf16)
    (B : Vec Ideal S128x512 .bf16) (b : Vec Ideal S1x512 .f32) (uu : Fin 512 → EReal) (cc : Fin 128 → EReal)
    (hu : ∀ k, u (ix2 p k) = uu k) (hc : ∀ k, c (ix2 p k) = cc k) (g : Fin 512) :
    lin2c u A c B b (ix2 p g)
      = Cell.lin2 uu (fun k g => A (ix2 k g)) cc (fun k g => B (ix2 k g)) (fun g => b (ix2 (0 : Fin 1) g)) g := by
  unfold lin2c Cell.lin2
  rw [addf_apply, addf_apply, mm_apply, mmc_apply, brow_apply]
  simp only [hu, hc]

theorem relu_apply (v : FVec Ideal S256x512 .f32) (i : S256x512.Idx) : relu v i = Cell.relu (v i) := rfl

theorem newH_apply (z s ph : FVec Ideal S256x512 .f32) (i : S256x512.Idx) :
    newH z s ph i = (Cell.ONE - z i) * s i + z i * ph i := rfl

theorem word_row (w : FVec Ideal S256x512 .bf16) (Wo : Vec Ideal S512x1024 .bf16) (bo : Vec Ideal S1x1024 .f32)
    (ww : Fin 512 → EReal) (hw : ∀ k, w (ix2 p k) = ww k) (j : Fin 1024) :
    word w Wo bo (ix2 p j) = Cell.lin1 ww (fun k j => Wo (ix2 k j)) (fun j => bo (ix2 (0 : Fin 1) j)) j := by
  unfold word Cell.lin1
  rw [addf_apply, mmo_apply, browo_apply]
  simp only [hw]

/-- The reduced axis put back: lane k of row p. -/
theorem lift_row (k : Fin 512) : reduces_S256x512_S256.lift (ix1 p) k = ix2 p k :=
  funext fun a => Fin.ext (by
    match a with
    | ⟨0, _⟩ => rfl
    | ⟨1, _⟩ => rfl)

theorem stop_row (s : FVec Ideal S256x512 .f32) (uo : Vec Ideal S1x512 .f32) (ub : Vec Ideal S1x1 .f32)
    (ss : Fin 512 → EReal) (hs : ∀ k, s (ix2 p k) = ss k) :
    stop s uo ub (ix2 p (0 : Fin 1)) = (∑ k, ss k * uo (ix2 (0 : Fin 1) k)) + ub (ix2 (0 : Fin 1) (0 : Fin 1)) := by
  unfold stop
  rw [addf_apply]
  congr 1
  · refine (shapeCast_apply _ shapeCasts_S256_S256x1 (ix2 p (0 : Fin 1)) (ix1 p) ?_).trans ?_
    · rw [Shape.rowMajor_val_one, Shape.rowMajor_val_two]
      show p.val = p.val * 1 + 0
      omega
    refine (Ideal.multiReduction_add_single (mulf s (broadcastTo S256x512 uo broadcasts_S1x512_S256x512)) 0x00000000#32
      reduces_S256x512_S256 (.inl rfl) rfl (ix1 p)).trans ?_
    refine Finset.sum_congr rfl fun (k : Fin 512) _ => ?_
    refine (congrArg (mulf s (broadcastTo S256x512 uo broadcasts_S1x512_S256x512)) (lift_row p k)).trans ?_
    rw [mulf_apply, hs, broadcastTo_1b_ab_apply]
  · rw [broadcastTo_1b_ab_apply, shapeCast_self]

end Rows

/-! ## The body on one row

Row p of each composed value is the specification's function of the row data `kerRow … p` and the weights `kerWeights …`.
The fifteen hypotheses say that slab k is neighbour k of the [15, 256, 512] block. -/

section BodyRows
variable (x0 : Vec Ideal S256x512 .bf16) (x1 : Vec Ideal S15x256x512 .bf16) (x2 : Vec Ideal S256x512 .f32) (x3 : Vec Ideal S256x512 .bf16)
  (x4 : Vec Ideal S256x128 .bf16) (x5 x6 : Vec Ideal S512x512 .bf16) (x7 : Vec Ideal S1x512 .f32) (x8 : Vec Ideal S512x512 .bf16)
  (x9 : Vec Ideal S1x512 .f32) (x10 x11 x12 : Vec Ideal S512x512 .bf16) (x13 : Vec Ideal S1x512 .f32) (x14 : Vec Ideal S512x512 .bf16)
  (x15 : Vec Ideal S128x512 .bf16) (x16 : Vec Ideal S1x512 .f32) (x17 : Vec Ideal S512x1024 .bf16) (x18 : Vec Ideal S1x1024 .f32)
  (x19 x20 : Vec Ideal S512x512 .bf16) (x21 : Vec Ideal S1x512 .f32) (x22 : Vec Ideal S512x512 .bf16) (x23 : Vec Ideal S128x512 .bf16)
  (x24 : Vec Ideal S1x512 .f32) (x25 : Vec Ideal S1x512 .f32) (x26 : Vec Ideal S1x1 .f32)
  (h0 h1 h2 h3 h4 h5 h6 h7 h8 h9 h10 h11 h12 h13 h14 : Vec Ideal S1x256x512 .bf16) (p : Fin 256)

theorem X_row (k : Fin 512) : X x0 (ix2 p k) = x0 (ix2 p k) := by unfold X; rw [shapeCast_self]
theorem CX_row (k : Fin 128) : CX x4 (ix2 p k) = x4 (ix2 p k) := by unfold CX; rw [shapeCast_self]
theorem SH_row (k : Fin 512) : SH x2 (ix2 p k) = x2 (ix2 p k) := by unfold SH; rw [shapeCast_self]
theorem CO_row (k : Fin 512) : CO x3 (ix2 p k) = x3 (ix2 p k) := by unfold CO; rw [shapeCast_self]

theorem R1_row (g : Fin 512) : R1 x0 x8 x9 (ix2 p g) = Cell.r1 (Cell.kerWeights x5 x6 x7 x8 x9 x10 x11 x12 x13 x14 x15 x16 x17 x18 x19 x20 x21 x22 x23 x24 x25 x26) (Cell.kerRow x0 x1 x2 x3 x4 p) g :=
  r1_row p (X x0) x8 x9 _ (X_row x0 p) g

theorem SG_row
    (hh0 : ∀ j, h0 (ix3 (0 : Fin 1) p j) = x1 (ix3 (0 : Fin 15) p j))
    (hh1 : ∀ j, h1 (ix3 (0 : Fin 1) p j) = x1 (ix3 (1 : Fin 15) p j))
    (hh2 : ∀ j, h2 (ix3 (0 : Fin 1) p j) = x1 (ix3 (2 : Fin 15) p j))
    (hh3 : ∀ j, h3 (ix3 (0 : Fin 1) p j) = x1 (ix3 (3 : Fin 15) p j))
    (hh4 : ∀ j, h4 (ix3 (0 : Fin 1) p j) = x1 (ix3 (4 : Fin 15) p j))
    (hh5 : ∀ j, h5 (ix3 (0 : Fin 1) p j) = x1 (ix3 (5 : Fin 15) p j))
    (hh6 : ∀ j, h6 (ix3 (0 : Fin 1) p j) = x1 (ix3 (6 : Fin 15) p j))
    (hh7 : ∀ j, h7 (ix3 (0 : Fin 1) p j) = x1 (ix3 (7 : Fin 15) p j))
    (hh8 : ∀ j, h8 (ix3 (0 : Fin 1) p j) = x1 (ix3 (8 : Fin 15) p j))
    (hh9 : ∀ j, h9 (ix3 (0 : Fin 1) p j) = x1 (ix3 (9 : Fin 15) p j))
    (hh10 : ∀ j, h10 (ix3 (0 : Fin 1) p j) = x1 (ix3 (10 : Fin 15) p j))
    (hh11 : ∀ j, h11 (ix3 (0 : Fin 1) p j) = x1 (ix3 (11 : Fin 15) p j))
    (hh12 : ∀ j, h12 (ix3 (0 : Fin 1) p j) = x1 (ix3 (12 : Fin 15) p j))
    (hh13 : ∀ j, h13 (ix3 (0 : Fin 1) p j) = x1 (ix3 (13 : Fin 15) p j))
    (hh14 : ∀ j, h14 (ix3 (0 : Fin 1) p j) = x1 (ix3 (14 : Fin 15) p j))
    (g : Fin 512) :
    SG x0 x8 x9 x10 h0 h1 h2 h3 h4 h5 h6 h7 h8 h9 h10 h11 h12 h13 h14 (ix2 p g) = Cell.gated (Cell.kerWeights x5 x6 x7 x8 x9 x10 x11 x12 x13 x14 x15 x16 x17 x18 x19 x20 x21 x22 x23 x24 x25 x26) (Cell.kerRow x0 x1 x2 x3 x4 p) g := by
  have hr : ∀ g, R1 x0 x8 x9 (ix2 p g) = Cell.r1 (Cell.kerWeights x5 x6 x7 x8 x9 x10 x11 x12 x13 x14 x15 x16 x17 x18 x19 x20 x21 x22 x23 x24 x25 x26) (Cell.kerRow x0 x1 x2 x3 x4 p) g :=
    R1_row x0 x1 x2 x3 x4 x5 x6 x7 x8 x9 x10 x11 x12 x13 x14 x15 x16 x17 x18 x19 x20 x21 x22 x23 x24 x25 x26 p
  unfold SG
  simp only [addf_apply]
  rw [gate_row p _ x10 h0 _ _ hr hh0 g,
    gate_row p _ x10 h1 _ _ hr hh1 g,
    gate_row p _ x10 h2 _ _ hr hh2 g,
    gate_row p _ x10 h3 _ _ hr hh3 g,
    gate_row p _ x10 h4 _ _ hr hh4 g,
    gate_row p _ x10 h5 _ _ hr hh5 g,
    gate_row p _ x10 h6 _ _ hr hh6 g,
    gate_row p _ x10 h7 _ _ hr hh7 g,
    gate_row p _ x10 h8 _ _ hr hh8 g,
    gate_row p _ x10 h9 _ _ hr hh9 g,
    gate_row p _ x10 h10 _ _ hr hh10 g,
    gate_row p _ x10 h11 _ _ hr hh11 g,
    gate_row p _ x10 h12 _ _ hr hh12 g,
    gate_row p _ x10 h13 _ _ hr hh13 g,
    gate_row p _ x10 h14 _ _ hr hh14 g]
  exact Cert.Algebra.chain15 (fun k => Cell.gate (Cell.kerWeights x5 x6 x7 x8 x9 x10 x11 x12 x13 x14 x15 x16 x17 x18 x19 x20 x21 x22 x23 x24 x25 x26) (Cell.kerRow x0 x1 x2 x3 x4 p) ((Cell.kerRow x0 x1 x2 x3 x4 p).hn k) g) Cell.Z

theorem ZG_row (g : Fin 512) : ZG x0 x2 x5 x6 x7 (ix2 p g) = Cell.zG (Cell.kerWeights x5 x6 x7 x8 x9 x10 x11 x12 x13 x14 x15 x16 x17 x18 x19 x20 x21 x22 x23 x24 x25 x26) (Cell.kerRow x0 x1 x2 x3 x4 p) g := by
  unfold ZG Cell.zG
  exact congrArg Ideal.logistic (lin2_row p (X x0) x5 (truncf .bf16 (SH x2) bitsLt_bf16_f32) x6 x7 _ _ (X_row x0 p)
    (trunc_row p _ _ (fun k => SH_row x2 p k)) g)

theorem PH_row
    (hh0 : ∀ j, h0 (ix3 (0 : Fin 1) p j) = x1 (ix3 (0 : Fin 15) p j))
    (hh1 : ∀ j, h1 (ix3 (0 : Fin 1) p j) = x1 (ix3 (1 : Fin 15) p j))
    (hh2 : ∀ j, h2 (ix3 (0 : Fin 1) p j) = x1 (ix3 (2 : Fin 15) p j))
    (hh3 : ∀ j, h3 (ix3 (0 : Fin 1) p j) = x1 (ix3 (3 : Fin 15) p j))
    (hh4 : ∀ j, h4 (ix3 (0 : Fin 1) p j) = x1 (ix3 (4 : Fin 15) p j))
    (hh5 : ∀ j, h5 (ix3 (0 : Fin 1) p j) = x1 (ix3 (5 : Fin 15) p j))
    (hh6 : ∀ j, h6 (ix3 (0 : Fin 1) p j) = x1 (ix3 (6 : Fin 15) p j))
    (hh7 : ∀ j, h7 (ix3 (0 : Fin 1) p j) = x1 (ix3 (7 : Fin 15) p j))
    (hh8 : ∀ j, h8 (ix3 (0 : Fin 1) p j) = x1 (ix3 (8 : Fin 15) p j))
    (hh9 : ∀ j, h9 (ix3 (0 : Fin 1) p j) = x1 (ix3 (9 : Fin 15) p j))
    (hh10 : ∀ j, h10 (ix3 (0 : Fin 1) p j) = x1 (ix3 (10 : Fin 15) p j))
    (hh11 : ∀ j, h11 (ix3 (0 : Fin 1) p j) = x1 (ix3 (11 : Fin 15) p j))
    (hh12 : ∀ j, h12 (ix3 (0 : Fin 1) p j) = x1 (ix3 (12 : Fin 15) p j))
    (hh13 : ∀ j, h13 (ix3 (0 : Fin 1) p j) = x1 (ix3 (13 : Fin 15) p j))
    (hh14 : ∀ j, h14 (ix3 (0 : Fin 1) p j) = x1 (ix3 (14 : Fin 15) p j))
    (g : Fin 512) :
    PH x0 x8 x9 x10 x11 x12 x13 h0 h1 h2 h3 h4 h5 h6 h7 h8 h9 h10 h11 h12 h13 h14 (ix2 p g) = Cell.preH (Cell.kerWeights x5 x6 x7 x8 x9 x10 x11 x12 x13 x14 x15 x16 x17 x18 x19 x20 x21 x22 x23 x24 x25 x26) (Cell.kerRow x0 x1 x2 x3 x4 p) g := by
  unfold PH Cell.preH
  exact congrArg Ideal.tanh (lin2_row p (X x0) x11 (truncf .bf16 (SG x0 x8 x9 x10 h0 h1 h2 h3 h4 h5 h6 h7 h8 h9 h10 h11 h12 h13 h14) bitsLt_bf16_f32) x12 x13 _ _
    (X_row x0 p) (trunc_row p _ _ (fun k => SG_row x0 x1 x2 x3 x4 x5 x6 x7 x8 x9 x10 x11 x12 x13 x14 x15 x16 x17 x18 x19 x20 x21 x22 x23 x24 x25 x26 h0 h1 h2 h3 h4 h5 h6 h7 h8 h9 h10 h11 h12 h13 h14 p hh0 hh1 hh2 hh3 hh4 hh5 hh6 hh7 hh8 hh9 hh10 hh11 hh12 hh13 hh14 k)) g)

theorem NH_row
    (hh0 : ∀ j, h0 (ix3 (0 : Fin 1) p j) = x1 (ix3 (0 : Fin 15) p j))
    (hh1 : ∀ j, h1 (ix3 (0 : Fin 1) p j) = x1 (ix3 (1 : Fin 15) p j))
    (hh2 : ∀ j, h2 (ix3 (0 : Fin 1) p j) = x1 (ix3 (2 : Fin 15) p j))
    (hh3 : ∀ j, h3 (ix3 (0 : Fin 1) p j) = x1 (ix3 (3 : Fin 15) p j))
    (hh4 : ∀ j, h4 (ix3 (0 : Fin 1) p j) = x1 (ix3 (4 : Fin 15) p j))
    (hh5 : ∀ j, h5 (ix3 (0 : Fin 1) p j) = x1 (ix3 (5 : Fin 15) p j))
    (hh6 : ∀ j, h6 (ix3 (0 : Fin 1) p j) = x1 (ix3 (6 : Fin 15) p j))
    (hh7 : ∀ j, h7 (ix3 (0 : Fin 1) p j) = x1 (ix3 (7 : Fin 15) p j))
    (hh8 : ∀ j, h8 (ix3 (0 : Fin 1) p j) = x1 (ix3 (8 : Fin 15) p j))
    (hh9 : ∀ j, h9 (ix3 (0 : Fin 1) p j) = x1 (ix3 (9 : Fin 15) p j))
    (hh10 : ∀ j, h10 (ix3 (0 : Fin 1) p j) = x1 (ix3 (10 : Fin 15) p j))
    (hh11 : ∀ j, h11 (ix3 (0 : Fin 1) p j) = x1 (ix3 (11 : Fin 15) p j))
    (hh12 : ∀ j, h12 (ix3 (0 : Fin 1) p j) = x1 (ix3 (12 : Fin 15) p j))
    (hh13 : ∀ j, h13 (ix3 (0 : Fin 1) p j) = x1 (ix3 (13 : Fin 15) p j))
    (hh14 : ∀ j, h14 (ix3 (0 : Fin 1) p j) = x1 (ix3 (14 : Fin 15) p j))
    (g : Fin 512) :
    NH x0 x2 x5 x6 x7 x8 x9 x10 x11 x12 x13 h0 h1 h2 h3 h4 h5 h6 h7 h8 h9 h10 h11 h12 h13 h14 (ix2 p g) = Cell.newH (Cell.kerWeights x5 x6 x7 x8 x9 x10 x11 x12 x13 x14 x15 x16 x17 x18 x19 x20 x21 x22 x23 x24 x25 x26) (Cell.kerRow x0 x1 x2 x3 x4 p) g := by
  unfold NH Cell.newH
  rw [newH_apply, ZG_row x0 x1 x2 x3 x4 x5 x6 x7 x8 x9 x10 x11 x12 x13 x14 x15 x16 x17 x18 x19 x20 x21 x22 x23 x24 x25 x26 p g, SH_row x2 p g,
    PH_row x0 x1 x2 x3 x4 x5 x6 x7 x8 x9 x10 x11 x12 x13 x14 x15 x16 x17 x18 x19 x20 x21 x22 x23 x24 x25 x26 h0 h1 h2 h3 h4 h5 h6 h7 h8 h9 h10 h11 h12 h13 h14 p hh0 hh1 hh2 hh3 hh4 hh5 hh6 hh7 hh8 hh9 hh10 hh11 hh12 hh13 hh14 g]
  rfl

theorem WH_row
    (hh0 : ∀ j, h0 (ix3 (0 : Fin 1) p j) = x1 (ix3 (0 : Fin 15) p j))
    (hh1 : ∀ j, h1 (ix3 (0 : Fin 1) p j) = x1 (ix3 (1 : Fin 15) p j))
    (hh2 : ∀ j, h2 (ix3 (0 : Fin 1) p j) = x1 (ix3 (2 : Fin 15) p j))
    (hh3 : ∀ j, h3 (ix3 (0 : Fin 1) p j) = x1 (ix3 (3 : Fin 15) p j))
    (hh4 : ∀ j, h4 (ix3 (0 : Fin 1) p j) = x1 (ix3 (4 : Fin 15) p j))
    (hh5 : ∀ j, h5 (ix3 (0 : Fin 1) p j) = x1 (ix3 (5 : Fin 15) p j))
    (hh6 : ∀ j, h6 (ix3 (0 : Fin 1) p j) = x1 (ix3 (6 : Fin 15) p j))
    (hh7 : ∀ j, h7 (ix3 (0 : Fin 1) p j) = x1 (ix3 (7 : Fin 15) p j))
    (hh8 : ∀ j, h8 (ix3 (0 : Fin 1) p j) = x1 (ix3 (8 : Fin 15) p j))
    (hh9 : ∀ j, h9 (ix3 (0 : Fin 1) p j) = x1 (ix3 (9 : Fin 15) p j))
    (hh10 : ∀ j, h10 (ix3 (0 : Fin 1) p j) = x1 (ix3 (10 : Fin 15) p j))
    (hh11 : ∀ j, h11 (ix3 (0 : Fin 1) p j) = x1 (ix3 (11 : Fin 15) p j))
    (hh12 : ∀ j, h12 (ix3 (0 : Fin 1) p j) = x1 (ix3 (12 : Fin 15) p j))
    (hh13 : ∀ j, h13 (ix3 (0 : Fin 1) p j) = x1 (ix3 (13 : Fin 15) p j))
    (hh14 : ∀ j, h14 (ix3 (0 : Fin 1) p j) = x1 (ix3 (14 : Fin 15) p j))
    (g : Fin 512) :
    WH x0 x2 x4 x5 x6 x7 x8 x9 x10 x11 x12 x13 x14 x15 x16 h0 h1 h2 h3 h4 h5 h6 h7 h8 h9 h10 h11 h12 h13 h14 (ix2 p g) = Cell.wHid (Cell.kerWeights x5 x6 x7 x8 x9 x10 x11 x12 x13 x14 x15 x16 x17 x18 x19 x20 x21 x22 x23 x24 x25 x26) (Cell.kerRow x0 x1 x2 x3 x4 p) g := by
  unfold WH Cell.wHid
  rw [relu_apply]
  exact congrArg Cell.relu (lin2c_row p (truncf .bf16 (NH x0 x2 x5 x6 x7 x8 x9 x10 x11 x12 x13 h0 h1 h2 h3 h4 h5 h6 h7 h8 h9 h10 h11 h12 h13 h14) bitsLt_bf16_f32) x14 (CX x4) x15 x16 _ _
    (trunc_row p _ _ (fun k => NH_row x0 x1 x2 x3 x4 x5 x6 x7 x8 x9 x10 x11 x12 x13 x14 x15 x16 x17 x18 x19 x20 x21 x22 x23 x24 x25 x26 h0 h1 h2 h3 h4 h5 h6 h7 h8 h9 h10 h11 h12 h13 h14 p hh0 hh1 hh2 hh3 hh4 hh5 hh6 hh7 hh8 hh9 hh10 hh11 hh12 hh13 hh14 k)) (CX_row x4 p) g)

/-- The word scores of row p of the block. -/
theorem WORD_row
    (hh0 : ∀ j, h0 (ix3 (0 : Fin 1) p j) = x1 (ix3 (0 : Fin 15) p j))
    (hh1 : ∀ j, h1 (ix3 (0 : Fin 1) p j) = x1 (ix3 (1 : Fin 15) p j))
    (hh2 : ∀ j, h2 (ix3 (0 : Fin 1) p j) = x1 (ix3 (2 : Fin 15) p j))
    (hh3 : ∀ j, h3 (ix3 (0 : Fin 1) p j) = x1 (ix3 (3 : Fin 15) p j))
    (hh4 : ∀ j, h4 (ix3 (0 : Fin 1) p j) = x1 (ix3 (4 : Fin 15) p j))
    (hh5 : ∀ j, h5 (ix3 (0 : Fin 1) p j) = x1 (ix3 (5 : Fin 15) p j))
    (hh6 : ∀ j, h6 (ix3 (0 : Fin 1) p j) = x1 (ix3 (6 : Fin 15) p j))
    (hh7 : ∀ j, h7 (ix3 (0 : Fin 1) p j) = x1 (ix3 (7 : Fin 15) p j))
    (hh8 : ∀ j, h8 (ix3 (0 : Fin 1) p j) = x1 (ix3 (8 : Fin 15) p j))
    (hh9 : ∀ j, h9 (ix3 (0 : Fin 1) p j) = x1 (ix3 (9 : Fin 15) p j))
    (hh10 : ∀ j, h10 (ix3 (0 : Fin 1) p j) = x1 (ix3 (10 : Fin 15) p j))
    (hh11 : ∀ j, h11 (ix3 (0 : Fin 1) p j) = x1 (ix3 (11 : Fin 15) p j))
    (hh12 : ∀ j, h12 (ix3 (0 : Fin 1) p j) = x1 (ix3 (12 : Fin 15) p j))
    (hh13 : ∀ j, h13 (ix3 (0 : Fin 1) p j) = x1 (ix3 (13 : Fin 15) p j))
    (hh14 : ∀ j, h14 (ix3 (0 : Fin 1) p j) = x1 (ix3 (14 : Fin 15) p j))
    (j : Fin 1024) :
    WORD x0 x2 x4 x5 x6 x7 x8 x9 x10 x11 x12 x13 x14 x15 x16 x17 x18 h0 h1 h2 h3 h4 h5 h6 h7 h8 h9 h10 h11 h12 h13 h14 (ix2 p j) = Cell.word (Cell.kerWeights x5 x6 x7 x8 x9 x10 x11 x12 x13 x14 x15 x16 x17 x18 x19 x20 x21 x22 x23 x24 x25 x26) (Cell.kerRow x0 x1 x2 x3 x4 p) j := by
  unfold WORD Cell.word
  exact word_row p (truncf .bf16 (WH x0 x2 x4 x5 x6 x7 x8 x9 x10 x11 x12 x13 x14 x15 x16 h0 h1 h2 h3 h4 h5 h6 h7 h8 h9 h10 h11 h12 h13 h14) bitsLt_bf16_f32) x17 x18 _
    (trunc_row p _ _ (fun k => WH_row x0 x1 x2 x3 x4 x5 x6 x7 x8 x9 x10 x11 x12 x13 x14 x15 x16 x17 x18 x19 x20 x21 x22 x23 x24 x25 x26 h0 h1 h2 h3 h4 h5 h6 h7 h8 h9 h10 h11 h12 h13 h14 p hh0 hh1 hh2 hh3 hh4 hh5 hh6 hh7 hh8 hh9 hh10 hh11 hh12 hh13 hh14 k)) j

theorem ST_row (g : Fin 512) : ST x0 x3 x19 x20 x21 (ix2 p g) = Cell.stopH (Cell.kerWeights x5 x6 x7 x8 x9 x10 x11 x12 x13 x14 x15 x16 x17 x18 x19 x20 x21 x22 x23 x24 x25 x26) (Cell.kerRow x0 x1 x2 x3 x4 p) g := by
  unfold ST Cell.stopH
  rw [relu_apply]
  exact congrArg Cell.relu (lin2_row p (X x0) x19 (CO x3) x20 x21 _ _ (X_row x0 p) (CO_row x3 p) g)

theorem SHID_row (g : Fin 512) : SHID x0 x3 x4 x19 x20 x21 x22 x23 x24 (ix2 p g) = Cell.sHid (Cell.kerWeights x5 x6 x7 x8 x9 x10 x11 x12 x13 x14 x15 x16 x17 x18 x19 x20 x21 x22 x23 x24 x25 x26) (Cell.kerRow x0 x1 x2 x3 x4 p) g := by
  unfold SHID Cell.sHid
  rw [relu_apply]
  exact congrArg Cell.relu (lin2c_row p (truncf .bf16 (ST x0 x3 x19 x20 x21) bitsLt_bf16_f32) x22 (CX x4) x23 x24 _ _
    (trunc_row p _ _ (fun k => ST_row x0 x1 x2 x3 x4 x5 x6 x7 x8 x9 x10 x11 x12 x13 x14 x15 x16 x17 x18 x19 x20 x21 x22 x23 x24 x25 x26 p k)) (CX_row x4 p) g)

/-- The stop score of row p of the block. -/
theorem STOP_row : STOP x0 x3 x4 x19 x20 x21 x22 x23 x24 x25 x26 (ix2 p (0 : Fin 1)) = Cell.stop (Cell.kerWeights x5 x6 x7 x8 x9 x10 x11 x12 x13 x14 x15 x16 x17 x18 x19 x20 x21 x22 x23 x24 x25 x26) (Cell.kerRow x0 x1 x2 x3 x4 p) := by
  unfold STOP Cell.stop
  exact stop_row p (SHID x0 x3 x4 x19 x20 x21 x22 x23 x24) x25 x26 _ (SHID_row x0 x1 x2 x3 x4 x5 x6 x7 x8 x9 x10 x11 x12 x13 x14 x15 x16 x17 x18 x19 x20 x21 x22 x23 x24 x25 x26 p)

end BodyRows

end Cert.KernelIdeal.Cellv

end
-- ==== Proof.Pay.lean ====
/-
  What the kernel body leaves in its [256, 1025] output block, entry by entry.

  The body makes two stores into the block: the [256, 1024] word scores at columns 0 … 1023 and the [256, 1] stop score at
  column 1024. Its loads read the 27 input blocks whole, except the neighbour block [15, 256, 512], which it reads one
  [1, 256, 512] slab at a time: slab k read at (0, p, j) is the block at (k, p, j). So the stored values are the composed
  terms WORD and STOP of KVocab.lean over the input blocks and the fifteen slabs, and entry (p, j) of the block is the
  specification's word score j of row p for j < 1024 and its stop score for j = 1024.
-/
import proofs.«164827_j35158602285573_2_alg».proof.Proof.PatchedFrameKernelIdeal
import proofs.«164827_j35158602285573_2_alg».proof.Proof.KVocab
import Idealize.ShloMosaic.Lib.Pipeline.Value
import Idealize.ShloMosaic.Lib.Tactic

set_option maxRecDepth 16384

noncomputable section

namespace Cert.KernelIdeal.Pay

open Cert.KernelIdeal Cert.KernelIdeal.Gen Cert.KernelIdeal.GenP Cert.KernelIdeal.Cellv
open Idealize.ShloMosaic Idealize.ShloMosaic.TcCoe Idealize.ShloMosaic.Tactic Idealize.ShloMosaic.ValueIdx Idealize.SL.Sem

theorem hz2 : (![0, 0] : Fin 2 → Nat) = fun _ => 0 := funext fun a => by fin_cases a <;> rfl

/-- Slab k of the neighbour block, read at (0, p, j), is the block at (k, p, j). -/
theorem slab_ld {Val : EltTy → Type} {e : EltTy} (X : S15x256x512.Idx → Val e) (k : Fin 15)
    (inb : ∀ a, (![k.val, 0, 0] : Fin 3 → Nat) a + S1x256x512.size a ≤ S15x256x512.size a) (p : Fin 256) (j : Fin 512) :
    View.ld X (Rect.unit (s := S15x256x512) ![k.val, 0, 0] S1x256x512.size inb) (ix3 (0 : Fin 1) p j) = X (ix3 k p j) := by
  show X ((Rect.unit (s := S15x256x512) ![k.val, 0, 0] S1x256x512.size inb).emb (ix3 (0 : Fin 1) p j)) = X (ix3 k p j)
  congr 1
  funext a
  apply Fin.ext
  match a with
  | ⟨0, _⟩ => show k.val + 1 * 0 = k.val; omega
  | ⟨1, _⟩ => show 0 + 1 * p.val = p.val; omega
  | ⟨2, _⟩ => show 0 + 1 * j.val = j.val; omega

/-- The run's two pieces: the stop score on column 1024, the word scores on columns 0 … 1023. -/
theorem pieces {F : FTy → Type} [FloatOps F] (c : Dev nD) (i : grid0.Coords) (arg1 : Memref sig .tc .vmem S256x512 .bf16) (harg1 : arg1.IsWhole) (arg2 : Memref sig .tc .vmem S15x256x512 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x128 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S128x512 .bf16) (harg16 : arg16.IsWhole) (arg17 : Memref sig .tc .vmem S1x512 .f32) (harg17 : arg17.IsWhole) (arg18 : Memref sig .tc .vmem S512x1024 .bf16) (harg18 : arg18.IsWhole) (arg19 : Memref sig .tc .vmem S1x1024 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S1x512 .f32) (harg22 : arg22.IsWhole) (arg23 : Memref sig .tc .vmem S512x512 .bf16) (harg23 : arg23.IsWhole) (arg24 : Memref sig .tc .vmem S128x512 .bf16) (harg24 : arg24.IsWhole) (arg25 : Memref sig .tc .vmem S1x512 .f32) (harg25 : arg25.IsWhole) (arg26 : Memref sig .tc .vmem S1x512 .f32) (harg26 : arg26.IsWhole) (arg27 : Memref sig .tc .vmem S1x1 .f32) (harg27 : arg27.IsWhole) (arg28 : Memref sig .tc .vmem S256x1025 .f32) (harg28 : arg28.IsWhole) (x0 : Vec F S256x512 .bf16) (x1 : Vec F S15x256x512 .bf16) (x2 : Vec F S256x512 .f32) (x3 : Vec F S256x512 .bf16) (x4 : Vec F S256x128 .bf16) (x5 : Vec F S512x512 .bf16) (x6 : Vec F S512x512 .bf16) (x7 : Vec F S1x512 .f32) (x8 : Vec F S512x512 .bf16) (x9 : Vec F S1x512 .f32) (x10 : Vec F S512x512 .bf16) (x11 : Vec F S512x512 .bf16) (x12 : Vec F S512x512 .bf16) (x13 : Vec F S1x512 .f32) (x14 : Vec F S512x512 .bf16) (x15 : Vec F S128x512 .bf16) (x16 : Vec F S1x512 .f32) (x17 : Vec F S512x1024 .bf16) (x18 : Vec F S1x1024 .f32) (x19 : Vec F S512x512 .bf16) (x20 : Vec F S512x512 .bf16) (x21 : Vec F S1x512 .f32) (x22 : Vec F S512x512 .bf16) (x23 : Vec F S128x512 .bf16) (x24 : Vec F S1x512 .f32) (x25 : Vec F S1x512 .f32) (x26 : Vec F S1x1 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26).1
      = [⟨Rect.unit ![0, 1024] S256x1.size inb_S256x1025_S256x1_0_1024,
            STOP x0 x3 x4 x19 x20 x21 x22 x23 x24 x25 x26⟩,
         ⟨Rect.unit ![0, 0] S256x1024.size inb_S256x1025_S256x1024_0_0,
            WORD x0 x2 x4 x5 x6 x7 x8 x9 x10 x11 x12 x13 x14 x15 x16 x17 x18
              (View.ld x1 (Rect.unit (s := S15x256x512) ![0, 0, 0] S1x256x512.size inb_S15x256x512_S1x256x512_0_0_0))
              (View.ld x1 (Rect.unit (s := S15x256x512) ![1, 0, 0] S1x256x512.size inb_S15x256x512_S1x256x512_1_0_0))
              (View.ld x1 (Rect.unit (s := S15x256x512) ![2, 0, 0] S1x256x512.size inb_S15x256x512_S1x256x512_2_0_0))
              (View.ld x1 (Rect.unit (s := S15x256x512) ![3, 0, 0] S1x256x512.size inb_S15x256x512_S1x256x512_3_0_0))
              (View.ld x1 (Rect.unit (s := S15x256x512) ![4, 0, 0] S1x256x512.size inb_S15x256x512_S1x256x512_4_0_0))
              (View.ld x1 (Rect.unit (s := S15x256x512) ![5, 0, 0] S1x256x512.size inb_S15x256x512_S1x256x512_5_0_0))
              (View.ld x1 (Rect.unit (s := S15x256x512) ![6, 0, 0] S1x256x512.size inb_S15x256x512_S1x256x512_6_0_0))
              (View.ld x1 (Rect.unit (s := S15x256x512) ![7, 0, 0] S1x256x512.size inb_S15x256x512_S1x256x512_7_0_0))
              (View.ld x1 (Rect.unit (s := S15x256x512) ![8, 0, 0] S1x256x512.size inb_S15x256x512_S1x256x512_8_0_0))
              (View.ld x1 (Rect.unit (s := S15x256x512) ![9, 0, 0] S1x256x512.size inb_S15x256x512_S1x256x512_9_0_0))
              (View.ld x1 (Rect.unit (s := S15x256x512) ![10, 0, 0] S1x256x512.size inb_S15x256x512_S1x256x512_10_0_0))
              (View.ld x1 (Rect.unit (s := S15x256x512) ![11, 0, 0] S1x256x512.size inb_S15x256x512_S1x256x512_11_0_0))
              (View.ld x1 (Rect.unit (s := S15x256x512) ![12, 0, 0] S1x256x512.size inb_S15x256x512_S1x256x512_12_0_0))
              (View.ld x1 (Rect.unit (s := S15x256x512) ![13, 0, 0] S1x256x512.size inb_S15x256x512_S1x256x512_13_0_0))
              (View.ld x1 (Rect.unit (s := S15x256x512) ![14, 0, 0] S1x256x512.size inb_S15x256x512_S1x256x512_14_0_0))⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread,
    View.ld_unit_zero (S := S256x512) hz2, View.ld_unit_zero (S := S256x128) hz2, View.ld_unit_zero (S := S512x512) hz2,
    View.ld_unit_zero (S := S1x512) hz2, View.ld_unit_zero (S := S128x512) hz2, View.ld_unit_zero (S := S512x1024) hz2,
    View.ld_unit_zero (S := S1x1024) hz2, View.ld_unit_zero (S := S1x1) hz2]
  rfl

/-- The block as one function of its index, given the two stored values: the word value in columns 0 … 1023, the stop value
    in column 1024. -/
def G2 (vS : FVec Ideal S256x1 .f32) (vW : FVec Ideal S256x1024 .f32) : S256x1025.Idx → Elt Ideal .f32 := fun y =>
  if h : (y 1).val < 1024 then vW (ix2 (⟨(y 0).val, (y 0).isLt⟩ : Fin 256) (⟨(y 1).val, h⟩ : Fin 1024))
  else vS (ix2 (⟨(y 0).val, (y 0).isLt⟩ : Fin 256) (0 : Fin 1))

/-- Each of the two stores holds the restriction of that one function to its rectangle. -/
theorem pieces_restrict (vS : FVec Ideal S256x1 .f32) (vW : FVec Ideal S256x1024 .f32) :
    ∀ q ∈ [(⟨(Rect.unit (s := S256x1025) ![0, 1024] S256x1.size inb_S256x1025_S256x1_0_1024), vS⟩ : View.Piece (Elt Ideal) S256x1025 .f32), ⟨(Rect.unit (s := S256x1025) ![0, 0] S256x1024.size inb_S256x1025_S256x1024_0_0), vW⟩],
      ∀ x : q.1.shape.Idx, q.2 x = G2 vS vW (q.1.emb x) := by
  intro q hq
  rcases List.mem_cons.mp hq with rfl | hq
  · intro x
    have h1 : (x 1).val < 1 := (x 1).isLt
    have hn : ¬ (((Rect.unit (s := S256x1025) ![0, 1024] S256x1.size inb_S256x1025_S256x1_0_1024).emb x) 1).val < 1024 := by
      show ¬ (1024 + 1 * (x 1).val < 1024); omega
    show vS x = G2 vS vW ((Rect.unit (s := S256x1025) ![0, 1024] S256x1.size inb_S256x1025_S256x1_0_1024).emb x)
    unfold G2
    rw [dif_neg hn]
    congr 1
    funext a
    apply Fin.ext
    match a with
    | ⟨0, _⟩ => show (x 0).val = 0 + 1 * (x 0).val; omega
    | ⟨1, _⟩ => show (x 1).val = 0; omega
  · rcases List.mem_singleton.mp hq with rfl
    intro x
    have h1 : (x 1).val < 1024 := (x 1).isLt
    have hp : (((Rect.unit (s := S256x1025) ![0, 0] S256x1024.size inb_S256x1025_S256x1024_0_0).emb x) 1).val < 1024 := by
      show 0 + 1 * (x 1).val < 1024; omega
    show vW x = G2 vS vW ((Rect.unit (s := S256x1025) ![0, 0] S256x1024.size inb_S256x1025_S256x1024_0_0).emb x)
    unfold G2
    rw [dif_pos hp]
    congr 1
    funext a
    apply Fin.ext
    match a with
    | ⟨0, _⟩ => show (x 0).val = 0 + 1 * (x 0).val; omega
    | ⟨1, _⟩ => show (x 1).val = 0 + 1 * (x 1).val; omega

/-- An entry of the block in a word column is that word score of its row. -/
theorem out_word (c : Dev nD) (i : grid0.Coords) (arg1 : Memref sig .tc .vmem S256x512 .bf16) (harg1 : arg1.IsWhole) (arg2 : Memref sig .tc .vmem S15x256x512 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x128 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S128x512 .bf16) (harg16 : arg16.IsWhole) (arg17 : Memref sig .tc .vmem S1x512 .f32) (harg17 : arg17.IsWhole) (arg18 : Memref sig .tc .vmem S512x1024 .bf16) (harg18 : arg18.IsWhole) (arg19 : Memref sig .tc .vmem S1x1024 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S1x512 .f32) (harg22 : arg22.IsWhole) (arg23 : Memref sig .tc .vmem S512x512 .bf16) (harg23 : arg23.IsWhole) (arg24 : Memref sig .tc .vmem S128x512 .bf16) (harg24 : arg24.IsWhole) (arg25 : Memref sig .tc .vmem S1x512 .f32) (harg25 : arg25.IsWhole) (arg26 : Memref sig .tc .vmem S1x512 .f32) (harg26 : arg26.IsWhole) (arg27 : Memref sig .tc .vmem S1x1 .f32) (harg27 : arg27.IsWhole) (arg28 : Memref sig .tc .vmem S256x1025 .f32) (harg28 : arg28.IsWhole) (x0 : Vec Ideal S256x512 .bf16) (x1 : Vec Ideal S15x256x512 .bf16) (x2 : Vec Ideal S256x512 .f32) (x3 : Vec Ideal S256x512 .bf16) (x4 : Vec Ideal S256x128 .bf16) (x5 : Vec Ideal S512x512 .bf16) (x6 : Vec Ideal S512x512 .bf16) (x7 : Vec Ideal S1x512 .f32) (x8 : Vec Ideal S512x512 .bf16) (x9 : Vec Ideal S1x512 .f32) (x10 : Vec Ideal S512x512 .bf16) (x11 : Vec Ideal S512x512 .bf16) (x12 : Vec Ideal S512x512 .bf16) (x13 : Vec Ideal S1x512 .f32) (x14 : Vec Ideal S512x512 .bf16) (x15 : Vec Ideal S128x512 .bf16) (x16 : Vec Ideal S1x512 .f32) (x17 : Vec Ideal S512x1024 .bf16) (x18 : Vec Ideal S1x1024 .f32) (x19 : Vec Ideal S512x512 .bf16) (x20 : Vec Ideal S512x512 .bf16) (x21 : Vec Ideal S1x512 .f32) (x22 : Vec Ideal S512x512 .bf16) (x23 : Vec Ideal S128x512 .bf16) (x24 : Vec Ideal S1x512 .f32) (x25 : Vec Ideal S1x512 .f32) (x26 : Vec Ideal S1x1 .f32) (p : Fin 256) (j : Fin 1025) (hj : j.val < 1024) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p j)
      = Cell.word (Cell.kerWeights x5 x6 x7 x8 x9 x10 x11 x12 x13 x14 x15 x16 x17 x18 x19 x20 x21 x22 x23 x24 x25 x26) (Cell.kerRow x0 x1 x2 x3 x4 p) ⟨j.val, hj⟩ := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26)]
  refine (View.canon_apply_of_pieces (G2 (STOP x0 x3 x4 x19 x20 x21 x22 x23 x24 x25 x26)
    (WORD x0 x2 x4 x5 x6 x7 x8 x9 x10 x11 x12 x13 x14 x15 x16 x17 x18
      (View.ld x1 (Rect.unit (s := S15x256x512) ![0, 0, 0] S1x256x512.size inb_S15x256x512_S1x256x512_0_0_0))
      (View.ld x1 (Rect.unit (s := S15x256x512) ![1, 0, 0] S1x256x512.size inb_S15x256x512_S1x256x512_1_0_0))
      (View.ld x1 (Rect.unit (s := S15x256x512) ![2, 0, 0] S1x256x512.size inb_S15x256x512_S1x256x512_2_0_0))
      (View.ld x1 (Rect.unit (s := S15x256x512) ![3, 0, 0] S1x256x512.size inb_S15x256x512_S1x256x512_3_0_0))
      (View.ld x1 (Rect.unit (s := S15x256x512) ![4, 0, 0] S1x256x512.size inb_S15x256x512_S1x256x512_4_0_0))
      (View.ld x1 (Rect.unit (s := S15x256x512) ![5, 0, 0] S1x256x512.size inb_S15x256x512_S1x256x512_5_0_0))
      (View.ld x1 (Rect.unit (s := S15x256x512) ![6, 0, 0] S1x256x512.size inb_S15x256x512_S1x256x512_6_0_0))
      (View.ld x1 (Rect.unit (s := S15x256x512) ![7, 0, 0] S1x256x512.size inb_S15x256x512_S1x256x512_7_0_0))
      (View.ld x1 (Rect.unit (s := S15x256x512) ![8, 0, 0] S1x256x512.size inb_S15x256x512_S1x256x512_8_0_0))
      (View.ld x1 (Rect.unit (s := S15x256x512) ![9, 0, 0] S1x256x512.size inb_S15x256x512_S1x256x512_9_0_0))
      (View.ld x1 (Rect.unit (s := S15x256x512) ![10, 0, 0] S1x256x512.size inb_S15x256x512_S1x256x512_10_0_0))
      (View.ld x1 (Rect.unit (s := S15x256x512) ![11, 0, 0] S1x256x512.size inb_S15x256x512_S1x256x512_11_0_0))
      (View.ld x1 (Rect.unit (s := S15x256x512) ![12, 0, 0] S1x256x512.size inb_S15x256x512_S1x256x512_12_0_0))
      (View.ld x1 (Rect.unit (s := S15x256x512) ![13, 0, 0] S1x256x512.size inb_S15x256x512_S1x256x512_13_0_0))
      (View.ld x1 (Rect.unit (s := S15x256x512) ![14, 0, 0] S1x256x512.size inb_S15x256x512_S1x256x512_14_0_0)))) _ ?_ (ix2 p j) (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p j))).trans ?_
  · rw [pieces]
    exact pieces_restrict _ _
  · show (if h : j.val < 1024 then _ else _) = _
    rw [dif_pos hj]
    exact WORD_row x0 x1 x2 x3 x4 x5 x6 x7 x8 x9 x10 x11 x12 x13 x14 x15 x16 x17 x18 x19 x20 x21 x22 x23 x24 x25 x26
      (View.ld x1 (Rect.unit (s := S15x256x512) ![0, 0, 0] S1x256x512.size inb_S15x256x512_S1x256x512_0_0_0))
      (View.ld x1 (Rect.unit (s := S15x256x512) ![1, 0, 0] S1x256x512.size inb_S15x256x512_S1x256x512_1_0_0))
      (View.ld x1 (Rect.unit (s := S15x256x512) ![2, 0, 0] S1x256x512.size inb_S15x256x512_S1x256x512_2_0_0))
      (View.ld x1 (Rect.unit (s := S15x256x512) ![3, 0, 0] S1x256x512.size inb_S15x256x512_S1x256x512_3_0_0))
      (View.ld x1 (Rect.unit (s := S15x256x512) ![4, 0, 0] S1x256x512.size inb_S15x256x512_S1x256x512_4_0_0))
      (View.ld x1 (Rect.unit (s := S15x256x512) ![5, 0, 0] S1x256x512.size inb_S15x256x512_S1x256x512_5_0_0))
      (View.ld x1 (Rect.unit (s := S15x256x512) ![6, 0, 0] S1x256x512.size inb_S15x256x512_S1x256x512_6_0_0))
      (View.ld x1 (Rect.unit (s := S15x256x512) ![7, 0, 0] S1x256x512.size inb_S15x256x512_S1x256x512_7_0_0))
      (View.ld x1 (Rect.unit (s := S15x256x512) ![8, 0, 0] S1x256x512.size inb_S15x256x512_S1x256x512_8_0_0))
      (View.ld x1 (Rect.unit (s := S15x256x512) ![9, 0, 0] S1x256x512.size inb_S15x256x512_S1x256x512_9_0_0))
      (View.ld x1 (Rect.unit (s := S15x256x512) ![10, 0, 0] S1x256x512.size inb_S15x256x512_S1x256x512_10_0_0))
      (View.ld x1 (Rect.unit (s := S15x256x512) ![11, 0, 0] S1x256x512.size inb_S15x256x512_S1x256x512_11_0_0))
      (View.ld x1 (Rect.unit (s := S15x256x512) ![12, 0, 0] S1x256x512.size inb_S15x256x512_S1x256x512_12_0_0))
      (View.ld x1 (Rect.unit (s := S15x256x512) ![13, 0, 0] S1x256x512.size inb_S15x256x512_S1x256x512_13_0_0))
      (View.ld x1 (Rect.unit (s := S15x256x512) ![14, 0, 0] S1x256x512.size inb_S15x256x512_S1x256x512_14_0_0)) p
      (slab_ld x1 (0 : Fin 15) inb_S15x256x512_S1x256x512_0_0_0 p)
      (slab_ld x1 (1 : Fin 15) inb_S15x256x512_S1x256x512_1_0_0 p)
      (slab_ld x1 (2 : Fin 15) inb_S15x256x512_S1x256x512_2_0_0 p)
      (slab_ld x1 (3 : Fin 15) inb_S15x256x512_S1x256x512_3_0_0 p)
      (slab_ld x1 (4 : Fin 15) inb_S15x256x512_S1x256x512_4_0_0 p)
      (slab_ld x1 (5 : Fin 15) inb_S15x256x512_S1x256x512_5_0_0 p)
      (slab_ld x1 (6 : Fin 15) inb_S15x256x512_S1x256x512_6_0_0 p)
      (slab_ld x1 (7 : Fin 15) inb_S15x256x512_S1x256x512_7_0_0 p)
      (slab_ld x1 (8 : Fin 15) inb_S15x256x512_S1x256x512_8_0_0 p)
      (slab_ld x1 (9 : Fin 15) inb_S15x256x512_S1x256x512_9_0_0 p)
      (slab_ld x1 (10 : Fin 15) inb_S15x256x512_S1x256x512_10_0_0 p)
      (slab_ld x1 (11 : Fin 15) inb_S15x256x512_S1x256x512_11_0_0 p)
      (slab_ld x1 (12 : Fin 15) inb_S15x256x512_S1x256x512_12_0_0 p)
      (slab_ld x1 (13 : Fin 15) inb_S15x256x512_S1x256x512_13_0_0 p)
      (slab_ld x1 (14 : Fin 15) inb_S15x256x512_S1x256x512_14_0_0 p) ⟨j.val, hj⟩

/-- An entry of the block in the last column is the stop score of its row. -/
theorem out_stop (c : Dev nD) (i : grid0.Coords) (arg1 : Memref sig .tc .vmem S256x512 .bf16) (harg1 : arg1.IsWhole) (arg2 : Memref sig .tc .vmem S15x256x512 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x128 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x512 .bf16) (harg15 : arg15.IsWhole) (arg16 : Memref sig .tc .vmem S128x512 .bf16) (harg16 : arg16.IsWhole) (arg17 : Memref sig .tc .vmem S1x512 .f32) (harg17 : arg17.IsWhole) (arg18 : Memref sig .tc .vmem S512x1024 .bf16) (harg18 : arg18.IsWhole) (arg19 : Memref sig .tc .vmem S1x1024 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S1x512 .f32) (harg22 : arg22.IsWhole) (arg23 : Memref sig .tc .vmem S512x512 .bf16) (harg23 : arg23.IsWhole) (arg24 : Memref sig .tc .vmem S128x512 .bf16) (harg24 : arg24.IsWhole) (arg25 : Memref sig .tc .vmem S1x512 .f32) (harg25 : arg25.IsWhole) (arg26 : Memref sig .tc .vmem S1x512 .f32) (harg26 : arg26.IsWhole) (arg27 : Memref sig .tc .vmem S1x1 .f32) (harg27 : arg27.IsWhole) (arg28 : Memref sig .tc .vmem S256x1025 .f32) (harg28 : arg28.IsWhole) (x0 : Vec Ideal S256x512 .bf16) (x1 : Vec Ideal S15x256x512 .bf16) (x2 : Vec Ideal S256x512 .f32) (x3 : Vec Ideal S256x512 .bf16) (x4 : Vec Ideal S256x128 .bf16) (x5 : Vec Ideal S512x512 .bf16) (x6 : Vec Ideal S512x512 .bf16) (x7 : Vec Ideal S1x512 .f32) (x8 : Vec Ideal S512x512 .bf16) (x9 : Vec Ideal S1x512 .f32) (x10 : Vec Ideal S512x512 .bf16) (x11 : Vec Ideal S512x512 .bf16) (x12 : Vec Ideal S512x512 .bf16) (x13 : Vec Ideal S1x512 .f32) (x14 : Vec Ideal S512x512 .bf16) (x15 : Vec Ideal S128x512 .bf16) (x16 : Vec Ideal S1x512 .f32) (x17 : Vec Ideal S512x1024 .bf16) (x18 : Vec Ideal S1x1024 .f32) (x19 : Vec Ideal S512x512 .bf16) (x20 : Vec Ideal S512x512 .bf16) (x21 : Vec Ideal S1x512 .f32) (x22 : Vec Ideal S512x512 .bf16) (x23 : Vec Ideal S128x512 .bf16) (x24 : Vec Ideal S1x512 .f32) (x25 : Vec Ideal S1x512 .f32) (x26 : Vec Ideal S1x1 .f32) (p : Fin 256) (j : Fin 1025) (hj : j.val = 1024) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p j)
      = Cell.stop (Cell.kerWeights x5 x6 x7 x8 x9 x10 x11 x12 x13 x14 x15 x16 x17 x18 x19 x20 x21 x22 x23 x24 x25 x26) (Cell.kerRow x0 x1 x2 x3 x4 p) := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26)]
  refine (View.canon_apply_of_pieces (G2 (STOP x0 x3 x4 x19 x20 x21 x22 x23 x24 x25 x26)
    (WORD x0 x2 x4 x5 x6 x7 x8 x9 x10 x11 x12 x13 x14 x15 x16 x17 x18
      (View.ld x1 (Rect.unit (s := S15x256x512) ![0, 0, 0] S1x256x512.size inb_S15x256x512_S1x256x512_0_0_0))
      (View.ld x1 (Rect.unit (s := S15x256x512) ![1, 0, 0] S1x256x512.size inb_S15x256x512_S1x256x512_1_0_0))
      (View.ld x1 (Rect.unit (s := S15x256x512) ![2, 0, 0] S1x256x512.size inb_S15x256x512_S1x256x512_2_0_0))
      (View.ld x1 (Rect.unit (s := S15x256x512) ![3, 0, 0] S1x256x512.size inb_S15x256x512_S1x256x512_3_0_0))
      (View.ld x1 (Rect.unit (s := S15x256x512) ![4, 0, 0] S1x256x512.size inb_S15x256x512_S1x256x512_4_0_0))
      (View.ld x1 (Rect.unit (s := S15x256x512) ![5, 0, 0] S1x256x512.size inb_S15x256x512_S1x256x512_5_0_0))
      (View.ld x1 (Rect.unit (s := S15x256x512) ![6, 0, 0] S1x256x512.size inb_S15x256x512_S1x256x512_6_0_0))
      (View.ld x1 (Rect.unit (s := S15x256x512) ![7, 0, 0] S1x256x512.size inb_S15x256x512_S1x256x512_7_0_0))
      (View.ld x1 (Rect.unit (s := S15x256x512) ![8, 0, 0] S1x256x512.size inb_S15x256x512_S1x256x512_8_0_0))
      (View.ld x1 (Rect.unit (s := S15x256x512) ![9, 0, 0] S1x256x512.size inb_S15x256x512_S1x256x512_9_0_0))
      (View.ld x1 (Rect.unit (s := S15x256x512) ![10, 0, 0] S1x256x512.size inb_S15x256x512_S1x256x512_10_0_0))
      (View.ld x1 (Rect.unit (s := S15x256x512) ![11, 0, 0] S1x256x512.size inb_S15x256x512_S1x256x512_11_0_0))
      (View.ld x1 (Rect.unit (s := S15x256x512) ![12, 0, 0] S1x256x512.size inb_S15x256x512_S1x256x512_12_0_0))
      (View.ld x1 (Rect.unit (s := S15x256x512) ![13, 0, 0] S1x256x512.size inb_S15x256x512_S1x256x512_13_0_0))
      (View.ld x1 (Rect.unit (s := S15x256x512) ![14, 0, 0] S1x256x512.size inb_S15x256x512_S1x256x512_14_0_0)))) _ ?_ (ix2 p j) (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p j))).trans ?_
  · rw [pieces]
    exact pieces_restrict _ _
  · show (if h : j.val < 1024 then _ else _) = _
    rw [dif_neg (by omega : ¬ j.val < 1024)]
    exact STOP_row x0 x1 x2 x3 x4 x5 x6 x7 x8 x9 x10 x11 x12 x13 x14 x15 x16 x17 x18 x19 x20 x21 x22 x23 x24 x25 x26 p

end Cert.KernelIdeal.Pay

end
-- ==== Proof.LeafWeightsA.lean ====
/-
  The kernel's weight and bias blocks are the reference's weight arguments, entry by entry: windows 5 … 11 (part 1 of 3).

  Before the kernel runs, the host prepares each weight operand from one of the reference's seventeen weight arguments:
    • a matrix W of a layer y = W·u, stored [out, in], is transposed to [in, out]; where the layer's input is a
      concatenation [u, v], the columns of u (0 … 511) and of v (512 …) are cut out first, each transposed on its own;
      the result is cast to bf16, which over the extended reals keeps every entry;
    • a bias vector of length n is reshaped to the one-row matrix [1, n];
    • the stop head's output row vector is passed as it is.
  Each of these operands is staged whole: its window's one block is the whole array, the block index being (0, 0) at all
  64 grid points, so block entry (a, b) is array entry (0·rows + a, 0·cols + b) = (a, b).
  Hence, for each window w, three facts and their composition:
    idx w  — the block index is (0, 0) at every grid point;
    arr w  — the staged array is the host's term over the reference's argument;
    rd w   — a block entry is the same entry of the staged array;
    blk w  — a block entry is the entry of the reference's argument that the reference's layer reads there:
             (k, g) ↦ W[g, k] or W[g, 512 + k] for a matrix, (0, g) ↦ b[g] for a bias.
-/
import proofs.«164827_j35158602285573_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.LeafWeights

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ### Window 5: rows of columns 0 … 511 of the reference's [512, 1024] matrix, transposed -/

/-- Window 5's block index is (0, 0) at every grid point: its one block is the whole array. -/
theorem idx5 : ∀ t : Fin cfg0.N, win0_5.index t (0 : Fin 2) = 0 ∧ win0_5.index t (1 : Fin 2) = 0 :=
  (by decide +kernel : ∀ t : Fin grid0.N, _)

/-- The array window 5 stages: the slice at column 0, transposed, its entries kept (the cast to bf16 is the identity on the extended reals). -/
theorem arr5 : @Eq (S512x512.Idx → EReal) (V m c main_v50)
    (truncf (F := Ideal) .bf16 (transpose S512x512 [1, 0] (extractStridedSlice S512x512 ![0, 0] (m ((c : Thread nD τ).loc main_arg9)) slices_S512x1024_S512x512_0_0) transposes_S512x512_S512x512_1_0) bitsLt_bf16_f32) := by
  dsimp only [Gen.V, Gen.hostOps0]; after_results

/-- The block is the whole array: entry (a, b) of the block is entry (0·512 + a, 0·512 + b) of the array. -/
theorem rd5 (t : Fin cfg0.N) (a : Fin 512) (b : Fin 512) :
    (iblk m c 5 t : Vec Ideal S512x512 .bf16) (ix2 a b) = (V m c main_v50 : S512x512.Idx → EReal) (ix2 a b) := by
  unfold iblk; rw [View.read_apply]
  show V m c main_v50 _ = V m c main_v50 (ix2 a b)
  congr 1; funext d; apply Fin.ext
  match d with
  | ⟨0, _⟩ => show win0_5.index t 0 * 512 + 1 * a.val = a.val; rw [(idx5 t).1]; omega
  | ⟨1, _⟩ => show win0_5.index t 1 * 512 + 1 * b.val = b.val; rw [(idx5 t).2]; omega

/-- Entry (k, g) of the block is entry (g, k) of the reference's matrix. -/
theorem blk5 (t : Fin cfg0.N) (k : Fin 512) (g : Fin 512) :
    (iblk m c 5 t : Vec Ideal S512x512 .bf16) (ix2 k g)
      = m ((c : Thread nD τ).loc main_arg9) (ix2 g ⟨k.val, by have := k.isLt; omega⟩) := by
  refine (rd5 m c t k g).trans ?_
  rw [arr5 m c, truncf_apply, transpose_ix2_apply]
  exact slice2_axis1_apply 0 _ _ g k _ (by simp)

/-! ### Window 6: rows of columns 512 … 1023 of the reference's [512, 1024] matrix, transposed -/

/-- Window 6's block index is (0, 0) at every grid point: its one block is the whole array. -/
theorem idx6 : ∀ t : Fin cfg0.N, win0_6.index t (0 : Fin 2) = 0 ∧ win0_6.index t (1 : Fin 2) = 0 :=
  (by decide +kernel : ∀ t : Fin grid0.N, _)

/-- The array window 6 stages: the slice at column 512, transposed, its entries kept (the cast to bf16 is the identity on the extended reals). -/
theorem arr6 : @Eq (S512x512.Idx → EReal) (V m c main_v53)
    (truncf (F := Ideal) .bf16 (transpose S512x512 [1, 0] (extractStridedSlice S512x512 ![0, 512] (m ((c : Thread nD τ).loc main_arg9)) slices_S512x1024_S512x512_0_512) transposes_S512x512_S512x512_1_0) bitsLt_bf16_f32) := by
  dsimp only [Gen.V, Gen.hostOps0]; after_results

/-- The block is the whole array: entry (a, b) of the block is entry (0·512 + a, 0·512 + b) of the array. -/
theorem rd6 (t : Fin cfg0.N) (a : Fin 512) (b : Fin 512) :
    (iblk m c 6 t : Vec Ideal S512x512 .bf16) (ix2 a b) = (V m c main_v53 : S512x512.Idx → EReal) (ix2 a b) := by
  unfold iblk; rw [View.read_apply]
  show V m c main_v53 _ = V m c main_v53 (ix2 a b)
  congr 1; funext d; apply Fin.ext
  match d with
  | ⟨0, _⟩ => show win0_6.index t 0 * 512 + 1 * a.val = a.val; rw [(idx6 t).1]; omega
  | ⟨1, _⟩ => show win0_6.index t 1 * 512 + 1 * b.val = b.val; rw [(idx6 t).2]; omega

/-- Entry (k, g) of the block is entry (g, 512 + k) of the reference's matrix. -/
theorem blk6 (t : Fin cfg0.N) (k : Fin 512) (g : Fin 512) :
    (iblk m c 6 t : Vec Ideal S512x512 .bf16) (ix2 k g)
      = m ((c : Thread nD τ).loc main_arg9) (ix2 g ⟨512 + k.val, by have := k.isLt; omega⟩) := by
  refine (rd6 m c t k g).trans ?_
  rw [arr6 m c, truncf_apply, transpose_ix2_apply]
  exact slice2_axis1_apply 512 _ _ g k _ rfl

/-! ### Window 7: the reference's bias vector, as one row -/

/-- Window 7's block index is (0, 0) at every grid point: its one block is the whole array. -/
theorem idx7 : ∀ t : Fin cfg0.N, win0_7.index t (0 : Fin 2) = 0 ∧ win0_7.index t (1 : Fin 2) = 0 :=
  (by decide +kernel : ∀ t : Fin grid0.N, _)

/-- The array window 7 stages: the vector reshaped to one row. -/
theorem arr7 : @Eq (S1x512.Idx → EReal) (V m c main_v84)
    (shapeCast S1x512 (m ((c : Thread nD τ).loc main_arg10)) shapeCasts_S512_S1x512) := by
  dsimp only [Gen.V, Gen.hostOps0]; after_results; rfl

/-- The block is the whole array: entry (a, b) of the block is entry (0·1 + a, 0·512 + b) of the array. -/
theorem rd7 (t : Fin cfg0.N) (a : Fin 1) (b : Fin 512) :
    (iblk m c 7 t : Vec Ideal S1x512 .f32) (ix2 a b) = (V m c main_v84 : S1x512.Idx → EReal) (ix2 a b) := by
  unfold iblk; rw [View.read_apply]
  show V m c main_v84 _ = V m c main_v84 (ix2 a b)
  congr 1; funext d; apply Fin.ext
  match d with
  | ⟨0, _⟩ => show win0_7.index t 0 * 1 + 1 * a.val = a.val; rw [(idx7 t).1]; omega
  | ⟨1, _⟩ => show win0_7.index t 1 * 512 + 1 * b.val = b.val; rw [(idx7 t).2]; omega

/-- Entry (0, g) of the block is entry g of the reference's vector. -/
theorem blk7 (t : Fin cfg0.N) (g : Fin 512) :
    (iblk m c 7 t : Vec Ideal S1x512 .f32) (ix2 (0 : Fin 1) g)
      = m ((c : Thread nD τ).loc main_arg10) (ix1 g) := by
  refine (rd7 m c t 0 g).trans ?_
  rw [arr7 m c]
  exact shapeCast_a_1a_apply _ _ 0 g

/-! ### Window 8: the reference's [512, 512] matrix, transposed -/

/-- Window 8's block index is (0, 0) at every grid point: its one block is the whole array. -/
theorem idx8 : ∀ t : Fin cfg0.N, win0_8.index t (0 : Fin 2) = 0 ∧ win0_8.index t (1 : Fin 2) = 0 :=
  (by decide +kernel : ∀ t : Fin grid0.N, _)

/-- The array window 8 stages: the matrix transposed, its entries kept (the cast to bf16 is the identity on the extended reals). -/
theorem arr8 : @Eq (S512x512.Idx → EReal) (V m c main_v55)
    (truncf (F := Ideal) .bf16 (transpose S512x512 [1, 0] (m ((c : Thread nD τ).loc main_arg11)) transposes_S512x512_S512x512_1_0) bitsLt_bf16_f32) := by
  dsimp only [Gen.V, Gen.hostOps0]; after_results

/-- The block is the whole array: entry (a, b) of the block is entry (0·512 + a, 0·512 + b) of the array. -/
theorem rd8 (t : Fin cfg0.N) (a : Fin 512) (b : Fin 512) :
    (iblk m c 8 t : Vec Ideal S512x512 .bf16) (ix2 a b) = (V m c main_v55 : S512x512.Idx → EReal) (ix2 a b) := by
  unfold iblk; rw [View.read_apply]
  show V m c main_v55 _ = V m c main_v55 (ix2 a b)
  congr 1; funext d; apply Fin.ext
  match d with
  | ⟨0, _⟩ => show win0_8.index t 0 * 512 + 1 * a.val = a.val; rw [(idx8 t).1]; omega
  | ⟨1, _⟩ => show win0_8.index t 1 * 512 + 1 * b.val = b.val; rw [(idx8 t).2]; omega

/-- Entry (k, g) of the block is entry (g, k) of the reference's matrix. -/
theorem blk8 (t : Fin cfg0.N) (k : Fin 512) (g : Fin 512) :
    (iblk m c 8 t : Vec Ideal S512x512 .bf16) (ix2 k g)
      = m ((c : Thread nD τ).loc main_arg11) (ix2 g k) := by
  refine (rd8 m c t k g).trans ?_
  rw [arr8 m c, truncf_apply]
  exact transpose_ix2_apply _ _ k g

/-! ### Window 9: the reference's bias vector, as one row -/

/-- Window 9's block index is (0, 0) at every grid point: its one block is the whole array. -/
theorem idx9 : ∀ t : Fin cfg0.N, win0_9.index t (0 : Fin 2) = 0 ∧ win0_9.index t (1 : Fin 2) = 0 :=
  (by decide +kernel : ∀ t : Fin grid0.N, _)

/-- The array window 9 stages: the vector reshaped to one row. -/
theorem arr9 : @Eq (S1x512.Idx → EReal) (V m c main_v85)
    (shapeCast S1x512 (m ((c : Thread nD τ).loc main_arg12)) shapeCasts_S512_S1x512) := by
  dsimp only [Gen.V, Gen.hostOps0]; after_results; rfl

/-- The block is the whole array: entry (a, b) of the block is entry (0·1 + a, 0·512 + b) of the array. -/
theorem rd9 (t : Fin cfg0.N) (a : Fin 1) (b : Fin 512) :
    (iblk m c 9 t : Vec Ideal S1x512 .f32) (ix2 a b) = (V m c main_v85 : S1x512.Idx → EReal) (ix2 a b) := by
  unfold iblk; rw [View.read_apply]
  show V m c main_v85 _ = V m c main_v85 (ix2 a b)
  congr 1; funext d; apply Fin.ext
  match d with
  | ⟨0, _⟩ => show win0_9.index t 0 * 1 + 1 * a.val = a.val; rw [(idx9 t).1]; omega
  | ⟨1, _⟩ => show win0_9.index t 1 * 512 + 1 * b.val = b.val; rw [(idx9 t).2]; omega

/-- Entry (0, g) of the block is entry g of the reference's vector. -/
theorem blk9 (t : Fin cfg0.N) (g : Fin 512) :
    (iblk m c 9 t : Vec Ideal S1x512 .f32) (ix2 (0 : Fin 1) g)
      = m ((c : Thread nD τ).loc main_arg12) (ix1 g) := by
  refine (rd9 m c t 0 g).trans ?_
  rw [arr9 m c]
  exact shapeCast_a_1a_apply _ _ 0 g

/-! ### Window 10: the reference's [512, 512] matrix, transposed -/

/-- Window 10's block index is (0, 0) at every grid point: its one block is the whole array. -/
theorem idx10 : ∀ t : Fin cfg0.N, win0_10.index t (0 : Fin 2) = 0 ∧ win0_10.index t (1 : Fin 2) = 0 :=
  (by decide +kernel : ∀ t : Fin grid0.N, _)

/-- The array window 10 stages: the matrix transposed, its entries kept (the cast to bf16 is the identity on the extended reals). -/
theorem arr10 : @Eq (S512x512.Idx → EReal) (V m c main_v57)
    (truncf (F := Ideal) .bf16 (transpose S512x512 [1, 0] (m ((c : Thread nD τ).loc main_arg13)) transposes_S512x512_S512x512_1_0) bitsLt_bf16_f32) := by
  dsimp only [Gen.V, Gen.hostOps0]; after_results

/-- The block is the whole array: entry (a, b) of the block is entry (0·512 + a, 0·512 + b) of the array. -/
theorem rd10 (t : Fin cfg0.N) (a : Fin 512) (b : Fin 512) :
    (iblk m c 10 t : Vec Ideal S512x512 .bf16) (ix2 a b) = (V m c main_v57 : S512x512.Idx → EReal) (ix2 a b) := by
  unfold iblk; rw [View.read_apply]
  show V m c main_v57 _ = V m c main_v57 (ix2 a b)
  congr 1; funext d; apply Fin.ext
  match d with
  | ⟨0, _⟩ => show win0_10.index t 0 * 512 + 1 * a.val = a.val; rw [(idx10 t).1]; omega
  | ⟨1, _⟩ => show win0_10.index t 1 * 512 + 1 * b.val = b.val; rw [(idx10 t).2]; omega

/-- Entry (k, g) of the block is entry (g, k) of the reference's matrix. -/
theorem blk10 (t : Fin cfg0.N) (k : Fin 512) (g : Fin 512) :
    (iblk m c 10 t : Vec Ideal S512x512 .bf16) (ix2 k g)
      = m ((c : Thread nD τ).loc main_arg13) (ix2 g k) := by
  refine (rd10 m c t k g).trans ?_
  rw [arr10 m c, truncf_apply]
  exact transpose_ix2_apply _ _ k g

/-! ### Window 11: rows of columns 0 … 511 of the reference's [512, 1024] matrix, transposed -/

/-- Window 11's block index is (0, 0) at every grid point: its one block is the whole array. -/
theorem idx11 : ∀ t : Fin cfg0.N, win0_11.index t (0 : Fin 2) = 0 ∧ win0_11.index t (1 : Fin 2) = 0 :=
  (by decide +kernel : ∀ t : Fin grid0.N, _)

/-- The array window 11 stages: the slice at column 0, transposed, its entries kept (the cast to bf16 is the identity on the extended reals). -/
theorem arr11 : @Eq (S512x512.Idx → EReal) (V m c main_v60)
    (truncf (F := Ideal) .bf16 (transpose S512x512 [1, 0] (extractStridedSlice S512x512 ![0, 0] (m ((c : Thread nD τ).loc main_arg14)) slices_S512x1024_S512x512_0_0) transposes_S512x512_S512x512_1_0) bitsLt_bf16_f32) := by
  dsimp only [Gen.V, Gen.hostOps0]; after_results

/-- The block is the whole array: entry (a, b) of the block is entry (0·512 + a, 0·512 + b) of the array. -/
theorem rd11 (t : Fin cfg0.N) (a : Fin 512) (b : Fin 512) :
    (iblk m c 11 t : Vec Ideal S512x512 .bf16) (ix2 a b) = (V m c main_v60 : S512x512.Idx → EReal) (ix2 a b) := by
  unfold iblk; rw [View.read_apply]
  show V m c main_v60 _ = V m c main_v60 (ix2 a b)
  congr 1; funext d; apply Fin.ext
  match d with
  | ⟨0, _⟩ => show win0_11.index t 0 * 512 + 1 * a.val = a.val; rw [(idx11 t).1]; omega
  | ⟨1, _⟩ => show win0_11.index t 1 * 512 + 1 * b.val = b.val; rw [(idx11 t).2]; omega

/-- Entry (k, g) of the block is entry (g, k) of the reference's matrix. -/
theorem blk11 (t : Fin cfg0.N) (k : Fin 512) (g : Fin 512) :
    (iblk m c 11 t : Vec Ideal S512x512 .bf16) (ix2 k g)
      = m ((c : Thread nD τ).loc main_arg14) (ix2 g ⟨k.val, by have := k.isLt; omega⟩) := by
  refine (rd11 m c t k g).trans ?_
  rw [arr11 m c, truncf_apply, transpose_ix2_apply]
  exact slice2_axis1_apply 0 _ _ g k _ (by simp)

end Cert.KernelIdeal.LeafWeights

end
-- ==== Proof.LeafWeightsB.lean ====
/-
  The kernel's weight and bias blocks are the reference's weight arguments, entry by entry: windows 12 … 18 (part 2 of 3).

  Before the kernel runs, the host prepares each weight operand from one of the reference's seventeen weight arguments:
    • a matrix W of a layer y = W·u, stored [out, in], is transposed to [in, out]; where the layer's input is a
      concatenation [u, v], the columns of u (0 … 511) and of v (512 …) are cut out first, each transposed on its own;
      the result is cast to bf16, which over the extended reals keeps every entry;
    • a bias vector of length n is reshaped to the one-row matrix [1, n];
    • the stop head's output row vector is passed as it is.
  Each of these operands is staged whole: its window's one block is the whole array, the block index being (0, 0) at all
  64 grid points, so block entry (a, b) is array entry (0·rows + a, 0·cols + b) = (a, b).
  Hence, for each window w, three facts and their composition:
    idx w  — the block index is (0, 0) at every grid point;
    arr w  — the staged array is the host's term over the reference's argument;
    rd w   — a block entry is the same entry of the staged array;
    blk w  — a block entry is the entry of the reference's argument that the reference's layer reads there:
             (k, g) ↦ W[g, k] or W[g, 512 + k] for a matrix, (0, g) ↦ b[g] for a bias.
-/
import proofs.«164827_j35158602285573_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.LeafWeights

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ### Window 12: rows of columns 512 … 1023 of the reference's [512, 1024] matrix, transposed -/

/-- Window 12's block index is (0, 0) at every grid point: its one block is the whole array. -/
theorem idx12 : ∀ t : Fin cfg0.N, win0_12.index t (0 : Fin 2) = 0 ∧ win0_12.index t (1 : Fin 2) = 0 :=
  (by decide +kernel : ∀ t : Fin grid0.N, _)

/-- The array window 12 stages: the slice at column 512, transposed, its entries kept (the cast to bf16 is the identity on the extended reals). -/
theorem arr12 : @Eq (S512x512.Idx → EReal) (V m c main_v63)
    (truncf (F := Ideal) .bf16 (transpose S512x512 [1, 0] (extractStridedSlice S512x512 ![0, 512] (m ((c : Thread nD τ).loc main_arg14)) slices_S512x1024_S512x512_0_512) transposes_S512x512_S512x512_1_0) bitsLt_bf16_f32) := by
  dsimp only [Gen.V, Gen.hostOps0]; after_results

/-- The block is the whole array: entry (a, b) of the block is entry (0·512 + a, 0·512 + b) of the array. -/
theorem rd12 (t : Fin cfg0.N) (a : Fin 512) (b : Fin 512) :
    (iblk m c 12 t : Vec Ideal S512x512 .bf16) (ix2 a b) = (V m c main_v63 : S512x512.Idx → EReal) (ix2 a b) := by
  unfold iblk; rw [View.read_apply]
  show V m c main_v63 _ = V m c main_v63 (ix2 a b)
  congr 1; funext d; apply Fin.ext
  match d with
  | ⟨0, _⟩ => show win0_12.index t 0 * 512 + 1 * a.val = a.val; rw [(idx12 t).1]; omega
  | ⟨1, _⟩ => show win0_12.index t 1 * 512 + 1 * b.val = b.val; rw [(idx12 t).2]; omega

/-- Entry (k, g) of the block is entry (g, 512 + k) of the reference's matrix. -/
theorem blk12 (t : Fin cfg0.N) (k : Fin 512) (g : Fin 512) :
    (iblk m c 12 t : Vec Ideal S512x512 .bf16) (ix2 k g)
      = m ((c : Thread nD τ).loc main_arg14) (ix2 g ⟨512 + k.val, by have := k.isLt; omega⟩) := by
  refine (rd12 m c t k g).trans ?_
  rw [arr12 m c, truncf_apply, transpose_ix2_apply]
  exact slice2_axis1_apply 512 _ _ g k _ rfl

/-! ### Window 13: the reference's bias vector, as one row -/

/-- Window 13's block index is (0, 0) at every grid point: its one block is the whole array. -/
theorem idx13 : ∀ t : Fin cfg0.N, win0_13.index t (0 : Fin 2) = 0 ∧ win0_13.index t (1 : Fin 2) = 0 :=
  (by decide +kernel : ∀ t : Fin grid0.N, _)

/-- The array window 13 stages: the vector reshaped to one row. -/
theorem arr13 : @Eq (S1x512.Idx → EReal) (V m c main_v86)
    (shapeCast S1x512 (m ((c : Thread nD τ).loc main_arg15)) shapeCasts_S512_S1x512) := by
  dsimp only [Gen.V, Gen.hostOps0]; after_results; rfl

/-- The block is the whole array: entry (a, b) of the block is entry (0·1 + a, 0·512 + b) of the array. -/
theorem rd13 (t : Fin cfg0.N) (a : Fin 1) (b : Fin 512) :
    (iblk m c 13 t : Vec Ideal S1x512 .f32) (ix2 a b) = (V m c main_v86 : S1x512.Idx → EReal) (ix2 a b) := by
  unfold iblk; rw [View.read_apply]
  show V m c main_v86 _ = V m c main_v86 (ix2 a b)
  congr 1; funext d; apply Fin.ext
  match d with
  | ⟨0, _⟩ => show win0_13.index t 0 * 1 + 1 * a.val = a.val; rw [(idx13 t).1]; omega
  | ⟨1, _⟩ => show win0_13.index t 1 * 512 + 1 * b.val = b.val; rw [(idx13 t).2]; omega

/-- Entry (0, g) of the block is entry g of the reference's vector. -/
theorem blk13 (t : Fin cfg0.N) (g : Fin 512) :
    (iblk m c 13 t : Vec Ideal S1x512 .f32) (ix2 (0 : Fin 1) g)
      = m ((c : Thread nD τ).loc main_arg15) (ix1 g) := by
  refine (rd13 m c t 0 g).trans ?_
  rw [arr13 m c]
  exact shapeCast_a_1a_apply _ _ 0 g

/-! ### Window 14: rows of columns 0 … 511 of the reference's [512, 640] matrix, transposed -/

/-- Window 14's block index is (0, 0) at every grid point: its one block is the whole array. -/
theorem idx14 : ∀ t : Fin cfg0.N, win0_14.index t (0 : Fin 2) = 0 ∧ win0_14.index t (1 : Fin 2) = 0 :=
  (by decide +kernel : ∀ t : Fin grid0.N, _)

/-- The array window 14 stages: the slice at column 0, transposed, its entries kept (the cast to bf16 is the identity on the extended reals). -/
theorem arr14 : @Eq (S512x512.Idx → EReal) (V m c main_v66)
    (truncf (F := Ideal) .bf16 (transpose S512x512 [1, 0] (extractStridedSlice S512x512 ![0, 0] (m ((c : Thread nD τ).loc main_arg16)) slices_S512x640_S512x512_0_0) transposes_S512x512_S512x512_1_0) bitsLt_bf16_f32) := by
  dsimp only [Gen.V, Gen.hostOps0]; after_results

/-- The block is the whole array: entry (a, b) of the block is entry (0·512 + a, 0·512 + b) of the array. -/
theorem rd14 (t : Fin cfg0.N) (a : Fin 512) (b : Fin 512) :
    (iblk m c 14 t : Vec Ideal S512x512 .bf16) (ix2 a b) = (V m c main_v66 : S512x512.Idx → EReal) (ix2 a b) := by
  unfold iblk; rw [View.read_apply]
  show V m c main_v66 _ = V m c main_v66 (ix2 a b)
  congr 1; funext d; apply Fin.ext
  match d with
  | ⟨0, _⟩ => show win0_14.index t 0 * 512 + 1 * a.val = a.val; rw [(idx14 t).1]; omega
  | ⟨1, _⟩ => show win0_14.index t 1 * 512 + 1 * b.val = b.val; rw [(idx14 t).2]; omega

/-- Entry (k, g) of the block is entry (g, k) of the reference's matrix. -/
theorem blk14 (t : Fin cfg0.N) (k : Fin 512) (g : Fin 512) :
    (iblk m c 14 t : Vec Ideal S512x512 .bf16) (ix2 k g)
      = m ((c : Thread nD τ).loc main_arg16) (ix2 g ⟨k.val, by have := k.isLt; omega⟩) := by
  refine (rd14 m c t k g).trans ?_
  rw [arr14 m c, truncf_apply, transpose_ix2_apply]
  exact slice2_axis1_apply 0 _ _ g k _ (by simp)

/-! ### Window 15: rows of columns 512 … 639 of the reference's [512, 640] matrix, transposed -/

/-- Window 15's block index is (0, 0) at every grid point: its one block is the whole array. -/
theorem idx15 : ∀ t : Fin cfg0.N, win0_15.index t (0 : Fin 2) = 0 ∧ win0_15.index t (1 : Fin 2) = 0 :=
  (by decide +kernel : ∀ t : Fin grid0.N, _)

/-- The array window 15 stages: the slice at column 512, transposed, its entries kept (the cast to bf16 is the identity on the extended reals). -/
theorem arr15 : @Eq (S128x512.Idx → EReal) (V m c main_v69)
    (truncf (F := Ideal) .bf16 (transpose S128x512 [1, 0] (extractStridedSlice S512x128 ![0, 512] (m ((c : Thread nD τ).loc main_arg16)) slices_S512x640_S512x128_0_512) transposes_S512x128_S128x512_1_0) bitsLt_bf16_f32) := by
  dsimp only [Gen.V, Gen.hostOps0]; after_results

/-- The block is the whole array: entry (a, b) of the block is entry (0·128 + a, 0·512 + b) of the array. -/
theorem rd15 (t : Fin cfg0.N) (a : Fin 128) (b : Fin 512) :
    (iblk m c 15 t : Vec Ideal S128x512 .bf16) (ix2 a b) = (V m c main_v69 : S128x512.Idx → EReal) (ix2 a b) := by
  unfold iblk; rw [View.read_apply]
  show V m c main_v69 _ = V m c main_v69 (ix2 a b)
  congr 1; funext d; apply Fin.ext
  match d with
  | ⟨0, _⟩ => show win0_15.index t 0 * 128 + 1 * a.val = a.val; rw [(idx15 t).1]; omega
  | ⟨1, _⟩ => show win0_15.index t 1 * 512 + 1 * b.val = b.val; rw [(idx15 t).2]; omega

/-- Entry (k, g) of the block is entry (g, 512 + k) of the reference's matrix. -/
theorem blk15 (t : Fin cfg0.N) (k : Fin 128) (g : Fin 512) :
    (iblk m c 15 t : Vec Ideal S128x512 .bf16) (ix2 k g)
      = m ((c : Thread nD τ).loc main_arg16) (ix2 g ⟨512 + k.val, by have := k.isLt; omega⟩) := by
  refine (rd15 m c t k g).trans ?_
  rw [arr15 m c, truncf_apply, transpose_ix2_apply]
  exact slice2_axis1_apply 512 _ _ g k _ rfl

/-! ### Window 16: the reference's bias vector, as one row -/

/-- Window 16's block index is (0, 0) at every grid point: its one block is the whole array. -/
theorem idx16 : ∀ t : Fin cfg0.N, win0_16.index t (0 : Fin 2) = 0 ∧ win0_16.index t (1 : Fin 2) = 0 :=
  (by decide +kernel : ∀ t : Fin grid0.N, _)

/-- The array window 16 stages: the vector reshaped to one row. -/
theorem arr16 : @Eq (S1x512.Idx → EReal) (V m c main_v87)
    (shapeCast S1x512 (m ((c : Thread nD τ).loc main_arg17)) shapeCasts_S512_S1x512) := by
  dsimp only [Gen.V, Gen.hostOps0]; after_results; rfl

/-- The block is the whole array: entry (a, b) of the block is entry (0·1 + a, 0·512 + b) of the array. -/
theorem rd16 (t : Fin cfg0.N) (a : Fin 1) (b : Fin 512) :
    (iblk m c 16 t : Vec Ideal S1x512 .f32) (ix2 a b) = (V m c main_v87 : S1x512.Idx → EReal) (ix2 a b) := by
  unfold iblk; rw [View.read_apply]
  show V m c main_v87 _ = V m c main_v87 (ix2 a b)
  congr 1; funext d; apply Fin.ext
  match d with
  | ⟨0, _⟩ => show win0_16.index t 0 * 1 + 1 * a.val = a.val; rw [(idx16 t).1]; omega
  | ⟨1, _⟩ => show win0_16.index t 1 * 512 + 1 * b.val = b.val; rw [(idx16 t).2]; omega

/-- Entry (0, g) of the block is entry g of the reference's vector. -/
theorem blk16 (t : Fin cfg0.N) (g : Fin 512) :
    (iblk m c 16 t : Vec Ideal S1x512 .f32) (ix2 (0 : Fin 1) g)
      = m ((c : Thread nD τ).loc main_arg17) (ix1 g) := by
  refine (rd16 m c t 0 g).trans ?_
  rw [arr16 m c]
  exact shapeCast_a_1a_apply _ _ 0 g

/-! ### Window 17: the reference's [1024, 512] matrix, transposed -/

/-- Window 17's block index is (0, 0) at every grid point: its one block is the whole array. -/
theorem idx17 : ∀ t : Fin cfg0.N, win0_17.index t (0 : Fin 2) = 0 ∧ win0_17.index t (1 : Fin 2) = 0 :=
  (by decide +kernel : ∀ t : Fin grid0.N, _)

/-- The array window 17 stages: the matrix transposed, its entries kept (the cast to bf16 is the identity on the extended reals). -/
theorem arr17 : @Eq (S512x1024.Idx → EReal) (V m c main_v71)
    (truncf (F := Ideal) .bf16 (transpose S512x1024 [1, 0] (m ((c : Thread nD τ).loc main_arg18)) transposes_S1024x512_S512x1024_1_0) bitsLt_bf16_f32) := by
  dsimp only [Gen.V, Gen.hostOps0]; after_results

/-- The block is the whole array: entry (a, b) of the block is entry (0·512 + a, 0·1024 + b) of the array. -/
theorem rd17 (t : Fin cfg0.N) (a : Fin 512) (b : Fin 1024) :
    (iblk m c 17 t : Vec Ideal S512x1024 .bf16) (ix2 a b) = (V m c main_v71 : S512x1024.Idx → EReal) (ix2 a b) := by
  unfold iblk; rw [View.read_apply]
  show V m c main_v71 _ = V m c main_v71 (ix2 a b)
  congr 1; funext d; apply Fin.ext
  match d with
  | ⟨0, _⟩ => show win0_17.index t 0 * 512 + 1 * a.val = a.val; rw [(idx17 t).1]; omega
  | ⟨1, _⟩ => show win0_17.index t 1 * 1024 + 1 * b.val = b.val; rw [(idx17 t).2]; omega

/-- Entry (k, g) of the block is entry (g, k) of the reference's matrix. -/
theorem blk17 (t : Fin cfg0.N) (k : Fin 512) (g : Fin 1024) :
    (iblk m c 17 t : Vec Ideal S512x1024 .bf16) (ix2 k g)
      = m ((c : Thread nD τ).loc main_arg18) (ix2 g k) := by
  refine (rd17 m c t k g).trans ?_
  rw [arr17 m c, truncf_apply]
  exact transpose_ix2_apply _ _ k g

/-! ### Window 18: the reference's bias vector, as one row -/

/-- Window 18's block index is (0, 0) at every grid point: its one block is the whole array. -/
theorem idx18 : ∀ t : Fin cfg0.N, win0_18.index t (0 : Fin 2) = 0 ∧ win0_18.index t (1 : Fin 2) = 0 :=
  (by decide +kernel : ∀ t : Fin grid0.N, _)

/-- The array window 18 stages: the vector reshaped to one row. -/
theorem arr18 : @Eq (S1x1024.Idx → EReal) (V m c main_v88)
    (shapeCast S1x1024 (m ((c : Thread nD τ).loc main_arg19)) shapeCasts_S1024_S1x1024) := by
  dsimp only [Gen.V, Gen.hostOps0]; after_results; rfl

/-- The block is the whole array: entry (a, b) of the block is entry (0·1 + a, 0·1024 + b) of the array. -/
theorem rd18 (t : Fin cfg0.N) (a : Fin 1) (b : Fin 1024) :
    (iblk m c 18 t : Vec Ideal S1x1024 .f32) (ix2 a b) = (V m c main_v88 : S1x1024.Idx → EReal) (ix2 a b) := by
  unfold iblk; rw [View.read_apply]
  show V m c main_v88 _ = V m c main_v88 (ix2 a b)
  congr 1; funext d; apply Fin.ext
  match d with
  | ⟨0, _⟩ => show win0_18.index t 0 * 1 + 1 * a.val = a.val; rw [(idx18 t).1]; omega
  | ⟨1, _⟩ => show win0_18.index t 1 * 1024 + 1 * b.val = b.val; rw [(idx18 t).2]; omega

/-- Entry (0, g) of the block is entry g of the reference's vector. -/
theorem blk18 (t : Fin cfg0.N) (g : Fin 1024) :
    (iblk m c 18 t : Vec Ideal S1x1024 .f32) (ix2 (0 : Fin 1) g)
      = m ((c : Thread nD τ).loc main_arg19) (ix1 g) := by
  refine (rd18 m c t 0 g).trans ?_
  rw [arr18 m c]
  exact shapeCast_a_1a_apply _ _ 0 g

end Cert.KernelIdeal.LeafWeights

end
-- ==== Proof.LeafWeightsC.lean ====
/-
  The kernel's weight and bias blocks are the reference's weight arguments, entry by entry: windows 19 … 26 (part 3 of 3).

  Before the kernel runs, the host prepares each weight operand from one of the reference's seventeen weight arguments:
    • a matrix W of a layer y = W·u, stored [out, in], is transposed to [in, out]; where the layer's input is a
      concatenation [u, v], the columns of u (0 … 511) and of v (512 …) are cut out first, each transposed on its own;
      the result is cast to bf16, which over the extended reals keeps every entry;
    • a bias vector of length n is reshaped to the one-row matrix [1, n];
    • the stop head's output row vector is passed as it is.
  Each of these operands is staged whole: its window's one block is the whole array, the block index being (0, 0) at all
  64 grid points, so block entry (a, b) is array entry (0·rows + a, 0·cols + b) = (a, b).
  Hence, for each window w, three facts and their composition:
    idx w  — the block index is (0, 0) at every grid point;
    arr w  — the staged array is the host's term over the reference's argument;
    rd w   — a block entry is the same entry of the staged array;
    blk w  — a block entry is the entry of the reference's argument that the reference's layer reads there:
             (k, g) ↦ W[g, k] or W[g, 512 + k] for a matrix, (0, g) ↦ b[g] for a bias.
-/
import proofs.«164827_j35158602285573_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.LeafWeights

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ### Window 19: rows of columns 0 … 511 of the reference's [512, 1024] matrix, transposed -/

/-- Window 19's block index is (0, 0) at every grid point: its one block is the whole array. -/
theorem idx19 : ∀ t : Fin cfg0.N, win0_19.index t (0 : Fin 2) = 0 ∧ win0_19.index t (1 : Fin 2) = 0 :=
  (by decide +kernel : ∀ t : Fin grid0.N, _)

/-- The array window 19 stages: the slice at column 0, transposed, its entries kept (the cast to bf16 is the identity on the extended reals). -/
theorem arr19 : @Eq (S512x512.Idx → EReal) (V m c main_v74)
    (truncf (F := Ideal) .bf16 (transpose S512x512 [1, 0] (extractStridedSlice S512x512 ![0, 0] (m ((c : Thread nD τ).loc main_arg20)) slices_S512x1024_S512x512_0_0) transposes_S512x512_S512x512_1_0) bitsLt_bf16_f32) := by
  dsimp only [Gen.V, Gen.hostOps0]; after_results

/-- The block is the whole array: entry (a, b) of the block is entry (0·512 + a, 0·512 + b) of the array. -/
theorem rd19 (t : Fin cfg0.N) (a : Fin 512) (b : Fin 512) :
    (iblk m c 19 t : Vec Ideal S512x512 .bf16) (ix2 a b) = (V m c main_v74 : S512x512.Idx → EReal) (ix2 a b) := by
  unfold iblk; rw [View.read_apply]
  show V m c main_v74 _ = V m c main_v74 (ix2 a b)
  congr 1; funext d; apply Fin.ext
  match d with
  | ⟨0, _⟩ => show win0_19.index t 0 * 512 + 1 * a.val = a.val; rw [(idx19 t).1]; omega
  | ⟨1, _⟩ => show win0_19.index t 1 * 512 + 1 * b.val = b.val; rw [(idx19 t).2]; omega

/-- Entry (k, g) of the block is entry (g, k) of the reference's matrix. -/
theorem blk19 (t : Fin cfg0.N) (k : Fin 512) (g : Fin 512) :
    (iblk m c 19 t : Vec Ideal S512x512 .bf16) (ix2 k g)
      = m ((c : Thread nD τ).loc main_arg20) (ix2 g ⟨k.val, by have := k.isLt; omega⟩) := by
  refine (rd19 m c t k g).trans ?_
  rw [arr19 m c, truncf_apply, transpose_ix2_apply]
  exact slice2_axis1_apply 0 _ _ g k _ (by simp)

/-! ### Window 20: rows of columns 512 … 1023 of the reference's [512, 1024] matrix, transposed -/

/-- Window 20's block index is (0, 0) at every grid point: its one block is the whole array. -/
theorem idx20 : ∀ t : Fin cfg0.N, win0_20.index t (0 : Fin 2) = 0 ∧ win0_20.index t (1 : Fin 2) = 0 :=
  (by decide +kernel : ∀ t : Fin grid0.N, _)

/-- The array window 20 stages: the slice at column 512, transposed, its entries kept (the cast to bf16 is the identity on the extended reals). -/
theorem arr20 : @Eq (S512x512.Idx → EReal) (V m c main_v77)
    (truncf (F := Ideal) .bf16 (transpose S512x512 [1, 0] (extractStridedSlice S512x512 ![0, 512] (m ((c : Thread nD τ).loc main_arg20)) slices_S512x1024_S512x512_0_512) transposes_S512x512_S512x512_1_0) bitsLt_bf16_f32) := by
  dsimp only [Gen.V, Gen.hostOps0]; after_results

/-- The block is the whole array: entry (a, b) of the block is entry (0·512 + a, 0·512 + b) of the array. -/
theorem rd20 (t : Fin cfg0.N) (a : Fin 512) (b : Fin 512) :
    (iblk m c 20 t : Vec Ideal S512x512 .bf16) (ix2 a b) = (V m c main_v77 : S512x512.Idx → EReal) (ix2 a b) := by
  unfold iblk; rw [View.read_apply]
  show V m c main_v77 _ = V m c main_v77 (ix2 a b)
  congr 1; funext d; apply Fin.ext
  match d with
  | ⟨0, _⟩ => show win0_20.index t 0 * 512 + 1 * a.val = a.val; rw [(idx20 t).1]; omega
  | ⟨1, _⟩ => show win0_20.index t 1 * 512 + 1 * b.val = b.val; rw [(idx20 t).2]; omega

/-- Entry (k, g) of the block is entry (g, 512 + k) of the reference's matrix. -/
theorem blk20 (t : Fin cfg0.N) (k : Fin 512) (g : Fin 512) :
    (iblk m c 20 t : Vec Ideal S512x512 .bf16) (ix2 k g)
      = m ((c : Thread nD τ).loc main_arg20) (ix2 g ⟨512 + k.val, by have := k.isLt; omega⟩) := by
  refine (rd20 m c t k g).trans ?_
  rw [arr20 m c, truncf_apply, transpose_ix2_apply]
  exact slice2_axis1_apply 512 _ _ g k _ rfl

/-! ### Window 21: the reference's bias vector, as one row -/

/-- Window 21's block index is (0, 0) at every grid point: its one block is the whole array. -/
theorem idx21 : ∀ t : Fin cfg0.N, win0_21.index t (0 : Fin 2) = 0 ∧ win0_21.index t (1 : Fin 2) = 0 :=
  (by decide +kernel : ∀ t : Fin grid0.N, _)

/-- The array window 21 stages: the vector reshaped to one row. -/
theorem arr21 : @Eq (S1x512.Idx → EReal) (V m c main_v89)
    (shapeCast S1x512 (m ((c : Thread nD τ).loc main_arg21)) shapeCasts_S512_S1x512) := by
  dsimp only [Gen.V, Gen.hostOps0]; after_results; rfl

/-- The block is the whole array: entry (a, b) of the block is entry (0·1 + a, 0·512 + b) of the array. -/
theorem rd21 (t : Fin cfg0.N) (a : Fin 1) (b : Fin 512) :
    (iblk m c 21 t : Vec Ideal S1x512 .f32) (ix2 a b) = (V m c main_v89 : S1x512.Idx → EReal) (ix2 a b) := by
  unfold iblk; rw [View.read_apply]
  show V m c main_v89 _ = V m c main_v89 (ix2 a b)
  congr 1; funext d; apply Fin.ext
  match d with
  | ⟨0, _⟩ => show win0_21.index t 0 * 1 + 1 * a.val = a.val; rw [(idx21 t).1]; omega
  | ⟨1, _⟩ => show win0_21.index t 1 * 512 + 1 * b.val = b.val; rw [(idx21 t).2]; omega

/-- Entry (0, g) of the block is entry g of the reference's vector. -/
theorem blk21 (t : Fin cfg0.N) (g : Fin 512) :
    (iblk m c 21 t : Vec Ideal S1x512 .f32) (ix2 (0 : Fin 1) g)
      = m ((c : Thread nD τ).loc main_arg21) (ix1 g) := by
  refine (rd21 m c t 0 g).trans ?_
  rw [arr21 m c]
  exact shapeCast_a_1a_apply _ _ 0 g

/-! ### Window 22: rows of columns 0 … 511 of the reference's [512, 640] matrix, transposed -/

/-- Window 22's block index is (0, 0) at every grid point: its one block is the whole array. -/
theorem idx22 : ∀ t : Fin cfg0.N, win0_22.index t (0 : Fin 2) = 0 ∧ win0_22.index t (1 : Fin 2) = 0 :=
  (by decide +kernel : ∀ t : Fin grid0.N, _)

/-- The array window 22 stages: the slice at column 0, transposed, its entries kept (the cast to bf16 is the identity on the extended reals). -/
theorem arr22 : @Eq (S512x512.Idx → EReal) (V m c main_v80)
    (truncf (F := Ideal) .bf16 (transpose S512x512 [1, 0] (extractStridedSlice S512x512 ![0, 0] (m ((c : Thread nD τ).loc main_arg22)) slices_S512x640_S512x512_0_0) transposes_S512x512_S512x512_1_0) bitsLt_bf16_f32) := by
  dsimp only [Gen.V, Gen.hostOps0]; after_results

/-- The block is the whole array: entry (a, b) of the block is entry (0·512 + a, 0·512 + b) of the array. -/
theorem rd22 (t : Fin cfg0.N) (a : Fin 512) (b : Fin 512) :
    (iblk m c 22 t : Vec Ideal S512x512 .bf16) (ix2 a b) = (V m c main_v80 : S512x512.Idx → EReal) (ix2 a b) := by
  unfold iblk; rw [View.read_apply]
  show V m c main_v80 _ = V m c main_v80 (ix2 a b)
  congr 1; funext d; apply Fin.ext
  match d with
  | ⟨0, _⟩ => show win0_22.index t 0 * 512 + 1 * a.val = a.val; rw [(idx22 t).1]; omega
  | ⟨1, _⟩ => show win0_22.index t 1 * 512 + 1 * b.val = b.val; rw [(idx22 t).2]; omega

/-- Entry (k, g) of the block is entry (g, k) of the reference's matrix. -/
theorem blk22 (t : Fin cfg0.N) (k : Fin 512) (g : Fin 512) :
    (iblk m c 22 t : Vec Ideal S512x512 .bf16) (ix2 k g)
      = m ((c : Thread nD τ).loc main_arg22) (ix2 g ⟨k.val, by have := k.isLt; omega⟩) := by
  refine (rd22 m c t k g).trans ?_
  rw [arr22 m c, truncf_apply, transpose_ix2_apply]
  exact slice2_axis1_apply 0 _ _ g k _ (by simp)

/-! ### Window 23: rows of columns 512 … 639 of the reference's [512, 640] matrix, transposed -/

/-- Window 23's block index is (0, 0) at every grid point: its one block is the whole array. -/
theorem idx23 : ∀ t : Fin cfg0.N, win0_23.index t (0 : Fin 2) = 0 ∧ win0_23.index t (1 : Fin 2) = 0 :=
  (by decide +kernel : ∀ t : Fin grid0.N, _)

/-- The array window 23 stages: the slice at column 512, transposed, its entries kept (the cast to bf16 is the identity on the extended reals). -/
theorem arr23 : @Eq (S128x512.Idx → EReal) (V m c main_v83)
    (truncf (F := Ideal) .bf16 (transpose S128x512 [1, 0] (extractStridedSlice S512x128 ![0, 512] (m ((c : Thread nD τ).loc main_arg22)) slices_S512x640_S512x128_0_512) transposes_S512x128_S128x512_1_0) bitsLt_bf16_f32) := by
  dsimp only [Gen.V, Gen.hostOps0]; after_results

/-- The block is the whole array: entry (a, b) of the block is entry (0·128 + a, 0·512 + b) of the array. -/
theorem rd23 (t : Fin cfg0.N) (a : Fin 128) (b : Fin 512) :
    (iblk m c 23 t : Vec Ideal S128x512 .bf16) (ix2 a b) = (V m c main_v83 : S128x512.Idx → EReal) (ix2 a b) := by
  unfold iblk; rw [View.read_apply]
  show V m c main_v83 _ = V m c main_v83 (ix2 a b)
  congr 1; funext d; apply Fin.ext
  match d with
  | ⟨0, _⟩ => show win0_23.index t 0 * 128 + 1 * a.val = a.val; rw [(idx23 t).1]; omega
  | ⟨1, _⟩ => show win0_23.index t 1 * 512 + 1 * b.val = b.val; rw [(idx23 t).2]; omega

/-- Entry (k, g) of the block is entry (g, 512 + k) of the reference's matrix. -/
theorem blk23 (t : Fin cfg0.N) (k : Fin 128) (g : Fin 512) :
    (iblk m c 23 t : Vec Ideal S128x512 .bf16) (ix2 k g)
      = m ((c : Thread nD τ).loc main_arg22) (ix2 g ⟨512 + k.val, by have := k.isLt; omega⟩) := by
  refine (rd23 m c t k g).trans ?_
  rw [arr23 m c, truncf_apply, transpose_ix2_apply]
  exact slice2_axis1_apply 512 _ _ g k _ rfl

/-! ### Window 24: the reference's bias vector, as one row -/

/-- Window 24's block index is (0, 0) at every grid point: its one block is the whole array. -/
theorem idx24 : ∀ t : Fin cfg0.N, win0_24.index t (0 : Fin 2) = 0 ∧ win0_24.index t (1 : Fin 2) = 0 :=
  (by decide +kernel : ∀ t : Fin grid0.N, _)

/-- The array window 24 stages: the vector reshaped to one row. -/
theorem arr24 : @Eq (S1x512.Idx → EReal) (V m c main_v90)
    (shapeCast S1x512 (m ((c : Thread nD τ).loc main_arg23)) shapeCasts_S512_S1x512) := by
  dsimp only [Gen.V, Gen.hostOps0]; after_results; rfl

/-- The block is the whole array: entry (a, b) of the block is entry (0·1 + a, 0·512 + b) of the array. -/
theorem rd24 (t : Fin cfg0.N) (a : Fin 1) (b : Fin 512) :
    (iblk m c 24 t : Vec Ideal S1x512 .f32) (ix2 a b) = (V m c main_v90 : S1x512.Idx → EReal) (ix2 a b) := by
  unfold iblk; rw [View.read_apply]
  show V m c main_v90 _ = V m c main_v90 (ix2 a b)
  congr 1; funext d; apply Fin.ext
  match d with
  | ⟨0, _⟩ => show win0_24.index t 0 * 1 + 1 * a.val = a.val; rw [(idx24 t).1]; omega
  | ⟨1, _⟩ => show win0_24.index t 1 * 512 + 1 * b.val = b.val; rw [(idx24 t).2]; omega

/-- Entry (0, g) of the block is entry g of the reference's vector. -/
theorem blk24 (t : Fin cfg0.N) (g : Fin 512) :
    (iblk m c 24 t : Vec Ideal S1x512 .f32) (ix2 (0 : Fin 1) g)
      = m ((c : Thread nD τ).loc main_arg23) (ix1 g) := by
  refine (rd24 m c t 0 g).trans ?_
  rw [arr24 m c]
  exact shapeCast_a_1a_apply _ _ 0 g

/-! ### Window 25: the reference's row vector itself -/

/-- Window 25's block index is (0, 0) at every grid point: its one block is the whole array. -/
theorem idx25 : ∀ t : Fin cfg0.N, win0_25.index t (0 : Fin 2) = 0 ∧ win0_25.index t (1 : Fin 2) = 0 :=
  (by decide +kernel : ∀ t : Fin grid0.N, _)

/-- The block is the whole array: entry (a, b) of the block is entry (0·1 + a, 0·512 + b) of the array. -/
theorem rd25 (t : Fin cfg0.N) (a : Fin 1) (b : Fin 512) :
    (iblk m c 25 t : Vec Ideal S1x512 .f32) (ix2 a b) = (V m c main_arg24 : S1x512.Idx → EReal) (ix2 a b) := by
  unfold iblk; rw [View.read_apply]
  show V m c main_arg24 _ = V m c main_arg24 (ix2 a b)
  congr 1; funext d; apply Fin.ext
  match d with
  | ⟨0, _⟩ => show win0_25.index t 0 * 1 + 1 * a.val = a.val; rw [(idx25 t).1]; omega
  | ⟨1, _⟩ => show win0_25.index t 1 * 512 + 1 * b.val = b.val; rw [(idx25 t).2]; omega

/-- Entry (0, k) of the block is entry (0, k) of the reference's row vector: no host operation writes it. -/
theorem blk25 (t : Fin cfg0.N) (k : Fin 512) :
    (iblk m c 25 t : Vec Ideal S1x512 .f32) (ix2 (0 : Fin 1) k)
      = m ((c : Thread nD τ).loc main_arg24) (ix2 (0 : Fin 1) k) := by
  refine (rd25 m c t 0 k).trans ?_
  rw [V_main_arg24 m c]

/-! ### Window 26: the reference's bias vector, as one row -/

/-- Window 26's block index is (0, 0) at every grid point: its one block is the whole array. -/
theorem idx26 : ∀ t : Fin cfg0.N, win0_26.index t (0 : Fin 2) = 0 ∧ win0_26.index t (1 : Fin 2) = 0 :=
  (by decide +kernel : ∀ t : Fin grid0.N, _)

/-- The array window 26 stages: the vector reshaped to one row. -/
theorem arr26 : @Eq (S1x1.Idx → EReal) (V m c main_v91)
    (shapeCast S1x1 (m ((c : Thread nD τ).loc main_arg25)) shapeCasts_S1_S1x1) := by
  dsimp only [Gen.V, Gen.hostOps0]; after_results; rfl

/-- The block is the whole array: entry (a, b) of the block is entry (0·1 + a, 0·1 + b) of the array. -/
theorem rd26 (t : Fin cfg0.N) (a : Fin 1) (b : Fin 1) :
    (iblk m c 26 t : Vec Ideal S1x1 .f32) (ix2 a b) = (V m c main_v91 : S1x1.Idx → EReal) (ix2 a b) := by
  unfold iblk; rw [View.read_apply]
  show V m c main_v91 _ = V m c main_v91 (ix2 a b)
  congr 1; funext d; apply Fin.ext
  match d with
  | ⟨0, _⟩ => show win0_26.index t 0 * 1 + 1 * a.val = a.val; rw [(idx26 t).1]; omega
  | ⟨1, _⟩ => show win0_26.index t 1 * 1 + 1 * b.val = b.val; rw [(idx26 t).2]; omega

/-- Entry (0, g) of the block is entry g of the reference's vector. -/
theorem blk26 (t : Fin cfg0.N) (g : Fin 1) :
    (iblk m c 26 t : Vec Ideal S1x1 .f32) (ix2 (0 : Fin 1) g)
      = m ((c : Thread nD τ).loc main_arg25) (ix1 g) := by
  refine (rd26 m c t 0 g).trans ?_
  rw [arr26 m c]
  exact shapeCast_a_1a_apply _ _ 0 g

end Cert.KernelIdeal.LeafWeights

end
-- ==== Proof.LeafWeights.lean ====
/-
  The kernel's twenty-two weight and bias blocks, read as the specification's weights, are the reference's seventeen weight
  arguments read as the specification's weights.

  The specification's weights are twenty-two families of entries. The kernel's reading takes each family from one block,
  laid out [in, out]: W[k, g] = block(k, g), b[g] = block(0, g). The reference's reading takes it from one argument, laid out
  [out, in] and not yet split: W[k, g] = arg(g, k) or arg(g, 512 + k), b[g] = arg(g). The two readings are equal as soon as
  every block entry is the matching argument entry (`weights_eq_of_entries`), and that is what the per-window lemmas
  `blk5` … `blk26` say at every grid point (`ker_weights`).
-/
import proofs.«164827_j35158602285573_2_alg».proof.Proof.Gen.KernelIdeal.Frame.Runs
import proofs.«164827_j35158602285573_2_alg».proof.Proof.Spec
import proofs.«164827_j35158602285573_2_alg».proof.Proof.LeafWeightsA
import proofs.«164827_j35158602285573_2_alg».proof.Proof.LeafWeightsB
import proofs.«164827_j35158602285573_2_alg».proof.Proof.LeafWeightsC
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.LeafWeights

open Cert.KernelIdeal Cert.KernelIdeal.Gen Idealize.ShloMosaic Idealize.ShloMosaic.TcCoe Idealize.ShloMosaic.ValueIdx Idealize.SL.Sem Cert.Cell

variable (m : (ℓ : Loc nD τ sig) → Buf (Elt Ideal) ℓ) (c : Dev nD)

/-- Two readings of the weights agree as soon as they agree entry by entry: the kernel's blocks against the reference's
    arrays, each block entry against the array entry the reference's layer reads there. -/
theorem weights_eq_of_entries
    (x5 x6 : ((⟨2, ![512, 512]⟩ : Shape).Idx → EReal)) (x7 : ((⟨2, ![1, 512]⟩ : Shape).Idx → EReal)) (x8 : ((⟨2, ![512, 512]⟩ : Shape).Idx → EReal)) (x9 : ((⟨2, ![1, 512]⟩ : Shape).Idx → EReal)) (x10 x11 x12 : ((⟨2, ![512, 512]⟩ : Shape).Idx → EReal))
    (x13 : ((⟨2, ![1, 512]⟩ : Shape).Idx → EReal)) (x14 : ((⟨2, ![512, 512]⟩ : Shape).Idx → EReal)) (x15 : ((⟨2, ![128, 512]⟩ : Shape).Idx → EReal)) (x16 : ((⟨2, ![1, 512]⟩ : Shape).Idx → EReal)) (x17 : ((⟨2, ![512, 1024]⟩ : Shape).Idx → EReal))
    (x18 : ((⟨2, ![1, 1024]⟩ : Shape).Idx → EReal)) (x19 x20 : ((⟨2, ![512, 512]⟩ : Shape).Idx → EReal)) (x21 : ((⟨2, ![1, 512]⟩ : Shape).Idx → EReal)) (x22 : ((⟨2, ![512, 512]⟩ : Shape).Idx → EReal)) (x23 : ((⟨2, ![128, 512]⟩ : Shape).Idx → EReal))
    (x24 : ((⟨2, ![1, 512]⟩ : Shape).Idx → EReal)) (x25 : ((⟨2, ![1, 512]⟩ : Shape).Idx → EReal)) (x26 : ((⟨2, ![1, 1]⟩ : Shape).Idx → EReal))
    (a9 : ((⟨2, ![512, 1024]⟩ : Shape).Idx → EReal)) (a10 : ((⟨1, ![512]⟩ : Shape).Idx → EReal)) (a11 : ((⟨2, ![512, 512]⟩ : Shape).Idx → EReal)) (a12 : ((⟨1, ![512]⟩ : Shape).Idx → EReal)) (a13 : ((⟨2, ![512, 512]⟩ : Shape).Idx → EReal))
    (a14 : ((⟨2, ![512, 1024]⟩ : Shape).Idx → EReal)) (a15 : ((⟨1, ![512]⟩ : Shape).Idx → EReal)) (a16 : ((⟨2, ![512, 640]⟩ : Shape).Idx → EReal)) (a17 : ((⟨1, ![512]⟩ : Shape).Idx → EReal)) (a18 : ((⟨2, ![1024, 512]⟩ : Shape).Idx → EReal))
    (a19 : ((⟨1, ![1024]⟩ : Shape).Idx → EReal)) (a20 : ((⟨2, ![512, 1024]⟩ : Shape).Idx → EReal)) (a21 : ((⟨1, ![512]⟩ : Shape).Idx → EReal)) (a22 : ((⟨2, ![512, 640]⟩ : Shape).Idx → EReal)) (a23 : ((⟨1, ![512]⟩ : Shape).Idx → EReal))
    (a24 : ((⟨2, ![1, 512]⟩ : Shape).Idx → EReal)) (a25 : ((⟨1, ![1]⟩ : Shape).Idx → EReal))
    (h5 : ∀ (k : Fin 512) (g : Fin 512), x5 (ix2 k g) = a9 (ix2 g ⟨k.val, by have := k.isLt; omega⟩))
    (h6 : ∀ (k : Fin 512) (g : Fin 512), x6 (ix2 k g) = a9 (ix2 g ⟨512 + k.val, by have := k.isLt; omega⟩))
    (h7 : ∀ g : Fin 512, x7 (ix2 (0 : Fin 1) g) = a10 (ix1 g))
    (h8 : ∀ (k : Fin 512) (g : Fin 512), x8 (ix2 k g) = a11 (ix2 g k))
    (h9 : ∀ g : Fin 512, x9 (ix2 (0 : Fin 1) g) = a12 (ix1 g))
    (h10 : ∀ (k : Fin 512) (g : Fin 512), x10 (ix2 k g) = a13 (ix2 g k))
    (h11 : ∀ (k : Fin 512) (g : Fin 512), x11 (ix2 k g) = a14 (ix2 g ⟨k.val, by have := k.isLt; omega⟩))
    (h12 : ∀ (k : Fin 512) (g : Fin 512), x12 (ix2 k g) = a14 (ix2 g ⟨512 + k.val, by have := k.isLt; omega⟩))
    (h13 : ∀ g : Fin 512, x13 (ix2 (0 : Fin 1) g) = a15 (ix1 g))
    (h14 : ∀ (k : Fin 512) (g : Fin 512), x14 (ix2 k g) = a16 (ix2 g ⟨k.val, by have := k.isLt; omega⟩))
    (h15 : ∀ (k : Fin 128) (g : Fin 512), x15 (ix2 k g) = a16 (ix2 g ⟨512 + k.val, by have := k.isLt; omega⟩))
    (h16 : ∀ g : Fin 512, x16 (ix2 (0 : Fin 1) g) = a17 (ix1 g))
    (h17 : ∀ (k : Fin 512) (g : Fin 1024), x17 (ix2 k g) = a18 (ix2 g k))
    (h18 : ∀ g : Fin 1024, x18 (ix2 (0 : Fin 1) g) = a19 (ix1 g))
    (h19 : ∀ (k : Fin 512) (g : Fin 512), x19 (ix2 k g) = a20 (ix2 g ⟨k.val, by have := k.isLt; omega⟩))
    (h20 : ∀ (k : Fin 512) (g : Fin 512), x20 (ix2 k g) = a20 (ix2 g ⟨512 + k.val, by have := k.isLt; omega⟩))
    (h21 : ∀ g : Fin 512, x21 (ix2 (0 : Fin 1) g) = a21 (ix1 g))
    (h22 : ∀ (k : Fin 512) (g : Fin 512), x22 (ix2 k g) = a22 (ix2 g ⟨k.val, by have := k.isLt; omega⟩))
    (h23 : ∀ (k : Fin 128) (g : Fin 512), x23 (ix2 k g) = a22 (ix2 g ⟨512 + k.val, by have := k.isLt; omega⟩))
    (h24 : ∀ g : Fin 512, x24 (ix2 (0 : Fin 1) g) = a23 (ix1 g))
    (h25 : ∀ k : Fin 512, x25 (ix2 (0 : Fin 1) k) = a24 (ix2 (0 : Fin 1) k))
    (h26 : ∀ g : Fin 1, x26 (ix2 (0 : Fin 1) g) = a25 (ix1 g)) :
    kerWeights x5 x6 x7 x8 x9 x10 x11 x12 x13 x14 x15 x16 x17 x18 x19 x20 x21 x22 x23 x24 x25 x26
      = refWeights a9 a10 a11 a12 a13 a14 a15 a16 a17 a18 a19 a20 a21 a22 a23 a24 a25 := by
  unfold kerWeights refWeights
  congr 1
  · funext k g; exact h8 k g
  · funext g; exact h9 g
  · funext k g; exact h10 k g
  · funext k g; exact h5 k g
  · funext k g; exact h6 k g
  · funext g; exact h7 g
  · funext k g; exact h11 k g
  · funext k g; exact h12 k g
  · funext g; exact h13 g
  · funext k g; exact h14 k g
  · funext k g; exact h15 k g
  · funext g; exact h16 g
  · funext k g; exact h17 k g
  · funext g; exact h18 g
  · funext k g; exact h19 k g
  · funext k g; exact h20 k g
  · funext g; exact h21 g
  · funext k g; exact h22 k g
  · funext k g; exact h23 k g
  · funext g; exact h24 g
  · funext g; exact h25 g
  · exact h26 (0 : Fin 1)

/-- The kernel's twenty-two weight and bias blocks, read as a `Weights`, are the reference's seventeen weight arguments read as a
    `Weights`: field by field, each block entry is the matching entry of the reference's array. -/
theorem ker_weights (t : Fin cfg0.N) :
    kerWeights (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
      = refWeights (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25)) :=
  weights_eq_of_entries _ _ _ _ _ _ _ _ _ _ _ _ _ _ _ _ _ _ _ _ _ _ _ _ _ _ _ _ _ _ _ _ _ _ _ _ _ _ _
    (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (blk26 m c t)

end Cert.KernelIdeal.LeafWeights

end
-- ==== Proof.LibGatherRows3.lean ====
/-
  A row gather whose start indices are laid out as a matrix, read at an index, for any extents and any element type.

  Operand [N, C], start indices [A, B, 1], result [A, B, C] (what x[idx] lowers to for a table x of N rows and an integer
  matrix idx : [A, B]). Entry (a, b, q) of the result is the operand at column q of the row the word idx[a, b, 0] selects:
  the word read as a signed integer and clamped into [0, N − 1].

  So two such gathers of one table, at index matrices [A, B] and [B, A] that are transposes of each other, are transposes
  of each other in their two leading axes: entry (a, b, q) of the first is entry (b, a, q) of the second.
-/
import Idealize.ShloMosaic.PureOps.ShapeOps
import Idealize.ShloMosaic.Lib.ValueIdx

noncomputable section

namespace Cert.LibGatherRows3

open Idealize.ShloMosaic Idealize.ShloMosaic.ValueIdx

variable {α : Type}

/-- The row a start index word selects among N rows: read signed, clamped into [0, N − 1]. -/
def clampRow (N : Nat) (hN : 0 < N) {w : Nat} (v : BitVec w) : Fin N := ⟨min v.toInt.toNat (N - 1), by omega⟩

/-- The dimension numbers of x[idx] along axis 0 of a rank-2 operand at a matrix of indices:
    operand [N, C], start indices [A, B, 1], result [A, B, C]. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather at (a, b, q): the operand at the clamped row idx[a, b, 0] and column q. -/
theorem rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q)
      = x (ix2 (clampRow N hN (idx (ix3 a b (0 : Fin 1)))) q) := by
  unfold Host.gather
  congr 1
  funext ax
  refine Fin.ext ?_
  match ax with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = q.val
    rw [GatherDims.batchCoord_eq_zero _ _ _ List.not_mem_nil]
    unfold GatherDims.start
    rw [dif_neg (show (1 : Fin 2) ∉ (rows3Dims N C A B wf).startIndexMap from
      (by decide : (1 : Fin 2) ∉ ([0] : List (Fin 2))))]
    simp only [Nat.add_zero, Nat.zero_add]
    rfl

/-- Gathers of one table at index matrices that are transposes of each other are transposes of each other in the two
    leading axes. -/
theorem rows3_transposed {N C A B w : Nat} (hN : 0 < N)
    (wf : GatherDims.WF ⟨2, ![N, C]⟩ ⟨3, ![A, B, 1]⟩ ⟨3, ![A, B, C]⟩ [2] [0] [] [0] [] 2 ![1, C])
    (wf' : GatherDims.WF ⟨2, ![N, C]⟩ ⟨3, ![B, A, 1]⟩ ⟨3, ![B, A, C]⟩ [2] [0] [] [0] [] 2 ![1, C])
    (x : (⟨2, ![N, C]⟩ : Shape).Idx → α) (idx : IVec ⟨3, ![A, B, 1]⟩ w) (idx' : IVec ⟨3, ![B, A, 1]⟩ w)
    (a : Fin A) (b : Fin B) (q : Fin C) (h : idx (ix3 a b (0 : Fin 1)) = idx' (ix3 b a (0 : Fin 1))) :
    Host.gather (rows3Dims N C A B wf) x idx (ix3 a b q) = Host.gather (rows3Dims N C B A wf') x idx' (ix3 b a q) := by
  rw [rows3_apply hN wf, rows3_apply hN wf', h]

end Cert.LibGatherRows3

end
-- ==== Proof.LeafRows.lean ====
/-
  Row p of the kernel's five data blocks at grid point t is node 256·t + p's row data in the reference.

  The kernel's host side prepares, for all 16384 nodes at once: the gathered embeddings x and contexts c (the reference's
  own gathers, rounded to bf16 — the identity on the extended reals); the masked neighbour messages laid out
  [15, 16384, 512], i.e. with the neighbour axis leading, where the reference lays them out [16384, 15, 512]; their sum over
  the neighbour axis; and the sum of the masked "o" messages, gathered from a bf16 copy of the message table.

  The two layouts hold the same entries: the kernel gathers at the TRANSPOSED index matrix, so its entry (k, n, ·) is the
  table row that the reference's entry (n, k, ·) selects; the wrap of a negative index and the conversion of the mask are
  entrywise, so they commute with the transposition. The sums over k are then equal term by term.

  Each window's block at grid point t is rows 256·t … 256·t + 255 of its array (all columns), so row p of the block is
  row 256·t + p of the array.
-/
import proofs.«164827_j35158602285573_2_alg».proof.Proof.Gen.KernelIdeal.Frame.Runs
import proofs.«164827_j35158602285573_2_alg».proof.Proof.Gen.ReferenceIdeal.Read
import proofs.«164827_j35158602285573_2_alg».proof.Proof.Spec
import proofs.«164827_j35158602285573_2_alg».proof.Proof.LibGatherRows3
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

open scoped BigOperators
open Cert.KernelIdeal Cert.KernelIdeal.Gen Cert.Cell Idealize.ShloMosaic Idealize.ShloMosaic.TcCoe Idealize.ShloMosaic.ValueIdx Idealize.SL.Sem

namespace Cert.KernelIdeal.LeafRows

/-- Two rows with the same entries are the same row. -/
theorem row_ext {r s : Row} (hx : ∀ k, r.x k = s.x k) (hhn : ∀ k j, r.hn k j = s.hn k j) (hsh : ∀ h, r.sh h = s.sh h)
    (hco : ∀ h, r.co h = s.co h) (hcx : ∀ k, r.cx k = s.cx k) : r = s := by
  cases r; cases s
  simp only [Row.mk.injEq]
  exact ⟨funext hx, funext fun k => funext (hhn k), funext hsh, funext hco, funext hcx⟩

/-! ## The kernel's host side, as functions of the argument arrays -/

/-- A row index word after the wrap of a negative index: v + 65536 when v < 0 (signed), v otherwise. -/
def wrapW (v : BitVec 32) : BitVec 32 := Scalar.select (IntOp.cmpi .slt v 0#32) (IntOp.addi v 65536#32) v

/-- The kernel's start indices: the index matrix [16384, 15] transposed to [15, 16384], each word wrapped, a unit axis added. -/
def idxK (A : IVec S16384x15 32) : IVec S15x16384x1 32 :=
  broadcastInDim S15x16384x1 ![0, 1] bcast_S15x16384_S15x16384x1_0_1
    (select
      (cmpi .slt (transpose S15x16384 [1, 0] A transposes_S16384x15_S15x16384_1_0)
        (broadcastInDim S15x16384 ![] bcast_S_S15x16384 (constantI S_ 32 0#32)))
      (addi (transpose S15x16384 [1, 0] A transposes_S16384x15_S15x16384_1_0)
        (broadcastInDim S15x16384 ![] bcast_S_S15x16384 (constantI S_ 32 65536#32)))
      (transpose S15x16384 [1, 0] A transposes_S16384x15_S15x16384_1_0))

/-- The kernel's mask: the mask matrix [16384, 15] transposed, converted to f32, repeated along the 512 columns. -/
def maskK (A : IVec S16384x15 32) : FVec Ideal S15x16384x512 .f32 :=
  broadcastInDim S15x16384x512 ![0, 1, 2] bcast_S15x16384x1_S15x16384x512_0_1_2
    (broadcastInDim S15x16384x1 ![0, 1] bcast_S15x16384_S15x16384x1_0_1
      (sitofp .f32 (transpose S15x16384 [1, 0] A transposes_S16384x15_S15x16384_1_0)))

/-- The kernel's masked neighbour messages [15, 16384, 512], in f32: rows of the message table gathered at the wrapped
    indices, times the mask. -/
def msgK (I M : IVec S16384x15 32) (T : FVec Ideal S65536x512 .f32) : FVec Ideal S15x16384x512 .f32 :=
  mulf (Host.gather gather_S65536x512_S15x16384x1_S15x16384x512_2_0_n_n_0_2_1512 T (idxK I)) (maskK M)

/-- The kernel's masked "o" messages: the same, gathered from the table's bf16 copy and widened back (both casts are the
    identity on the extended reals). -/
def msgO (I M : IVec S16384x15 32) (T : FVec Ideal S65536x512 .f32) : FVec Ideal S15x16384x512 .f32 :=
  mulf (extf .f32 (Host.gather gather_S65536x512_S15x16384x1_S15x16384x512_2_0_n_n_0_2_1512
    (truncf .bf16 T bitsLt_bf16_f32 : FVec Ideal S65536x512 .bf16) (idxK I)) bitsLt_bf16_f32) (maskK M)

/-- The start index at (k, n, 0) is the wrapped word of the index matrix at (n, k). -/
theorem idxK_apply (A : IVec S16384x15 32) (k : Fin 15) (n : Fin 16384) :
    idxK A (ix3 k n (0 : Fin 1)) = wrapW (A (ix2 n k)) := by
  unfold idxK
  refine (broadcastInDim_apply _ bcast_S15x16384_S15x16384x1_0_1 _ (ix3 k n (0 : Fin 1)) (ix2 k n) (fun a => match a with
    | ⟨0, _⟩ => by show k.val = if (15 : Nat) = 1 then 0 else k.val; rw [if_neg (by decide)]
    | ⟨1, _⟩ => by show n.val = if (16384 : Nat) = 1 then 0 else n.val; rw [if_neg (by decide)])).trans ?_
  show Scalar.select (IntOp.cmpi .slt (transpose S15x16384 [1, 0] A transposes_S16384x15_S15x16384_1_0 (ix2 k n)) 0#32)
      (IntOp.addi (transpose S15x16384 [1, 0] A transposes_S16384x15_S15x16384_1_0 (ix2 k n)) 65536#32)
      (transpose S15x16384 [1, 0] A transposes_S16384x15_S15x16384_1_0 (ix2 k n)) = _
  rw [transpose_ix2_apply A transposes_S16384x15_S15x16384_1_0 k n]
  rfl

/-- The mask at (k, n, j) is the converted word of the mask matrix at (n, k). -/
theorem maskK_apply (A : IVec S16384x15 32) (k : Fin 15) (n : Fin 16384) (j : Fin 512) :
    maskK A (ix3 k n j) = FloatOps.sitofp .f32 (A (ix2 n k)) := by
  unfold maskK
  refine (broadcastInDim_apply _ bcast_S15x16384x1_S15x16384x512_0_1_2 _ (ix3 k n j) (ix3 k n (0 : Fin 1)) (fun a => match a with
    | ⟨0, _⟩ => by show k.val = if (15 : Nat) = 1 then 0 else k.val; rw [if_neg (by decide)]
    | ⟨1, _⟩ => by show n.val = if (16384 : Nat) = 1 then 0 else n.val; rw [if_neg (by decide)]
    | ⟨2, _⟩ => by show 0 = if (1 : Nat) = 1 then 0 else j.val; rw [if_pos rfl])).trans ?_
  refine (broadcastInDim_apply _ bcast_S15x16384_S15x16384x1_0_1 _ (ix3 k n (0 : Fin 1)) (ix2 k n) (fun a => match a with
    | ⟨0, _⟩ => by show k.val = if (15 : Nat) = 1 then 0 else k.val; rw [if_neg (by decide)]
    | ⟨1, _⟩ => by show n.val = if (16384 : Nat) = 1 then 0 else n.val; rw [if_neg (by decide)])).trans ?_
  show FloatOps.sitofp .f32 (transpose S15x16384 [1, 0] A transposes_S16384x15_S15x16384_1_0 (ix2 k n)) = _
  rw [transpose_ix2_apply A transposes_S16384x15_S15x16384_1_0 k n]

/-- A host sum over the leading axis of a [15, 16384, 512] array, from the word of +0.0, at (n, h): that word plus the
    sum over k of the array at (k, n, h). -/
theorem reduce0_apply (y : FVec Ideal S15x16384x512 .f32) (n : Fin 16384) (h : Fin 512) :
    (Host.reduceAdd y (constant (F := Ideal) S_ .f32 0x00000000#32) reducesTo_S15x16384x512_S16384x512_d0 h_S_
        : FVec Ideal S16384x512 .f32) (ix2 n h)
      = Z + ∑ k : Fin 15, y (ix3 k n h) := by
  simp only [Host.reduceAdd, Ideal.hostReduceAdd_def]
  rw [Ideal.hostReduceAdd_single reducesTo_S15x16384x512_S16384x512_d0 (by decide)]
  refine congrArg (_ + ·) (Finset.sum_congr rfl fun k _ => ?_)
  exact congrArg y (funext fun a => Fin.ext (by match a with | ⟨0, _⟩ => rfl | ⟨1, _⟩ => rfl | ⟨2, _⟩ => rfl))

/-! ## The reference's side, read at an index -/

section Reference
open Cert.ReferenceIdeal.Read

/-- The reference's neighbour start index at (n, k, 0) is the wrapped word of the index matrix at (n, k). -/
theorem idxR2_apply (A : IVec S16384x15 32) (n : Fin 16384) (k : Fin 15) :
    val_main_v12 (F := Ideal) A (ix3 n k (0 : Fin 1)) = wrapW (A (ix2 n k)) := by
  refine (val_main_v12_apply A (ix3 n k (0 : Fin 1))).trans ?_
  have e : idx_main_v12 (ix3 n k (0 : Fin 1)) = ix2 n k := by
    funext a; match a with | ⟨0, _⟩ => rfl | ⟨1, _⟩ => rfl
  refine (congrArg (val_main_v11 (F := Ideal) A) e).trans ?_
  rfl

/-- The reference's "o" start index at (n, k, 0) is the wrapped word of the index matrix at (n, k). -/
theorem idxR4_apply (A : IVec S16384x15 32) (n : Fin 16384) (k : Fin 15) :
    val_main_v23 (F := Ideal) A (ix3 n k (0 : Fin 1)) = wrapW (A (ix2 n k)) := by
  refine (val_main_v23_apply A (ix3 n k (0 : Fin 1))).trans ?_
  have e : idx_main_v23 (ix3 n k (0 : Fin 1)) = ix2 n k := by
    funext a; match a with | ⟨0, _⟩ => rfl | ⟨1, _⟩ => rfl
  refine (congrArg (val_main_v22 (F := Ideal) A) e).trans ?_
  rfl

/-- The reference's neighbour mask at (n, k, j) is the converted word of the mask matrix at (n, k). -/
theorem maskR3_apply (A : IVec S16384x15 32) (n : Fin 16384) (k : Fin 15) (j : Fin 512) :
    val_main_v16 (F := Ideal) A (ix3 n k j) = FloatOps.sitofp (F := Ideal) .f32 (A (ix2 n k)) := by
  refine (val_main_v16_apply A (ix3 n k j)).trans ?_
  have e : idx_main_v16 (ix3 n k j) = ix3 n k (0 : Fin 1) := by
    funext a; match a with | ⟨0, _⟩ => rfl | ⟨1, _⟩ => rfl | ⟨2, _⟩ => rfl
  refine (congrArg (val_main_v15 (F := Ideal) A) e).trans ?_
  show FloatOps.sitofp (F := Ideal) .f32 (val_main_v14 (F := Ideal) A (ix3 n k (0 : Fin 1))) = _
  refine congrArg (FloatOps.sitofp (F := Ideal) .f32) ?_
  refine (val_main_v14_apply A (ix3 n k (0 : Fin 1))).trans ?_
  exact congrArg A (funext fun a => match a with | ⟨0, _⟩ => rfl | ⟨1, _⟩ => rfl)

/-- The reference's "o" mask at (n, k, j) is the converted word of the mask matrix at (n, k). -/
theorem maskR5_apply (A : IVec S16384x15 32) (n : Fin 16384) (k : Fin 15) (j : Fin 512) :
    val_main_v27 (F := Ideal) A (ix3 n k j) = FloatOps.sitofp (F := Ideal) .f32 (A (ix2 n k)) := by
  refine (val_main_v27_apply A (ix3 n k j)).trans ?_
  have e : idx_main_v27 (ix3 n k j) = ix3 n k (0 : Fin 1) := by
    funext a; match a with | ⟨0, _⟩ => rfl | ⟨1, _⟩ => rfl | ⟨2, _⟩ => rfl
  refine (congrArg (val_main_v26 (F := Ideal) A) e).trans ?_
  show FloatOps.sitofp (F := Ideal) .f32 (val_main_v25 (F := Ideal) A (ix3 n k (0 : Fin 1))) = _
  refine congrArg (FloatOps.sitofp (F := Ideal) .f32) ?_
  refine (val_main_v25_apply A (ix3 n k (0 : Fin 1))).trans ?_
  exact congrArg A (funext fun a => match a with | ⟨0, _⟩ => rfl | ⟨1, _⟩ => rfl)

/-- The kernel's masked neighbour message (k, n, ·) is the reference's (n, k, ·): gathers at transposed index matrices
    select the same table row, and the masks are the same converted word. -/
theorem msgK_eq (I M : IVec S16384x15 32) (T : FVec Ideal S65536x512 .f32) (k : Fin 15) (n : Fin 16384) (j : Fin 512) :
    msgK I M T (ix3 k n j) = val_main_v17 (F := Ideal) I M T (ix3 n k j) := by
  show Host.gather gather_S65536x512_S15x16384x1_S15x16384x512_2_0_n_n_0_2_1512 T (idxK I) (ix3 k n j) * maskK M (ix3 k n j)
    = val_main_v13 (F := Ideal) I T (ix3 n k j) * val_main_v16 (F := Ideal) M (ix3 n k j)
  rw [maskK_apply, maskR3_apply]
  refine congrArg (· * _) ?_
  exact Cert.LibGatherRows3.rows3_transposed (by decide) _ _ T (idxK I) (val_main_v12 (F := Ideal) I) k n j
    ((idxK_apply I k n).trans (idxR2_apply I n k).symm)

/-- The kernel's masked "o" message (k, n, ·) is the reference's (n, k, ·): the bf16 copy of the table has the table's
    entries on the extended reals. -/
theorem msgO_eq (I M : IVec S16384x15 32) (T : FVec Ideal S65536x512 .f32) (k : Fin 15) (n : Fin 16384) (j : Fin 512) :
    msgO I M T (ix3 k n j) = val_main_v28 (F := Ideal) I M T (ix3 n k j) := by
  show Host.gather gather_S65536x512_S15x16384x1_S15x16384x512_2_0_n_n_0_2_1512
      (truncf .bf16 T bitsLt_bf16_f32 : FVec Ideal S65536x512 .bf16) (idxK I) (ix3 k n j) * maskK M (ix3 k n j)
    = val_main_v24 (F := Ideal) I T (ix3 n k j) * val_main_v27 (F := Ideal) M (ix3 n k j)
  rw [maskK_apply, maskR5_apply]
  refine congrArg (· * _) ?_
  refine (Cert.LibGatherRows3.rows3_transposed (by decide) _
    Cert.ReferenceIdeal.Facts₀.gather_S65536x512_S16384x15x1_S16384x15x512_2_0_n_n_0_2_1512_wf
    (truncf .bf16 T bitsLt_bf16_f32 : FVec Ideal S65536x512 .bf16)
    (idxK I) (val_main_v23 (F := Ideal) I) k n j ((idxK_apply I k n).trans (idxR4_apply I n k).symm)).trans ?_
  rfl

end Reference

variable (m : (ℓ : Loc nD τ sig) → Buf (Elt Ideal) ℓ) (c : Dev nD)

set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "A3" => m ((c : Thread nD τ).loc main_arg3)
set_option quotPrecheck false in
local notation "A4" => m ((c : Thread nD τ).loc main_arg4)
set_option quotPrecheck false in
local notation "A5" => m ((c : Thread nD τ).loc main_arg5)
set_option quotPrecheck false in
local notation "A6" => m ((c : Thread nD τ).loc main_arg6)
set_option quotPrecheck false in
local notation "A7" => m ((c : Thread nD τ).loc main_arg7)
set_option quotPrecheck false in
local notation "A8" => m ((c : Thread nD τ).loc main_arg8)

/-! ## The blocks of the five data windows -/

/-- The node that row p of the block at grid point t holds. -/
def node (t : Fin cfg0.N) (p : Fin 256) : Fin 16384 :=
  ⟨256 * t.val + p.val, by have ht : t.val < grid0.N := t.isLt; rw [N_0] at ht; have := p.isLt; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

/-- Window 0's block at t, row p: row 256 t + p of the bf16 embeddings. -/
theorem blk0 (t : Fin cfg0.N) (p : Fin 256) (k : Fin 512) :
    (iblk m c 0 t : Vec Ideal S256x512 .bf16) (ix2 p k)
      = (V m c main_v7 : S16384x512.Idx → EReal) (ix2 (node t p) k) := by
  unfold iblk
  rw [View.read_apply]
  show V m c main_v7 _ = V m c main_v7 (ix2 (node t p) k)
  congr 1
  funext a
  apply Fin.ext
  match a with
  | ⟨0, _⟩ => show win0_0.index t 0 * 256 + 1 * p.val = 256 * t.val + p.val; rw [(idx0 t).1]; omega
  | ⟨1, _⟩ => show win0_0.index t 1 * 512 + 1 * k.val = k.val; rw [(idx0 t).2]; omega

/-- Window 1's block at t, slab k, row p: row 256 t + p of slab k of the bf16 neighbour messages. -/
theorem blk1 (t : Fin cfg0.N) (k : Fin 15) (p : Fin 256) (j : Fin 512) :
    (iblk m c 1 t : Vec Ideal S15x256x512 .bf16) (ix3 k p j)
      = (V m c main_v30 : S15x16384x512.Idx → EReal) (ix3 k (node t p) j) := by
  unfold iblk
  rw [View.read_apply]
  show V m c main_v30 _ = V m c main_v30 (ix3 k (node t p) j)
  congr 1
  funext a
  apply Fin.ext
  match a with
  | ⟨0, _⟩ => show win0_1.index t 0 * 15 + 1 * k.val = k.val; rw [(idx1 t).1]; omega
  | ⟨1, _⟩ => show win0_1.index t 1 * 256 + 1 * p.val = 256 * t.val + p.val; rw [(idx1 t).2.1]; omega
  | ⟨2, _⟩ => show win0_1.index t 2 * 512 + 1 * j.val = j.val; rw [(idx1 t).2.2]; omega

/-- Window 2's block at t, row p: row 256 t + p of the f32 sums. -/
theorem blk2 (t : Fin cfg0.N) (p : Fin 256) (k : Fin 512) :
    (iblk m c 2 t : Vec Ideal S256x512 .f32) (ix2 p k)
      = (V m c main_v29 : S16384x512.Idx → EReal) (ix2 (node t p) k) := by
  unfold iblk
  rw [View.read_apply]
  show V m c main_v29 _ = V m c main_v29 (ix2 (node t p) k)
  congr 1
  funext a
  apply Fin.ext
  match a with
  | ⟨0, _⟩ => show win0_2.index t 0 * 256 + 1 * p.val = 256 * t.val + p.val; rw [(idx2 t).1]; omega
  | ⟨1, _⟩ => show win0_2.index t 1 * 512 + 1 * k.val = k.val; rw [(idx2 t).2]; omega

/-- Window 3's block at t, row p: row 256 t + p of the bf16 "o" sums. -/
theorem blk3 (t : Fin cfg0.N) (p : Fin 256) (k : Fin 512) :
    (iblk m c 3 t : Vec Ideal S256x512 .bf16) (ix2 p k)
      = (V m c main_v47 : S16384x512.Idx → EReal) (ix2 (node t p) k) := by
  unfold iblk
  rw [View.read_apply]
  show V m c main_v47 _ = V m c main_v47 (ix2 (node t p) k)
  congr 1
  funext a
  apply Fin.ext
  match a with
  | ⟨0, _⟩ => show win0_3.index t 0 * 256 + 1 * p.val = 256 * t.val + p.val; rw [(idx3 t).1]; omega
  | ⟨1, _⟩ => show win0_3.index t 1 * 512 + 1 * k.val = k.val; rw [(idx3 t).2]; omega

/-- Window 4's block at t, row p: row 256 t + p of the bf16 contexts. -/
theorem blk4 (t : Fin cfg0.N) (p : Fin 256) (k : Fin 128) :
    (iblk m c 4 t : Vec Ideal S256x128 .bf16) (ix2 p k)
      = (V m c main_v15 : S16384x128.Idx → EReal) (ix2 (node t p) k) := by
  unfold iblk
  rw [View.read_apply]
  show V m c main_v15 _ = V m c main_v15 (ix2 (node t p) k)
  congr 1
  funext a
  apply Fin.ext
  match a with
  | ⟨0, _⟩ => show win0_4.index t 0 * 256 + 1 * p.val = 256 * t.val + p.val; rw [(idx4 t).1]; omega
  | ⟨1, _⟩ => show win0_4.index t 1 * 128 + 1 * k.val = k.val; rw [(idx4 t).2]; omega

/-! ## The windows' arrays as the host operations leave them -/

/-- The embeddings' array: the reference's gathered embeddings, rounded to bf16. -/
theorem v7_eq : (V m c main_v7 : FVec Ideal S16384x512 .bf16)
    = (truncf .bf16 (Cert.ReferenceIdeal.Read.val_main_v6 (F := Ideal) A0 A8) bitsLt_bf16_f32 : FVec Ideal S16384x512 .bf16) := by
  dsimp only [Gen.V, Gen.hostOps0]; after_results_simp; rfl

/-- The contexts' array: the reference's gathered contexts, rounded to bf16. -/
theorem v15_eq : (V m c main_v15 : FVec Ideal S16384x128 .bf16)
    = (truncf .bf16 (Cert.ReferenceIdeal.Read.val_main_v78 (F := Ideal) A1 A7) bitsLt_bf16_f32 : FVec Ideal S16384x128 .bf16) := by
  dsimp only [Gen.V, Gen.hostOps0]; after_results_simp; rfl

/-- The neighbour messages' array: the masked messages, rounded to bf16. -/
theorem v30_eq : (V m c main_v30 : FVec Ideal S15x16384x512 .bf16)
    = (truncf .bf16 (msgK A2 A3 A6) bitsLt_bf16_f32 : FVec Ideal S15x16384x512 .bf16) := by
  dsimp only [Gen.V, Gen.hostOps0]; after_results_simp; rfl

/-- The sums' array: the host sum of the masked messages over the neighbour axis, from the word of +0.0. -/
theorem v29_eq : (V m c main_v29 : FVec Ideal S16384x512 .f32)
    = (Host.reduceAdd (msgK A2 A3 A6) (constant (F := Ideal) S_ .f32 0x00000000#32)
        reducesTo_S15x16384x512_S16384x512_d0 h_S_ : FVec Ideal S16384x512 .f32) := by
  dsimp only [Gen.V, Gen.hostOps0]; after_results_simp; rfl

/-- The "o" sums' array: the host sum of the masked "o" messages over the neighbour axis, rounded to bf16. -/
theorem v47_eq : (V m c main_v47 : FVec Ideal S16384x512 .bf16)
    = (truncf .bf16 (Host.reduceAdd (msgO A4 A5 A6) (constant (F := Ideal) S_ .f32 0x00000000#32)
        reducesTo_S15x16384x512_S16384x512_d0 h_S_ : FVec Ideal S16384x512 .f32) bitsLt_bf16_f32
        : FVec Ideal S16384x512 .bf16) := by
  dsimp only [Gen.V, Gen.hostOps0]; after_results_simp; rfl

/-! ## Row p of each block -/

section Rows
open Cert.ReferenceIdeal.Read

/-- Row p of the embeddings' block is node 256 t + p's gathered embedding. -/
theorem x_row (t : Fin cfg0.N) (p : Fin 256) (k : Fin 512) :
    (iblk m c 0 t : Vec Ideal S256x512 .bf16) (ix2 p k) = val_main_v6 (F := Ideal) A0 A8 (ix2 (node t p) k) :=
  (blk0 m c t p k).trans (congrFun (v7_eq m c) (ix2 (node t p) k))

/-- Row p of the contexts' block is node 256 t + p's gathered context. -/
theorem cx_row (t : Fin cfg0.N) (p : Fin 256) (k : Fin 128) :
    (iblk m c 4 t : Vec Ideal S256x128 .bf16) (ix2 p k) = val_main_v78 (F := Ideal) A1 A7 (ix2 (node t p) k) :=
  (blk4 m c t p k).trans (congrFun (v15_eq m c) (ix2 (node t p) k))

/-- Row p of slab k of the neighbour block is node 256 t + p's k-th masked neighbour message. -/
theorem hn_row (t : Fin cfg0.N) (k : Fin 15) (p : Fin 256) (j : Fin 512) :
    (iblk m c 1 t : Vec Ideal S15x256x512 .bf16) (ix3 k p j) = val_main_v17 (F := Ideal) A2 A3 A6 (ix3 (node t p) k j) :=
  ((blk1 m c t k p j).trans (congrFun (v30_eq m c) (ix3 k (node t p) j))).trans (msgK_eq A2 A3 A6 k (node t p) j)

/-- Row p of the sums' block is the word of +0.0 plus the sum of node 256 t + p's masked neighbour messages. -/
theorem sh_row (t : Fin cfg0.N) (p : Fin 256) (h : Fin 512) :
    (iblk m c 2 t : Vec Ideal S256x512 .f32) (ix2 p h)
      = Z + ∑ k : Fin 15, val_main_v17 (F := Ideal) A2 A3 A6 (ix3 (node t p) k h) := by
  refine ((blk2 m c t p h).trans (congrFun (v29_eq m c) (ix2 (node t p) h))).trans ?_
  refine (reduce0_apply (msgK A2 A3 A6) (node t p) h).trans ?_
  exact congrArg (_ + ·) (Finset.sum_congr rfl fun k _ => msgK_eq A2 A3 A6 k (node t p) h)

/-- Row p of the "o" sums' block is the word of +0.0 plus the sum of node 256 t + p's masked "o" messages. -/
theorem co_row (t : Fin cfg0.N) (p : Fin 256) (h : Fin 512) :
    (iblk m c 3 t : Vec Ideal S256x512 .bf16) (ix2 p h)
      = Z + ∑ k : Fin 15, val_main_v28 (F := Ideal) A4 A5 A6 (ix3 (node t p) k h) := by
  refine ((blk3 m c t p h).trans (congrFun (v47_eq m c) (ix2 (node t p) h))).trans ?_
  show (Host.reduceAdd (msgO A4 A5 A6) (constant (F := Ideal) S_ .f32 0x00000000#32)
        reducesTo_S15x16384x512_S16384x512_d0 h_S_ : FVec Ideal S16384x512 .f32) (ix2 (node t p) h) = _
  refine (reduce0_apply (msgO A4 A5 A6) (node t p) h).trans ?_
  exact congrArg (_ + ·) (Finset.sum_congr rfl fun k _ => msgO_eq A4 A5 A6 k (node t p) h)

set_option maxHeartbeats 1000000 in
/-- Row p of the kernel's five data blocks at grid point t is node 256 t + p's row data in the reference. -/
theorem ker_row (t : Fin cfg0.N) (p : Fin 256) :
    kerRow (iblk m c 0 t) (iblk m c 1 t) (iblk m c 2 t) (iblk m c 3 t) (iblk m c 4 t) p
      = refRow (val_main_v6 (F := Ideal) A0 A8) (val_main_v17 (F := Ideal) A2 A3 A6) (val_main_v28 (F := Ideal) A4 A5 A6)
          (val_main_v78 (F := Ideal) A1 A7) (node t p) := by
  apply row_ext
  · intro k; exact x_row m c t p k
  · intro k j; exact hn_row m c t k p j
  · intro h; exact sh_row m c t p h
  · intro h; exact co_row m c t p h
  · intro k; exact cx_row m c t p k

end Rows

end Cert.KernelIdeal.LeafRows

end
-- ==== Proof.LibLayoutPairs.lean ====
/-
  Two matrices joined side by side or one above the other, and a column spread across a row, read at an entry.

  Joining [a, n] and [a, m] along the columns gives [a, n + m]: entry (p, c) is the first piece at (p, c) when c < n and the second at
  (p, c − n) otherwise. Joining [n, b] and [m, b] along the rows gives [n + m, b] likewise in the row coordinate. A column [a, 1] broadcast
  to [a, b] reads, at (p, c), the column's entry p.
-/
import Idealize.ShloMosaic.Lib.Pipeline.Value
import Idealize.ShloMosaic.Lib.ValueIdx

noncomputable section

namespace Cert.LibLayoutPairs

open Idealize.ShloMosaic Idealize.ShloMosaic.ValueIdx

variable {α : Type}

/-- Joined along the columns, an entry whose column is in the first piece. -/
theorem concat_cols_left {a n m k : Nat} (x₁ : (⟨2, ![a, n]⟩ : Shape).Idx → α) (x₂ : (⟨2, ![a, m]⟩ : Shape).Idx → α)
    (h : Shape.Concatenates [⟨2, ![a, n]⟩, ⟨2, ![a, m]⟩] ⟨2, ![a, k]⟩ (1 : Fin 2)) (p : Fin a) (c : Fin k) (hc : c.val < n) :
    concatenate ⟨2, ![a, k]⟩ (1 : Fin 2) [⟨⟨2, ![a, n]⟩, x₁⟩, ⟨⟨2, ![a, m]⟩, x₂⟩] h (ix2 p c) = x₁ (ix2 p ⟨c.val, hc⟩) :=
  concatenate_pair_apply_left (1 : Fin 2) x₁ x₂ h (ix2 p c) rfl (ix2 p ⟨c.val, hc⟩) fun b =>
    match b with | ⟨0, _⟩ => rfl | ⟨1, _⟩ => rfl

/-- Joined along the columns, an entry whose column is in the second piece. -/
theorem concat_cols_right {a n m k : Nat} (x₁ : (⟨2, ![a, n]⟩ : Shape).Idx → α) (x₂ : (⟨2, ![a, m]⟩ : Shape).Idx → α)
    (h : Shape.Concatenates [⟨2, ![a, n]⟩, ⟨2, ![a, m]⟩] ⟨2, ![a, k]⟩ (1 : Fin 2)) (p : Fin a) (c : Fin k) (hc : n ≤ c.val)
    (hm : c.val - n < m) :
    concatenate ⟨2, ![a, k]⟩ (1 : Fin 2) [⟨⟨2, ![a, n]⟩, x₁⟩, ⟨⟨2, ![a, m]⟩, x₂⟩] h (ix2 p c) = x₂ (ix2 p ⟨c.val - n, hm⟩) :=
  concatenate_pair_apply_right (1 : Fin 2) x₁ x₂ h (ix2 p c) rfl rfl (ix2 p ⟨c.val - n, hm⟩)
    (fun b hb => match b, hb with
      | ⟨0, _⟩, _ => rfl
      | ⟨1, _⟩, hb => absurd rfl hb)
    (by show c.val - n + n = c.val; omega)

/-- Joined along the rows, an entry whose row is in the first piece. -/
theorem concat_rows_left {n m k b : Nat} (x₁ : (⟨2, ![n, b]⟩ : Shape).Idx → α) (x₂ : (⟨2, ![m, b]⟩ : Shape).Idx → α)
    (h : Shape.Concatenates [⟨2, ![n, b]⟩, ⟨2, ![m, b]⟩] ⟨2, ![k, b]⟩ (0 : Fin 2)) (r : Fin k) (c : Fin b) (hr : r.val < n) :
    concatenate ⟨2, ![k, b]⟩ (0 : Fin 2) [⟨⟨2, ![n, b]⟩, x₁⟩, ⟨⟨2, ![m, b]⟩, x₂⟩] h (ix2 r c) = x₁ (ix2 ⟨r.val, hr⟩ c) :=
  concatenate_pair_apply_left (0 : Fin 2) x₁ x₂ h (ix2 r c) rfl (ix2 ⟨r.val, hr⟩ c) fun b =>
    match b with | ⟨0, _⟩ => rfl | ⟨1, _⟩ => rfl

/-- Joined along the rows, an entry whose row is in the second piece. -/
theorem concat_rows_right {n m k b : Nat} (x₁ : (⟨2, ![n, b]⟩ : Shape).Idx → α) (x₂ : (⟨2, ![m, b]⟩ : Shape).Idx → α)
    (h : Shape.Concatenates [⟨2, ![n, b]⟩, ⟨2, ![m, b]⟩] ⟨2, ![k, b]⟩ (0 : Fin 2)) (r : Fin k) (c : Fin b) (hr : n ≤ r.val)
    (hm : r.val - n < m) :
    concatenate ⟨2, ![k, b]⟩ (0 : Fin 2) [⟨⟨2, ![n, b]⟩, x₁⟩, ⟨⟨2, ![m, b]⟩, x₂⟩] h (ix2 r c) = x₂ (ix2 ⟨r.val - n, hm⟩ c) :=
  concatenate_pair_apply_right (0 : Fin 2) x₁ x₂ h (ix2 r c) rfl rfl (ix2 ⟨r.val - n, hm⟩ c)
    (fun b hb => match b, hb with
      | ⟨0, _⟩, hb => absurd rfl hb
      | ⟨1, _⟩, _ => rfl)
    (by show r.val - n + n = r.val; omega)

/-- A column broadcast across a row: at (p, c), the column's entry p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayoutPairs

end
-- ==== Proof.RefCell.lean ====
/-
  The reference program, stage by stage, computes the tree-GRU decoder step of the specification.

  Every stage of the reference is an array over the 16384 nodes. Read at node n (and a coordinate g), each is the
  specification's function of node n's row data and the weights: the sums over the neighbour axis are the row's sums, a
  matrix product against a transposed [out, in] weight is the layer's sum over the input coordinate, a product against a
  concatenated input [u, v] splits into the sum over u's columns plus the sum over v's columns, and the host's spelling
  1 / (1 + e^(−t)) of the logistic function is the logistic function. The gathered arrays (embeddings, messages, contexts)
  are kept as they are: the row data is read off them.
-/
import proofs.«164827_j35158602285573_2_alg».proof.Proof.Gen.ReferenceIdeal.Read
import proofs.«164827_j35158602285573_2_alg».proof.Proof.Spec
import proofs.«164827_j35158602285573_2_alg».proof.Proof.Algebra
import proofs.«164827_j35158602285573_2_alg».proof.Proof.LibLayoutPairs

noncomputable section

open scoped BigOperators

namespace Cert.ReferenceIdeal.RefCell

open Cert.ReferenceIdeal Cert.ReferenceIdeal.Gen Cert.ReferenceIdeal.Read Cert.Cell Idealize.ShloMosaic Idealize.ShloMosaic.ValueIdx

variable (a0 a1 : (⟨S16384, .i32⟩ : BufTy).Contents (Elt Ideal))
  (a2 a3 a4 a5 : (⟨S16384x15, .i32⟩ : BufTy).Contents (Elt Ideal))
  (a6 : (⟨S65536x512, .f32⟩ : BufTy).Contents (Elt Ideal))
  (a7 : (⟨S256x128, .f32⟩ : BufTy).Contents (Elt Ideal))
  (a8 : (⟨S1024x512, .f32⟩ : BufTy).Contents (Elt Ideal))
  (a9 : (⟨S512x1024, .f32⟩ : BufTy).Contents (Elt Ideal))
  (a10 : (⟨S512, .f32⟩ : BufTy).Contents (Elt Ideal))
  (a11 : (⟨S512x512, .f32⟩ : BufTy).Contents (Elt Ideal))
  (a12 : (⟨S512, .f32⟩ : BufTy).Contents (Elt Ideal))
  (a13 : (⟨S512x512, .f32⟩ : BufTy).Contents (Elt Ideal))
  (a14 : (⟨S512x1024, .f32⟩ : BufTy).Contents (Elt Ideal))
  (a15 : (⟨S512, .f32⟩ : BufTy).Contents (Elt Ideal))
  (a16 : (⟨S512x640, .f32⟩ : BufTy).Contents (Elt Ideal))
  (a17 : (⟨S512, .f32⟩ : BufTy).Contents (Elt Ideal))
  (a18 : (⟨S1024x512, .f32⟩ : BufTy).Contents (Elt Ideal))
  (a19 : (⟨S1024, .f32⟩ : BufTy).Contents (Elt Ideal))
  (a20 : (⟨S512x1024, .f32⟩ : BufTy).Contents (Elt Ideal))
  (a21 : (⟨S512, .f32⟩ : BufTy).Contents (Elt Ideal))
  (a22 : (⟨S512x640, .f32⟩ : BufTy).Contents (Elt Ideal))
  (a23 : (⟨S512, .f32⟩ : BufTy).Contents (Elt Ideal))
  (a24 : (⟨S1x512, .f32⟩ : BufTy).Contents (Elt Ideal))
  (a25 : (⟨S1, .f32⟩ : BufTy).Contents (Elt Ideal))

/-- The reference's weights. -/
local notation "W" => refWeights a9 a10 a11 a12 a13 a14 a15 a16 a17 a18 a19 a20 a21 a22 a23 a24 a25
/-- Node n's row data in the reference. -/
local notation "R" => refRow (val_main_v6 (F := Ideal) a0 a8) (val_main_v17 (F := Ideal) a2 a3 a6) (val_main_v28 (F := Ideal) a4 a5 a6) (val_main_v78 (F := Ideal) a1 a7)

/-! ## A product against a joined row -/

/-- A row [u, v] joined from two pieces, multiplied entry by entry against w and summed: the sum over u's columns against the
    first entries of w plus the sum over v's columns against the last. -/
theorem dot_concat {a A B K : ℕ} (hK : A + B = K)
    (x₁ : (⟨2, ![a, A]⟩ : Shape).Idx → EReal) (x₂ : (⟨2, ![a, B]⟩ : Shape).Idx → EReal)
    (h : Shape.Concatenates [⟨2, ![a, A]⟩, ⟨2, ![a, B]⟩] ⟨2, ![a, K]⟩ (1 : Fin 2))
    (w : Fin K → EReal) (p : Fin a) :
    ∑ k : Fin K, concatenate ⟨2, ![a, K]⟩ (1 : Fin 2) [⟨⟨2, ![a, A]⟩, x₁⟩, ⟨⟨2, ![a, B]⟩, x₂⟩] h (ix2 p k) * w k
      = ∑ k : Fin A, x₁ (ix2 p k) * w ⟨k.val, by have := k.isLt; omega⟩
        + ∑ k : Fin B, x₂ (ix2 p k) * w ⟨A + k.val, by have := k.isLt; omega⟩ := by
  rw [Cert.Algebra.sum_split A B K hK]
  congr 1
  · refine Finset.sum_congr rfl fun k _ => ?_
    rw [Cert.LibLayoutPairs.concat_cols_left x₁ x₂ h p ⟨k.val, by have := k.isLt; omega⟩ k.isLt]
  · refine Finset.sum_congr rfl fun k _ => ?_
    rw [Cert.LibLayoutPairs.concat_cols_right x₁ x₂ h p ⟨A + k.val, by have := k.isLt; omega⟩ (Nat.le_add_right _ _)
      (by show A + k.val - A < B; have := k.isLt; omega)]
    have e : (⟨A + k.val - A, by have := k.isLt; omega⟩ : Fin B) = k := Fin.ext (by show A + k.val - A = k.val; omega)
    rw [e]

/-! ## The sums over the neighbour axis -/

/-- The sum of the masked neighbour messages is the row's sum. -/
theorem v29_eq (n : Fin 16384) (h : Fin 512) :
    val_main_v29 (F := Ideal) a2 a3 a6 (ix2 n h) = (R n).sh h := by
  rw [val_main_v29_apply]
  have e : ∀ k : Fin 15, idx_main_v29 (ix2 n h) k = ix3 n k h := fun k => funext fun a => Fin.ext (by match a with | ⟨0, _⟩ => rfl | ⟨1, _⟩ => rfl | ⟨2, _⟩ => rfl)
  simp only [e]
  rfl

/-- The sum of the masked "o" messages is the row's "o" sum. -/
theorem v71_eq (n : Fin 16384) (h : Fin 512) :
    val_main_v71 (F := Ideal) a4 a5 a6 (ix2 n h) = (R n).co h := by
  rw [val_main_v71_apply]
  have e : ∀ k : Fin 15, idx_main_v71 (ix2 n h) k = ix3 n k h := fun k => funext fun a => Fin.ext (by match a with | ⟨0, _⟩ => rfl | ⟨1, _⟩ => rfl | ⟨2, _⟩ => rfl)
  simp only [e]
  rfl

/-! ## The reset gate's node part -/

/-- x · Wrᵀ + br, the transposed matrix read at (k, g) as the matrix at (g, k). -/
theorem v46_eq (n : Fin 16384) (g : Fin 512) :
    val_main_v46 (F := Ideal) a0 a8 a11 a12 (ix2 n g) = Cell.r1 W (R n) g := by
  rw [val_main_v46_apply, val_main_v43_apply, val_main_v45_apply, val_main_v44_apply]
  simp only [val_main_v42_apply]
  have el : ∀ k : Fin 512, lidx_main_v43 (ix2 n g) k = ix2 n k := fun k => funext fun a => Fin.ext (by match a with | ⟨0, _⟩ => rfl | ⟨1, _⟩ => rfl)
  have er : ∀ k : Fin 512, idx_main_v42 (ridx_main_v43 (ix2 n g) k) = ix2 g k := fun k => funext fun a => Fin.ext (by match a with | ⟨0, _⟩ => rfl | ⟨1, _⟩ => rfl)
  have eb : idx_main_v44 (idx_main_v45 (ix2 n g)) = ix1 g := funext fun a => Fin.ext (by match a with | ⟨0, _⟩ => rfl)
  simp only [el, er, eb, Ideal.addf_def]
  rfl

/-! ## The reset gates and the gated sum -/

/-- Neighbour k's reset gate: the logistic function of r1 + h_k · Urᵀ. -/
theorem v56_eq (n : Fin 16384) (k : Fin 15) (g : Fin 512) :
    val_main_v56 (F := Ideal) a0 a2 a3 a6 a8 a11 a12 a13 (ix3 n k g)
      = Ideal.logistic (Cell.r1 W (R n) g + ∑ j : Fin 512, (R n).hn k j * (W).Ur j g) := by
  rw [val_main_v56_apply, val_main_v55_apply, val_main_cst_8_apply, val_main_v54_apply, val_main_v53_apply,
    val_main_cst_7_apply, val_main_v52_apply, val_main_v51_apply, val_main_v50_apply, val_main_v49_apply,
    val_main_v47_apply, val_main_v48_apply]
  have e1 : idx_main_v47 (idx_main_v49 (ix3 n k g)) = ix2 n g := funext fun a => Fin.ext (by match a with | ⟨0, _⟩ => rfl | ⟨1, _⟩ => rfl)
  have el : ∀ j : Fin 512, lidx_main_v48 (ix3 n k g) j = ix3 n k j := fun j => funext fun a => Fin.ext (by match a with | ⟨0, _⟩ => rfl | ⟨1, _⟩ => rfl | ⟨2, _⟩ => rfl)
  have er : ∀ j : Fin 512, ridx_main_v48 (ix3 n k g) j = ix2 g j := fun j => funext fun a => Fin.ext (by match a with | ⟨0, _⟩ => rfl | ⟨1, _⟩ => rfl)
  simp only [e1, el, er, v46_eq a0 a1 a2 a3 a4 a5 a6 a7 a8 a9 a10 a11 a12 a13 a14 a15 a16 a17 a18 a19 a20 a21 a22 a23 a24 a25, Ideal.hostDivf_def, Ideal.addf_def, Ideal.hostUnary_exp_def, Ideal.hostNegf_def, Ideal.negf_def, Ideal.ofBits_def]
  exact Cert.Algebra.host_logistic _

/-- The sum over the neighbours of gate ⊙ message. -/
theorem v58_eq (n : Fin 16384) (g : Fin 512) :
    val_main_v58 (F := Ideal) a0 a2 a3 a6 a8 a11 a12 a13 (ix2 n g) = Cell.gated W (R n) g := by
  rw [val_main_v58_apply]
  have e : ∀ k : Fin 15, idx_main_v58 (ix2 n g) k = ix3 n k g := fun k => funext fun a => Fin.ext (by match a with | ⟨0, _⟩ => rfl | ⟨1, _⟩ => rfl | ⟨2, _⟩ => rfl)
  simp only [e, val_main_v57_apply, v56_eq a0 a1 a2 a3 a4 a5 a6 a7 a8 a9 a10 a11 a12 a13 a14 a15 a16 a17 a18 a19 a20 a21 a22 a23 a24 a25, Ideal.mulf_def]
  rfl

/-! ## The update gate -/

/-- [x, s] · Wzᵀ + bz, split into x's columns and s's columns. -/
theorem v35_eq (n : Fin 16384) (g : Fin 512) :
    val_main_v35 (F := Ideal) a0 a2 a3 a6 a8 a9 a10 (ix2 n g) = lin2 (R n).x (W).Wzx (R n).sh (W).Wzh (W).bz g := by
  rw [val_main_v35_apply, val_main_v32_apply, val_main_v34_apply, val_main_v33_apply]
  simp only [val_main_v31_apply]
  have el : ∀ k : Fin 1024, lidx_main_v32 (ix2 n g) k = ix2 n k := fun k => funext fun a => Fin.ext (by match a with | ⟨0, _⟩ => rfl | ⟨1, _⟩ => rfl)
  have er : ∀ k : Fin 1024, idx_main_v31 (ridx_main_v32 (ix2 n g) k) = ix2 g k := fun k => funext fun a => Fin.ext (by match a with | ⟨0, _⟩ => rfl | ⟨1, _⟩ => rfl)
  have eb : idx_main_v33 (idx_main_v34 (ix2 n g)) = ix1 g := funext fun a => Fin.ext (by match a with | ⟨0, _⟩ => rfl)
  simp only [el, er, eb, Ideal.addf_def]
  have hd := dot_concat (A := 512) (B := 512) (K := 1024) rfl (val_main_v6 (F := Ideal) a0 a8) (val_main_v29 (F := Ideal) a2 a3 a6)
    concatenates_S16384x512_S16384x512_S16384x1024_d1 (fun k => a9 (ix2 g k)) n
  simp only [v29_eq a0 a1 a2 a3 a4 a5 a6 a7 a8] at hd
  exact congrArg (fun t : EReal => t + a10 (ix1 g)) hd

/-- The update gate: the logistic function of the layer above. -/
theorem v41_eq (n : Fin 16384) (g : Fin 512) :
    val_main_v41 (F := Ideal) a0 a2 a3 a6 a8 a9 a10 (ix2 n g) = Cell.zG W (R n) g := by
  rw [val_main_v41_apply, val_main_v40_apply, val_main_cst_6_apply, val_main_v39_apply, val_main_v38_apply,
    val_main_cst_5_apply, val_main_v37_apply, val_main_v36_apply, v35_eq a0 a1 a2 a3 a4 a5 a6 a7 a8 a9 a10 a11 a12 a13 a14 a15 a16 a17 a18 a19 a20 a21 a22 a23 a24 a25]
  simp only [Ideal.hostDivf_def, Ideal.addf_def, Ideal.hostUnary_exp_def, Ideal.hostNegf_def, Ideal.negf_def, Ideal.ofBits_def]
  exact Cert.Algebra.host_logistic _

/-! ## The candidate state and the new message -/

/-- [x, gated] · Whᵀ + bh, split into x's columns and the gated sum's columns. -/
theorem v64_eq (n : Fin 16384) (g : Fin 512) :
    val_main_v64 (F := Ideal) a0 a2 a3 a6 a8 a11 a12 a13 a14 a15 (ix2 n g) = lin2 (R n).x (W).Whx (Cell.gated W (R n)) (W).Whh (W).bh g := by
  rw [val_main_v64_apply, val_main_v61_apply, val_main_v63_apply, val_main_v62_apply]
  simp only [val_main_v60_apply]
  have el : ∀ k : Fin 1024, lidx_main_v61 (ix2 n g) k = ix2 n k := fun k => funext fun a => Fin.ext (by match a with | ⟨0, _⟩ => rfl | ⟨1, _⟩ => rfl)
  have er : ∀ k : Fin 1024, idx_main_v60 (ridx_main_v61 (ix2 n g) k) = ix2 g k := fun k => funext fun a => Fin.ext (by match a with | ⟨0, _⟩ => rfl | ⟨1, _⟩ => rfl)
  have eb : idx_main_v62 (idx_main_v63 (ix2 n g)) = ix1 g := funext fun a => Fin.ext (by match a with | ⟨0, _⟩ => rfl)
  simp only [el, er, eb, Ideal.addf_def]
  have hd := dot_concat (A := 512) (B := 512) (K := 1024) rfl (val_main_v6 (F := Ideal) a0 a8) (val_main_v58 (F := Ideal) a0 a2 a3 a6 a8 a11 a12 a13)
    concatenates_S16384x512_S16384x512_S16384x1024_d1 (fun k => a14 (ix2 g k)) n
  simp only [v58_eq a0 a1 a2 a3 a4 a5 a6 a7 a8 a9 a10 a11 a12 a13 a14 a15 a16 a17 a18 a19 a20 a21 a22 a23 a24 a25] at hd
  exact congrArg (fun t : EReal => t + a15 (ix1 g)) hd

/-- The candidate state: tanh of the layer above. -/
theorem v65_eq (n : Fin 16384) (g : Fin 512) :
    val_main_v65 (F := Ideal) a0 a2 a3 a6 a8 a11 a12 a13 a14 a15 (ix2 n g) = Cell.preH W (R n) g := by
  rw [val_main_v65_apply, v64_eq a0 a1 a2 a3 a4 a5 a6 a7 a8 a9 a10 a11 a12 a13 a14 a15 a16 a17 a18 a19 a20 a21 a22 a23 a24 a25]
  rfl

/-- The new message (1 − z) ⊙ s + z ⊙ h̃. -/
theorem v70_eq (n : Fin 16384) (g : Fin 512) :
    val_main_v70 (F := Ideal) a0 a2 a3 a6 a8 a9 a10 a11 a12 a13 a14 a15 (ix2 n g) = Cell.newH W (R n) g := by
  rw [val_main_v70_apply, val_main_v68_apply, val_main_v69_apply, val_main_v67_apply, val_main_v66_apply,
    val_main_cst_10_apply, v41_eq a0 a1 a2 a3 a4 a5 a6 a7 a8 a9 a10 a11 a12 a13 a14 a15 a16 a17 a18 a19 a20 a21 a22 a23 a24 a25, v65_eq a0 a1 a2 a3 a4 a5 a6 a7 a8 a9 a10 a11 a12 a13 a14 a15 a16 a17 a18 a19 a20 a21 a22 a23 a24 a25, v29_eq a0 a1 a2 a3 a4 a5 a6 a7 a8]
  rfl

/-! ## The word head -/

/-- [new_h, c] · Wᵀ + bw, split into the new message's columns and the context's columns. -/
theorem v84_eq (n : Fin 16384) (g : Fin 512) :
    val_main_v84 (F := Ideal) a0 a1 a2 a3 a6 a7 a8 a9 a10 a11 a12 a13 a14 a15 a16 a17 (ix2 n g) = lin2 (Cell.newH W (R n)) (W).Wwh (R n).cx (W).Wwl (W).bw g := by
  rw [val_main_v84_apply, val_main_v81_apply, val_main_v83_apply, val_main_v82_apply]
  simp only [val_main_v80_apply]
  have el : ∀ k : Fin 640, lidx_main_v81 (ix2 n g) k = ix2 n k := fun k => funext fun a => Fin.ext (by match a with | ⟨0, _⟩ => rfl | ⟨1, _⟩ => rfl)
  have er : ∀ k : Fin 640, idx_main_v80 (ridx_main_v81 (ix2 n g) k) = ix2 g k := fun k => funext fun a => Fin.ext (by match a with | ⟨0, _⟩ => rfl | ⟨1, _⟩ => rfl)
  have eb : idx_main_v82 (idx_main_v83 (ix2 n g)) = ix1 g := funext fun a => Fin.ext (by match a with | ⟨0, _⟩ => rfl)
  simp only [el, er, eb, Ideal.addf_def]
  have hd := dot_concat (A := 512) (B := 128) (K := 640) rfl (val_main_v70 (F := Ideal) a0 a2 a3 a6 a8 a9 a10 a11 a12 a13 a14 a15) (val_main_v78 (F := Ideal) a1 a7)
    concatenates_S16384x512_S16384x128_S16384x640_d1 (fun k => a16 (ix2 g k)) n
  simp only [v70_eq a0 a1 a2 a3 a4 a5 a6 a7 a8 a9 a10 a11 a12 a13 a14 a15 a16 a17 a18 a19 a20 a21 a22 a23 a24 a25] at hd
  exact congrArg (fun t : EReal => t + a17 (ix1 g)) hd

/-- The word head's hidden layer: the maximum of the layer above and the word of +0.0. -/
theorem v85_eq (n : Fin 16384) (g : Fin 512) :
    val_main_v85 (F := Ideal) a0 a1 a2 a3 a6 a7 a8 a9 a10 a11 a12 a13 a14 a15 a16 a17 (ix2 n g) = Cell.wHid W (R n) g := by
  rw [val_main_v85_apply, val_main_call0_v0_apply, val_main_call0_cst_apply, v84_eq a0 a1 a2 a3 a4 a5 a6 a7 a8 a9 a10 a11 a12 a13 a14 a15 a16 a17 a18 a19 a20 a21 a22 a23 a24 a25]
  rfl

/-- The word scores: w_hid · Woᵀ + bo. -/
theorem word_eq (n : Fin 16384) (j : Fin 1024) :
    val_main_v90 (F := Ideal) a0 a1 a2 a3 a6 a7 a8 a9 a10 a11 a12 a13 a14 a15 a16 a17 a18 a19 (ix2 n j) = Cell.word W (R n) j := by
  rw [val_main_v90_apply, val_main_v87_apply, val_main_v89_apply, val_main_v88_apply]
  simp only [val_main_v86_apply]
  have el : ∀ k : Fin 512, lidx_main_v87 (ix2 n j) k = ix2 n k := fun k => funext fun a => Fin.ext (by match a with | ⟨0, _⟩ => rfl | ⟨1, _⟩ => rfl)
  have er : ∀ k : Fin 512, idx_main_v86 (ridx_main_v87 (ix2 n j) k) = ix2 j k := fun k => funext fun a => Fin.ext (by match a with | ⟨0, _⟩ => rfl | ⟨1, _⟩ => rfl)
  have eb : idx_main_v88 (idx_main_v89 (ix2 n j)) = ix1 j := funext fun a => Fin.ext (by match a with | ⟨0, _⟩ => rfl)
  simp only [el, er, eb, Ideal.addf_def, v85_eq a0 a1 a2 a3 a4 a5 a6 a7 a8 a9 a10 a11 a12 a13 a14 a15 a16 a17 a18 a19 a20 a21 a22 a23 a24 a25]
  rfl

/-! ## The stop head -/

/-- [x, o] · Uiᵀ + bi, split into x's columns and the o-sum's columns. -/
theorem v96_eq (n : Fin 16384) (g : Fin 512) :
    val_main_v96 (F := Ideal) a0 a4 a5 a6 a8 a20 a21 (ix2 n g) = lin2 (R n).x (W).Uix (R n).co (W).Uio (W).bi g := by
  rw [val_main_v96_apply, val_main_v93_apply, val_main_v95_apply, val_main_v94_apply]
  simp only [val_main_v92_apply]
  have el : ∀ k : Fin 1024, lidx_main_v93 (ix2 n g) k = ix2 n k := fun k => funext fun a => Fin.ext (by match a with | ⟨0, _⟩ => rfl | ⟨1, _⟩ => rfl)
  have er : ∀ k : Fin 1024, idx_main_v92 (ridx_main_v93 (ix2 n g) k) = ix2 g k := fun k => funext fun a => Fin.ext (by match a with | ⟨0, _⟩ => rfl | ⟨1, _⟩ => rfl)
  have eb : idx_main_v94 (idx_main_v95 (ix2 n g)) = ix1 g := funext fun a => Fin.ext (by match a with | ⟨0, _⟩ => rfl)
  simp only [el, er, eb, Ideal.addf_def]
  have hd := dot_concat (A := 512) (B := 512) (K := 1024) rfl (val_main_v6 (F := Ideal) a0 a8) (val_main_v71 (F := Ideal) a4 a5 a6)
    concatenates_S16384x512_S16384x512_S16384x1024_d1 (fun k => a20 (ix2 g k)) n
  simp only [v71_eq a0 a1 a2 a3 a4 a5 a6 a7 a8] at hd
  exact congrArg (fun t : EReal => t + a21 (ix1 g)) hd

/-- The stop head's first hidden layer. -/
theorem v97_eq (n : Fin 16384) (g : Fin 512) :
    val_main_v97 (F := Ideal) a0 a4 a5 a6 a8 a20 a21 (ix2 n g) = Cell.stopH W (R n) g := by
  rw [val_main_v97_apply, val_main_call1_v0_apply, val_main_call1_cst_apply, v96_eq a0 a1 a2 a3 a4 a5 a6 a7 a8 a9 a10 a11 a12 a13 a14 a15 a16 a17 a18 a19 a20 a21 a22 a23 a24 a25]
  rfl

/-- [stop_h, c] · Uᵀ + bu, split into the first hidden layer's columns and the context's columns. -/
theorem v103_eq (n : Fin 16384) (g : Fin 512) :
    val_main_v103 (F := Ideal) a0 a1 a4 a5 a6 a7 a8 a20 a21 a22 a23 (ix2 n g) = lin2 (Cell.stopH W (R n)) (W).Uwh (R n).cx (W).Uwl (W).bu g := by
  rw [val_main_v103_apply, val_main_v100_apply, val_main_v102_apply, val_main_v101_apply]
  simp only [val_main_v99_apply]
  have el : ∀ k : Fin 640, lidx_main_v100 (ix2 n g) k = ix2 n k := fun k => funext fun a => Fin.ext (by match a with | ⟨0, _⟩ => rfl | ⟨1, _⟩ => rfl)
  have er : ∀ k : Fin 640, idx_main_v99 (ridx_main_v100 (ix2 n g) k) = ix2 g k := fun k => funext fun a => Fin.ext (by match a with | ⟨0, _⟩ => rfl | ⟨1, _⟩ => rfl)
  have eb : idx_main_v101 (idx_main_v102 (ix2 n g)) = ix1 g := funext fun a => Fin.ext (by match a with | ⟨0, _⟩ => rfl)
  simp only [el, er, eb, Ideal.addf_def]
  have hd := dot_concat (A := 512) (B := 128) (K := 640) rfl (val_main_v97 (F := Ideal) a0 a4 a5 a6 a8 a20 a21) (val_main_v78 (F := Ideal) a1 a7)
    concatenates_S16384x512_S16384x128_S16384x640_d1 (fun k => a22 (ix2 g k)) n
  simp only [v97_eq a0 a1 a2 a3 a4 a5 a6 a7 a8 a9 a10 a11 a12 a13 a14 a15 a16 a17 a18 a19 a20 a21 a22 a23 a24 a25] at hd
  exact congrArg (fun t : EReal => t + a23 (ix1 g)) hd

/-- The stop head's second hidden layer. -/
theorem v104_eq (n : Fin 16384) (g : Fin 512) :
    val_main_v104 (F := Ideal) a0 a1 a4 a5 a6 a7 a8 a20 a21 a22 a23 (ix2 n g) = Cell.sHid W (R n) g := by
  rw [val_main_v104_apply, val_main_call2_v0_apply, val_main_call2_cst_apply, v103_eq a0 a1 a2 a3 a4 a5 a6 a7 a8 a9 a10 a11 a12 a13 a14 a15 a16 a17 a18 a19 a20 a21 a22 a23 a24 a25]
  rfl

/-- The stop score: s_hid · uoᵀ + ub, the [1, 512] row read as a column. -/
theorem stop_eq (n : Fin 16384) :
    val_main_v109 (F := Ideal) a0 a1 a4 a5 a6 a7 a8 a20 a21 a22 a23 a24 a25 (ix2 n (0 : Fin 1)) = Cell.stop W (R n) := by
  rw [val_main_v109_apply, val_main_v106_apply, val_main_v108_apply, val_main_v107_apply]
  simp only [val_main_v105_apply]
  have el : ∀ k : Fin 512, lidx_main_v106 (ix2 n (0 : Fin 1)) k = ix2 n k := fun k => funext fun a => Fin.ext (by match a with | ⟨0, _⟩ => rfl | ⟨1, _⟩ => rfl)
  have er : ∀ k : Fin 512, idx_main_v105 (ridx_main_v106 (ix2 n (0 : Fin 1)) k) = ix2 (0 : Fin 1) k := fun k => funext fun a => Fin.ext (by match a with | ⟨0, _⟩ => rfl | ⟨1, _⟩ => rfl)
  have eb : idx_main_v107 (idx_main_v108 (ix2 n (0 : Fin 1))) = ix1 (0 : Fin 1) := funext fun a => Fin.ext (by match a with | ⟨0, _⟩ => rfl)
  simp only [el, er, eb, Ideal.addf_def, v104_eq a0 a1 a2 a3 a4 a5 a6 a7 a8 a9 a10 a11 a12 a13 a14 a15 a16 a17 a18 a19 a20 a21 a22 a23 a24 a25]
  rfl

/-! ## The output: the word scores with the stop score joined as the last column -/

/-- A column before the last is the word score. -/
theorem out_left (n : Fin 16384) (j : Fin 1025) (hj : j.val < 1024) :
    val_main_v110 (F := Ideal) a0 a1 a2 a3 a4 a5 a6 a7 a8 a9 a10 a11 a12 a13 a14 a15 a16 a17 a18 a19 a20 a21 a22 a23 a24 a25 (ix2 n j) = val_main_v90 (F := Ideal) a0 a1 a2 a3 a6 a7 a8 a9 a10 a11 a12 a13 a14 a15 a16 a17 a18 a19 (ix2 n ⟨j.val, hj⟩) := by
  unfold val_main_v110
  exact Cert.LibLayoutPairs.concat_cols_left _ _ concatenates_S16384x1024_S16384x1_S16384x1025_d1 n j hj

/-- The last column is the stop score. -/
theorem out_right (n : Fin 16384) (j : Fin 1025) (hj : j.val = 1024) :
    val_main_v110 (F := Ideal) a0 a1 a2 a3 a4 a5 a6 a7 a8 a9 a10 a11 a12 a13 a14 a15 a16 a17 a18 a19 a20 a21 a22 a23 a24 a25 (ix2 n j) = val_main_v109 (F := Ideal) a0 a1 a4 a5 a6 a7 a8 a20 a21 a22 a23 a24 a25 (ix2 n (0 : Fin 1)) := by
  unfold val_main_v110
  refine (Cert.LibLayoutPairs.concat_cols_right _ _ concatenates_S16384x1024_S16384x1_S16384x1025_d1 n j
    (by omega) (by omega)).trans ?_
  exact congrArg _ (congrArg (ix2 n) (Fin.ext (by show j.val - 1024 = 0; omega)))

end Cert.ReferenceIdeal.RefCell

end
-- ==== Proof.Final.lean ====
/-
  The kernel's result array after the run is the reference's result array of the same arguments.

  The grid has 64 points; point t works on rows 256·t … 256·t + 255 and writes back a [256, 1025] block whose first 1024
  columns are the word scores and whose last column is the stop score of those rows. Row p of the block at point t is node
  256·t + p. By the body's row reading, the block rows' data and the weight blocks being the reference's, and the reference's
  stages being the same cell of that data, every written-back entry is the reference's entry at the index it lands on; the
  64 blocks cover the array; so the array is the reference's.
-/
import proofs.«164827_j35158602285573_2_alg».proof.Proof.PatchedValueKernelIdeal
import proofs.«164827_j35158602285573_2_alg».proof.Proof.Pay
import proofs.«164827_j35158602285573_2_alg».proof.Proof.LeafWeights
import proofs.«164827_j35158602285573_2_alg».proof.Proof.LeafRows
import proofs.«164827_j35158602285573_2_alg».proof.Proof.RefCell
import Idealize.ShloMosaic.Lib.Pipeline.Value

noncomputable section

namespace Cert.KernelIdeal.Final

open Cert.KernelIdeal Cert.KernelIdeal.Gen Cert.KernelIdeal.GenP Cert.KernelIdeal.ValueP Cert.KernelIdeal.Cellv Cert.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The reference's result array, as a function of this program's argument arrays. -/
def result (c : Dev nD) : Buf (Elt Ideal) ((c : Thread nD τ).loc main_v92) :=
  Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- The output window's index map: point t is row block t, the one column block. -/
theorem idx27 : ∀ t : Fin cfg0.N, win0_27.index t (0 : Fin 2) = t.val ∧ win0_27.index t (1 : Fin 2) = 0 :=
  (by decide +kernel : ∀ t : Fin grid0.N, _)

/-- Entry (p, j) of the block at point t sits at row 256·t + p, column j of the array. -/
theorem emb27 (t : Fin cfg0.N) (p : Fin 256) (j : Fin 1025) :
    ((cfg0.win 27).blk t).view.emb (ix2 p j) = ix2 (LeafRows.node t p) j := by
  obtain ⟨e0, e1⟩ := idx27 t
  funext a; apply Fin.ext
  match a with
  | ⟨0, _⟩ =>
    show win0_27.index t (0 : Fin 2) * 256 + 1 * p.val = 256 * t.val + p.val
    rw [e0]; omega
  | ⟨1, _⟩ =>
    show win0_27.index t (1 : Fin 2) * 1025 + 1 * j.val = j.val
    rw [e1]; omega

/-- What point t writes back is block t of the reference's result. -/
theorem flushed_eq (c : Dev nD) (t : Fin cfg0.N) :
    (dats m 0 c).flushed 27 t = ((cfg0.win 27).blk t).view.read (Elt Ideal) (result m c) := by
  rw [flushed27_A]
  funext y
  obtain ⟨p, j, rfl⟩ : ∃ (p : Fin 256) (j : Fin 1025), y = ix2 p j := ⟨y 0, y 1, eq_ix2 y⟩
  show out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p j)
    = result m c (((cfg0.win 27).blk t).view.emb (ix2 p j))
  rw [emb27 t p j]
  unfold result
  by_cases hj : j.val < 1024
  · rw [Cert.ReferenceIdeal.RefCell.out_left (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (LeafRows.node t p) j hj,
      Cert.ReferenceIdeal.RefCell.word_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (LeafRows.node t p) ⟨j.val, hj⟩,
      ← LeafWeights.ker_weights m c t, ← LeafRows.ker_row m c t p]
    exact Pay.out_word c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p j hj
  · have hj' : j.val = 1024 := by have := j.isLt; omega
    rw [Cert.ReferenceIdeal.RefCell.out_right (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (LeafRows.node t p) j hj',
      Cert.ReferenceIdeal.RefCell.stop_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (LeafRows.node t p),
      ← LeafWeights.ker_weights m c t, ← LeafRows.ker_row m c t p]
    exact Pay.out_stop c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p j hj'

/-- An index of the array is in point t's block iff each coordinate is in the block's range on its axis. -/
theorem mem_blk (t : Fin cfg0.N) (i : S16384x1025.Idx) :
    i ∈ ((cfg0.win 27).blk t).view.set ↔ ∀ a : Fin 2, win0_27.index t a * S256x1025.size a ≤ (i a).val
      ∧ (i a).val < win0_27.index t a * S256x1025.size a + S256x1025.size a := by
  show i ∈ ((View.whole main_v92).slice (win0_27.rect t)).set ↔ _
  rw [View.set_slice_whole, Rect.mem_set_unit]
  exact Iff.rfl

/-- Every index of the array is in the block of the point its row block names. -/
theorem cover (i : S16384x1025.Idx) :
    ∃ t : Fin cfg0.N, (cfg0.win 27).flush t = true ∧ i ∈ ((cfg0.win 27).blk t).view.set := by
  have hi0 : (i 0).val < 16384 := (i 0).isLt
  have hi1 : (i 1).val < 1025 := (i 1).isLt
  have hN : grid0.N = 64 := N_0
  have ht : (i 0).val / 256 < grid0.N := by rw [hN]; omega
  refine ⟨⟨(i 0).val / 256, ht⟩, flush0_27 _, ?_⟩
  obtain ⟨e0, e1⟩ := idx27 ⟨(i 0).val / 256, ht⟩
  rw [mem_blk]
  intro a
  match a with
  | ⟨0, _⟩ =>
    show win0_27.index ⟨(i 0).val / 256, ht⟩ (0 : Fin 2) * 256 ≤ (i 0).val
      ∧ (i 0).val < win0_27.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_27.index ⟨(i 0).val / 256, ht⟩ (1 : Fin 2) * 1025 ≤ (i 1).val
      ∧ (i 1).val < win0_27.index ⟨(i 0).val / 256, ht⟩ (1 : Fin 2) * 1025 + 1025
    rw [e1]; omega

/-- The result array after the run. -/
theorem final (c : Dev nD) : (dats m 0 c).arrAt 27 cfg0.N = result m c :=
  (dats m 0 c).arrAt_eq_of_cover 27 (result m c) (fun t _ => flushed_eq m c t) cover

/-- The run, read: the result array at the reference's function of the arguments, the arguments unchanged. -/
theorem run : θ_run defs (onTc (τ := τ) (main (F := Ideal))) ⟨m, fun _ => 0, ρ⟩ fun r => ∀ c : Dev nD,
      r.2.mem ((c : Thread nD τ).loc main_v92) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (final m c), (h c).2⟩) (run_blocks m ρ)

end Cert.KernelIdeal.Final

end
-- ==== Proof.lean ====
/-
  The certificate of the tree-GRU decoder step: the Pallas kernel (a grid of 64 blocks of 256 nodes, the gathers and the
  weight re-layouts done on the host before it) against the jnp reference, on the extended reals.

  Both programs compute, for every node, the word scores and the stop score of Spec.lean's cell. The kernel's body is that
  cell of its blocks' rows (KVocab.lean, Pay.lean); its blocks' rows and weight blocks are the reference's row data and
  weights (LeafRows.lean, LeafWeights.lean); the reference's stages are the cell of its row data, the only law used being
  that a sum over the joined columns of [u, v] splits into the two pieces' sums (RefCell.lean); the 64 written-back blocks
  cover the result array (Final.lean). The two kernel frame claims are the generated frames, the reference's its generated run;
  the idealization rewrote nothing, so the preservation claim is trivial.
-/
import proofs.«164827_j35158602285573_2_alg».proof.Defs
import proofs.«164827_j35158602285573_2_alg».proof.Proof.Gen.Kernel
import proofs.«164827_j35158602285573_2_alg».proof.Proof.PatchedFrameKernel
import proofs.«164827_j35158602285573_2_alg».proof.Proof.Gen.KernelIdeal
import proofs.«164827_j35158602285573_2_alg».proof.Proof.PatchedFrameKernelIdeal
import proofs.«164827_j35158602285573_2_alg».proof.Proof.PatchedValueKernelIdeal
import proofs.«164827_j35158602285573_2_alg».proof.Proof.Gen.ReferenceIdeal
import proofs.«164827_j35158602285573_2_alg».proof.Proof.Gen.ReferenceIdeal.Run
import proofs.«164827_j35158602285573_2_alg».proof.Proof.Gen.ReferenceIdeal.Read
import proofs.«164827_j35158602285573_2_alg».proof.Proof.Gen.Pre_finite_inputs
import proofs.«164827_j35158602285573_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result array of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25⟩ := hagree c
  rw [Cert.ReferenceIdeal.Read.val_main_v110_eq, h0, h1, h2, h3, h4, h5, h6, h7, h8, h9, h10, h11, h12, h13, h14, h15, h16, h17, h18, h19, h20, h21, h22, h23, h24, h25]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
